-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S64x128 : Shape := ⟨2, ![64, 128]⟩
abbrev S128x128 : Shape := ⟨2, ![128, 128]⟩
abbrev S128x1 : Shape := ⟨2, ![128, 1]⟩
abbrev S128x2 : Shape := ⟨2, ![128, 2]⟩
abbrev S2 : Shape := ⟨1, ![2]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_
  bcast_S_S2x800000 : S_.BroadcastsInDim S2x800000 (![] : Fin 0 → Fin S2x800000.rank)
  reducesTo_S2x800000_S_d0_1 : S2x800000.ReducesTo [0, 1] S_

variable [Facts]

def fn_part4 {F : FTy → Type} [FloatOps F] (main_arg1 : IVec S2x800000 32) (main_v63 : IVec S_ 1) (main_v67 : IVec S_ 1) : IVec S_ 1 :=
  let main_v68 : IVec S_ 1 := andi main_v63 main_v67
  let main_c_26 : IVec S_ 32 := constantI S_ 32 0#32
  let main_v69 : IVec S2x800000 32 := broadcastInDim S2x800000 ![] bcast_S_S2x800000 main_c_26
  let main_v70 : IVec S2x800000 1 := cmpi .sge main_arg1 main_v69
  let main_c_27 : IVec S_ 32 := constantI S_ 32 50000#32
  let main_v71 : IVec S2x800000 32 := broadcastInDim S2x800000 ![] bcast_S_S2x800000 main_c_27
  let main_v72 : IVec S2x800000 1 := cmpi .slt main_arg1 main_v71
  let main_v73 : IVec S2x800000 1 := andi main_v70 main_v72
  let main_c_28 : IVec S_ 1 := constantI S_ 1 1#1
  let main_v74 : IVec S_ 1 := (fun x v => Host.reduce IntOp.andi x v reducesTo_S2x800000_S_d0_1 h_S_) main_v73 main_c_28
  let main_v75 : IVec S_ 1 := andi main_v68 main_v74
  main_v75

def fn_part3 {F : FTy → Type} [FloatOps F] (main_arg1 : IVec S2x800000 32) (main_arg12 : FVec F S128 .f32) (main_arg13 : FVec F S128x2 .f32) (main_arg14 : FVec F S2 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x2 .f32 := Host.absf main_arg13
  let main_cst_22 : FVec F S_ .f32 := constant S_ .f32 0x7F800000#32
  let main_v60 : FVec F S128x2 .f32 := broadcastInDim S128x2 ![] bcast_S_S128x2 main_cst_22
  let main_v61 : IVec S128x2 1 := cmpf .olt main_v59 main_v60
  let main_c_23 : IVec S_ 1 := constantI S_ 1 1#1
  let main_v62 : IVec S_ 1 := (fun x v => Host.reduce IntOp.andi x v reducesTo_S128x2_S_d0_1 h_S_) main_v61 main_c_23
  let main_v63 : IVec S_ 1 := andi main_v58 main_v62
  let main_v64 : FVec F S2 .f32 := Host.absf main_arg14
  let main_cst_24 : FVec F S_ .f32 := constant S_ .f32 0x7F800000#32
  let main_v65 : FVec F S2 .f32 := broadcastInDim S2 ![] bcast_S_S2 main_cst_24
  let main_v66 : IVec S2 1 := cmpf .olt main_v64 main_v65
  let main_c_25 : IVec S_ 1 := constantI S_ 1 1#1
  let main_v67 : IVec S_ 1 := (fun x v => Host.reduce IntOp.andi x v reducesTo_S2_S_d0 h_S_) main_v66 main_c_25
  fn_part4 (F := F) main_arg1 main_v63 main_v67

def fn_part2 {F : FTy → Type} [FloatOps F] (main_arg1 : IVec S2x800000 32) (main_arg8 : FVec F S128x128 .f32) (main_arg9 : FVec F S128 .f32) (main_arg10 : FVec F S128x1 .f32) (main_arg11 : FVec F S128x128 .f32) (main_arg12 : FVec F S128 .f32) (main_arg13 : FVec F S128x2 .f32) (main_arg14 : FVec F S2 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg10
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg1 main_arg12 main_arg13 main_arg14 main_v48 main_v49 main_v50

def fn_part1 {F : FTy → Type} [FloatOps F] (main_arg1 : IVec S2x800000 32) (main_arg5 : FVec F S128 .f32) (main_arg6 : FVec F S64x128 .f32) (main_arg7 : FVec F S128 .f32) (main_arg8 : FVec F S128x128 .f32) (main_arg9 : FVec F S128 .f32) (main_arg10 : FVec F S128x1 .f32) (main_arg11 : FVec F S128x128 .f32) (main_arg12 : FVec F S128 .f32) (main_arg13 : FVec F S128x2 .f32) (main_arg14 : FVec F S2 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_arg11 main_arg12 main_arg13 main_arg14 main_v33

def fn {F : FTy → Type} [FloatOps F] (main_arg0 : FVec F S50000x256 .f32) (main_arg1 : IVec S2x800000 32) (main_arg2 : FVec F S256x128 .f32) (main_arg3 : FVec F S128 .f32) (main_arg4 : FVec F S64x128 .f32) (main_arg5 : FVec F S128 .f32) (main_arg6 : FVec F S64x128 .f32) (main_arg7 : FVec F S128 .f32) (main_arg8 : FVec F S128x128 .f32) (main_arg9 : FVec F S128 .f32) (main_arg10 : FVec F S128x1 .f32) (main_arg11 : FVec F S128x128 .f32) (main_arg12 : FVec F S128 .f32) (main_arg13 : FVec F S128x2 .f32) (main_arg14 : FVec F S2 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg1 main_arg5 main_arg6 main_arg7 main_arg8 main_arg9 main_arg10 main_arg11 main_arg12 main_arg13 main_arg14 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S64x128 : Shape := ⟨2, ![64, 128]⟩
abbrev S128x128 : Shape := ⟨2, ![128, 128]⟩
abbrev S128x1 : Shape := ⟨2, ![128, 1]⟩
abbrev S128x2 : Shape := ⟨2, ![128, 2]⟩
abbrev S2 : Shape := ⟨1, ![2]⟩
abbrev S50000 : Shape := ⟨1, ![50000]⟩
abbrev S1x50000 : Shape := ⟨2, ![1, 50000]⟩
abbrev S1x1x1x50000 : Shape := ⟨4, ![1, 1, 1, 50000]⟩
abbrev S2x1x1x50000 : Shape := ⟨4, ![2, 1, 1, 50000]⟩
abbrev S2x50000 : Shape := ⟨2, ![2, 50000]⟩
abbrev S2x850000 : Shape := ⟨2, ![2, 850000]⟩
abbrev S1x850000 : Shape := ⟨2, ![1, 850000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S128x256 : Shape := ⟨2, ![128, 256]⟩
abbrev S1 : Shape := ⟨1, ![1]⟩
abbrev S256 : Shape := ⟨1, ![256]⟩
abbrev S1x128 : Shape := ⟨2, ![1, 128]⟩
abbrev S50000x128 : Shape := ⟨2, ![50000, 128]⟩
abbrev S5000x256 : Shape := ⟨2, ![5000, 256]⟩
abbrev S5000x1 : Shape := ⟨2, ![5000, 1]⟩
abbrev S5000x128 : Shape := ⟨2, ![5000, 128]⟩
abbrev S1x256 : Shape := ⟨2, ![1, 256]⟩
abbrev S5000 : Shape := ⟨1, ![5000]⟩
abbrev S850000x128 : Shape := ⟨2, ![850000, 128]⟩
abbrev S50000x2 : Shape := ⟨2, ![50000, 2]⟩
abbrev S5000x2 : Shape := ⟨2, ![5000, 2]⟩
abbrev S1x2 : Shape := ⟨2, ![1, 2]⟩

abbrev nBuf : Space → Nat
  | .hbm => 92
  | .vmem => 23
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S64x128, .f32⟩
  | .hbm, ⟨5, _⟩ => ⟨S128, .f32⟩
  | .hbm, ⟨6, _⟩ => ⟨S64x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x1, .f32⟩
  | .hbm, ⟨11, _⟩ => ⟨S128x128, .f32⟩
  | .hbm, ⟨12, _⟩ => ⟨S128, .f32⟩
  | .hbm, ⟨13, _⟩ => ⟨S128x2, .f32⟩
  | .hbm, ⟨14, _⟩ => ⟨S2, .f32⟩
  | .hbm, ⟨15, _⟩ => ⟨S50000, .i32⟩
  | .hbm, ⟨16, _⟩ => ⟨S1x50000, .i32⟩
  | .hbm, ⟨17, _⟩ => ⟨S1x1x1x50000, .i32⟩
  | .hbm, ⟨18, _⟩ => ⟨S2x1x1x50000, .i32⟩
  | .hbm, ⟨19, _⟩ => ⟨S2x50000, .i32⟩
  | .hbm, ⟨20, _⟩ => ⟨S2x850000, .i32⟩
  | .hbm, ⟨21, _⟩ => ⟨S1x850000, .i32⟩
  | .hbm, ⟨22, _⟩ => ⟨S850000, .i32⟩
  | .hbm, ⟨23, _⟩ => ⟨S1x850000, .i32⟩
  | .hbm, ⟨24, _⟩ => ⟨S850000, .i32⟩
  | .hbm, ⟨25, _⟩ => ⟨S_, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S_, .f32⟩
  | .hbm, ⟨36, _⟩ => ⟨S850000, .f32⟩
  | .hbm, ⟨37, _⟩ => ⟨S50000, .f32⟩
  | .hbm, ⟨38, _⟩ => ⟨S_, .f32⟩
  | .hbm, ⟨39, _⟩ => ⟨S50000, .f32⟩
  | .hbm, ⟨40, _⟩ => ⟨S50000, .i1⟩
  | .hbm, ⟨41, _⟩ => ⟨S_, .f32⟩
  | .hbm, ⟨42, _⟩ => ⟨S50000, .f32⟩
  | .hbm, ⟨43, _⟩ => ⟨S50000, .i1⟩
  | .hbm, ⟨44, _⟩ => ⟨S_, .f32⟩
  | .hbm, ⟨45, _⟩ => ⟨S_, .f32⟩
  | .hbm, ⟨46, _⟩ => ⟨S50000, .f32⟩
  | .hbm, ⟨47, _⟩ => ⟨S50000, .f32⟩
  | .hbm, ⟨48, _⟩ => ⟨S50000, .f32⟩
  | .hbm, ⟨49, _⟩ => ⟨S_, .f32⟩
  | .hbm, ⟨50, _⟩ => ⟨S_, .f32⟩
  | .hbm, ⟨51, _⟩ => ⟨S50000, .f32⟩
  | .hbm, ⟨52, _⟩ => ⟨S50000, .f32⟩
  | .hbm, ⟨53, _⟩ => ⟨S50000x1, .f32⟩
  | .hbm, ⟨54, _⟩ => ⟨S_, .f32⟩
  | .hbm, ⟨55, _⟩ => ⟨S128x256, .f32⟩
  | .hbm, ⟨56, _⟩ => ⟨S_, .i32⟩
  | .hbm, ⟨57, _⟩ => ⟨S1, .i32⟩
  | .hbm, ⟨58, _⟩ => ⟨S_, .i32⟩
  | .hbm, ⟨59, _⟩ => ⟨S1, .i32⟩
  | .hbm, ⟨60, _⟩ => ⟨S2, .i32⟩
  | .hbm, ⟨61, _⟩ => ⟨S128x256, .f32⟩
  | .hbm, ⟨62, _⟩ => ⟨S_, .i32⟩
  | .hbm, ⟨63, _⟩ => ⟨S1, .i32⟩
  | .hbm, ⟨64, _⟩ => ⟨S_, .i32⟩
  | .hbm, ⟨65, _⟩ => ⟨S1, .i32⟩
  | .hbm, ⟨66, _⟩ => ⟨S2, .i32⟩
  | .hbm, ⟨67, _⟩ => ⟨S128x256, .f32⟩
  | .hbm, ⟨68, _⟩ => ⟨S256, .f32⟩
  | .hbm, ⟨69, _⟩ => ⟨S1x128, .f32⟩
  | .hbm, ⟨70, _⟩ => ⟨S50000x128, .f32⟩
  | .hbm, ⟨71, _⟩ => ⟨S_, .f32⟩
  | .hbm, ⟨72, _⟩ => ⟨S50000x128, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x128, .f32⟩
  | .hbm, ⟨82, _⟩ => ⟨S_, .i32⟩
  | .hbm, ⟨83, _⟩ => ⟨S850000, .i32⟩
  | .hbm, ⟨84, _⟩ => ⟨S850000, .i1⟩
  | .hbm, ⟨85, _⟩ => ⟨S_, .i32⟩
  | .hbm, ⟨86, _⟩ => ⟨S850000, .i32⟩
  | .hbm, ⟨87, _⟩ => ⟨S850000, .i32⟩
  | .hbm, ⟨88, _⟩ => ⟨S850000, .i32⟩
  | .hbm, ⟨89, _⟩ => ⟨S850000x1, .i32⟩
  | .hbm, ⟨90, _⟩ => ⟨S50000x128, .f32⟩
  | .hbm, ⟨91, _⟩ => ⟨S50000x2, .f32⟩
  | .local _ .vmem, ⟨0, _⟩ => ⟨S5000x256, .f32⟩
  | .local _ .vmem, ⟨1, _⟩ => ⟨S5000x256, .f32⟩
  | .local _ .vmem, ⟨2, _⟩ => ⟨S5000x1, .f32⟩
  | .local _ .vmem, ⟨3, _⟩ => ⟨S5000x1, .f32⟩
  | .local _ .vmem, ⟨4, _⟩ => ⟨S256x128, .f32⟩
  | .local _ .vmem, ⟨5, _⟩ => ⟨S128, .f32⟩
  | .local _ .vmem, ⟨6, _⟩ => ⟨S128x256, .f32⟩
  | .local _ .vmem, ⟨7, _⟩ => ⟨S256, .f32⟩
  | .local _ .vmem, ⟨8, _⟩ => ⟨S128x128, .f32⟩
  | .local _ .vmem, ⟨9, _⟩ => ⟨S128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S128, .f32⟩
  | .local _ .vmem, ⟨19, _⟩ => ⟨S128x2, .f32⟩
  | .local _ .vmem, ⟨20, _⟩ => ⟨S2, .f32⟩
  | .local _ .vmem, ⟨21, _⟩ => ⟨S5000x2, .f32⟩
  | .local _ .vmem, ⟨22, _⟩ => ⟨S5000x2, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_c : Ref sig .tc := ⟨.hbm, 27, rfl⟩
abbrev main_v11 : Ref sig .tc := ⟨.hbm, 28, rfl⟩
abbrev main_v12 : Ref sig .tc := ⟨.hbm, 29, rfl⟩
abbrev main_c_0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_v18 : Ref sig .tc := ⟨.hbm, 37, rfl⟩
abbrev main_cst_2 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_v22 : Ref sig .tc := ⟨.hbm, 43, rfl⟩
abbrev main_cst_4 : Ref sig .tc := ⟨.hbm, 44, rfl⟩
abbrev main_call0_v0 : Ref sig .tc := ⟨.hbm, 45, rfl⟩
abbrev main_call0_v1 : Ref sig .tc := ⟨.hbm, 46, rfl⟩
abbrev main_v23 : Ref sig .tc := ⟨.hbm, 47, rfl⟩
abbrev main_v24 : Ref sig .tc := ⟨.hbm, 48, rfl⟩
abbrev main_cst_5 : Ref sig .tc := ⟨.hbm, 49, rfl⟩
abbrev main_call1_v0 : Ref sig .tc := ⟨.hbm, 50, rfl⟩
abbrev main_call1_v1 : Ref sig .tc := ⟨.hbm, 51, rfl⟩
abbrev main_v25 : Ref sig .tc := ⟨.hbm, 52, rfl⟩
abbrev main_v26 : Ref sig .tc := ⟨.hbm, 53, rfl⟩
abbrev main_cst_6 : Ref sig .tc := ⟨.hbm, 54, rfl⟩
abbrev main_v27 : Ref sig .tc := ⟨.hbm, 55, rfl⟩
abbrev main_c_7 : Ref sig .tc := ⟨.hbm, 56, rfl⟩
abbrev main_v28 : Ref sig .tc := ⟨.hbm, 57, rfl⟩
abbrev main_c_8 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_c_9 : Ref sig .tc := ⟨.hbm, 62, rfl⟩
abbrev main_v32 : Ref sig .tc := ⟨.hbm, 63, rfl⟩
abbrev main_c_10 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_11 : Ref sig .tc := ⟨.hbm, 71, rfl⟩
abbrev main_v39 : Ref sig .tc := ⟨.hbm, 72, rfl⟩
abbrev main_c_12 : Ref sig .tc := ⟨.hbm, 73, rfl⟩
abbrev main_v40 : Ref sig .tc := ⟨.hbm, 74, rfl⟩
abbrev main_v41 : Ref sig .tc := ⟨.hbm, 75, rfl⟩
abbrev main_c_13 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_c_14 : Ref sig .tc := ⟨.hbm, 82, rfl⟩
abbrev main_v47 : Ref sig .tc := ⟨.hbm, 83, rfl⟩
abbrev main_v48 : Ref sig .tc := ⟨.hbm, 84, rfl⟩
abbrev main_c_15 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg6_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem6_1 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x2 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S50000_S1x50000_1 : S50000.BroadcastsInDim S1x50000 (![1] : Fin 1 → Fin S1x50000.rank)
  shapeCasts_S1x50000_S1x1x1x50000 : S1x50000.ShapeCasts S1x1x1x50000
  bcast_S1x1x1x50000_S2x1x1x50000_0_1_2_3 : S1x1x1x50000.BroadcastsInDim S2x1x1x50000 (![0, 1, 2, 3] : Fin 4 → Fin S2x1x1x50000.rank)
  shapeCasts_S2x1x1x50000_S2x50000 : S2x1x1x50000.ShapeCasts S2x50000
  concatenates_S2x800000_S2x50000_S2x850000_d1 : Shape.Concatenates [S2x800000, S2x50000] S2x850000 1
  slices_S2x850000_S1x850000_0_0 : S2x850000.Slices ![0, 0] S1x850000
  shapeCasts_S1x850000_S850000 : S1x850000.ShapeCasts S850000
  slices_S2x850000_S1x850000_1_0 : S2x850000.Slices ![1, 0] S1x850000
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  bcast_S_S128x256 : S_.BroadcastsInDim S128x256 (![] : Fin 0 → Fin S128x256.rank)
  bcast_S_S1 : S_.BroadcastsInDim S1 (![] : Fin 0 → Fin S1.rank)
  concatenates_S1_S1_S2_d0 : Shape.Concatenates [S1, S1] S2 0
  concatenates_S128_S128_S256_d0 : Shape.Concatenates [S128, S128] S256 0
  transposes_S128x1_S1x128_1_0 : S128x1.Transposes [1, 0] S1x128
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S5000x256 : S1x256.Broadcasts S5000x256
  slices_S5000x256_o0_0_S5000x128 : S5000x256.Slices ![0, 0] S5000x128
  slices_S5000x256_o0_128_S5000x128 : S5000x256.Slices ![0, 128] S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  reduces_S5000x128_S5000 : S5000x128.Reduces [1] S5000
  shapeCasts_S5000_S5000x1 : S5000.ShapeCasts S5000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  shapeCasts_S5000x128_S5000x128 : S5000x128.ShapeCasts S5000x128
  inb_S128x2_S128x2_0_0 : ∀ a, (![0, 0] : Fin 2 → Nat) a + S128x2.size a ≤ S128x2.size a
  h_S128x2 : 0 < S128x2.numel
  inb_S2_S2_0 : ∀ a, (![0] : Fin 1 → Nat) a + S2.size a ≤ S2.size a
  h_S2 : 0 < S2.numel
  shapeCasts_S2_S1x2 : S2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S50000_S850000x1_S850000_n_0_0_1_wf : ScatterDims.WF S50000 S850000x1 S850000 [] [0] [0] 1
  scatter_S128x256_S2_S64x128_01_n_01_0_wf : ScatterDims.WF S128x256 S2 S64x128 [0, 1] [] [0, 1] 0
  dot_S5000x256_S256x128_S5000x128_1_0_0_1_n_n_wf : DotDims.WF S5000x256 S256x128 S5000x128 [1] [0] [0] [1] [] []
  dot_S5000x128_S128x256_S5000x256_1_0_0_1_n_n_wf : DotDims.WF S5000x128 S128x256 S5000x256 [1] [0] [0] [1] [] []
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x2_S5000x2_1_0_0_1_n_n_wf : DotDims.WF S5000x128 S128x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S50000x128.size a
  hwx0_9 : ∀ i : grid0.Coords, EltTy.bits .f32 = 32 ∨ (Rect.block (s := S50000x128) S5000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x2.size a ≤ S128x2.size a
  hwx1_4 : ∀ i : grid1.Coords, EltTy.bits .f32 = 32 ∨ (Rect.block (s := S128x2) S128x2.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2.size a ≤ S2.size a
  hwx1_5 : ∀ i : grid1.Coords, EltTy.bits .f32 = 32 ∨ (Rect.block (s := S2) S2.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x2.size a ≤ S50000x2.size a
  hwx1_6 : ∀ i : grid1.Coords, EltTy.bits .f32 = 32 ∨ (Rect.block (s := S50000x2) S5000x2.size (cc1_transform_6 i) (hinb1_6 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def scatter_S128x256_S2_S64x128_01_n_01_0 : ScatterDims S128x256 S2 S64x128 where
  updateWindowDims := [0, 1]
  insertedWindowDims := []
  scatterDimsToOperandDims := [0, 1]
  indexVectorDim := 0
  wf := scatter_S128x256_S2_S64x128_01_n_01_0_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v36) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v37) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v38) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v53) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S128x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg14) S2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v54) S5000x2.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S64x128 : Shape := ⟨2, ![64, 128]⟩
abbrev S128x128 : Shape := ⟨2, ![128, 128]⟩
abbrev S128x1 : Shape := ⟨2, ![128, 1]⟩
abbrev S128x2 : Shape := ⟨2, ![128, 2]⟩
abbrev S2 : Shape := ⟨1, ![2]⟩
abbrev S50000 : Shape := ⟨1, ![50000]⟩
abbrev S1x50000 : Shape := ⟨2, ![1, 50000]⟩
abbrev S1x1x1x50000 : Shape := ⟨4, ![1, 1, 1, 50000]⟩
abbrev S2x1x1x50000 : Shape := ⟨4, ![2, 1, 1, 50000]⟩
abbrev S2x50000 : Shape := ⟨2, ![2, 50000]⟩
abbrev S2x850000 : Shape := ⟨2, ![2, 850000]⟩
abbrev S1x850000 : Shape := ⟨2, ![1, 850000]⟩
abbrev S850000 : Shape := ⟨1, ![850000]⟩
abbrev S50000x128 : Shape := ⟨2, ![50000, 128]⟩
abbrev S1x128 : Shape := ⟨2, ![1, 128]⟩
abbrev S_ : Shape := ⟨0, ![]⟩
abbrev S50000x64 : Shape := ⟨2, ![50000, 64]⟩
abbrev S850000x1 : Shape := ⟨2, ![850000, 1]⟩
abbrev S850000x128 : Shape := ⟨2, ![850000, 128]⟩
abbrev S50000x2 : Shape := ⟨2, ![50000, 2]⟩
abbrev S1x2 : Shape := ⟨2, ![1, 2]⟩

abbrev nBuf : Space → Nat
  | .hbm => 149
  | .vmem => 0
  | .smem => 0
  | _ => 0

abbrev hbmTy0_0 (i : Nat) : BufTy := match i % 128 with
  | 0 => ⟨S50000x256, .f32⟩
  | 1 => ⟨S2x800000, .i32⟩
  | 2 => ⟨S256x128, .f32⟩
  | 3 => ⟨S128, .f32⟩
  | 4 => ⟨S64x128, .f32⟩
  | 5 => ⟨S128, .f32⟩
  | 6 => ⟨S64x128, .f32⟩
  | 7 => ⟨S128, .f32⟩
  | 8 => ⟨S128x128, .f32⟩
  | 9 => ⟨S128, .f32⟩
  | 10 => ⟨S128x1, .f32⟩
  | 11 => ⟨S128x128, .f32⟩
  | 12 => ⟨S128, .f32⟩
  | 13 => ⟨S128x2, .f32⟩
  | 14 => ⟨S2, .f32⟩
  | 15 => ⟨S50000, .i32⟩
  | 16 => ⟨S1x50000, .i32⟩
  | 17 => ⟨S1x1x1x50000, .i32⟩
  | 18 => ⟨S2x1x1x50000, .i32⟩
  | 19 => ⟨S2x50000, .i32⟩
  | 20 => ⟨S2x850000, .i32⟩
  | 21 => ⟨S1x850000, .i32⟩
  | 22 => ⟨S850000, .i32⟩
  | 23 => ⟨S1x850000, .i32⟩
  | 24 => ⟨S850000, .i32⟩
  | 25 => ⟨S50000x128, .f32⟩
  | 26 => ⟨S1x128, .f32⟩
  | 27 => ⟨S50000x128, .f32⟩
  | 28 => ⟨S50000x128, .f32⟩
  | 29 => ⟨S_, .f32⟩
  | 30 => ⟨S50000x128, .f32⟩
  | 31 => ⟨S50000x128, .i1⟩
  | 32 => ⟨S_, .f32⟩
  | 33 => ⟨S50000x128, .f32⟩
  | 34 => ⟨S50000x128, .f32⟩
  | 35 => ⟨S50000x128, .f32⟩
  | 36 => ⟨S50000x64, .f32⟩
  | 37 => ⟨S50000x128, .f32⟩
  | 38 => ⟨S1x128, .f32⟩
  | 39 => ⟨S50000x128, .f32⟩
  | 40 => ⟨S50000x128, .f32⟩
  | 41 => ⟨S50000x64, .f32⟩
  | 42 => ⟨S50000x128, .f32⟩
  | 43 => ⟨S1x128, .f32⟩
  | 44 => ⟨S50000x128, .f32⟩
  | 45 => ⟨S50000x128, .f32⟩
  | 46 => ⟨S_, .f32⟩
  | 47 => ⟨S850000, .f32⟩
  | 48 => ⟨S_, .f32⟩
  | 49 => ⟨S50000, .f32⟩
  | 50 => ⟨S850000x1, .i32⟩
  | 51 => ⟨S50000, .f32⟩
  | 52 => ⟨S_, .f32⟩
  | 53 => ⟨S50000, .f32⟩
  | 54 => ⟨S50000, .i1⟩
  | 55 => ⟨S_, .f32⟩
  | 56 => ⟨S50000, .f32⟩
  | 57 => ⟨S50000, .i1⟩
  | 58 => ⟨S_, .f32⟩
  | 59 => ⟨S_, .f32⟩
  | 60 => ⟨S50000, .f32⟩
  | 61 => ⟨S50000, .f32⟩
  | 62 => ⟨S50000, .f32⟩
  | 63 => ⟨S_, .f32⟩
  | 64 => ⟨S_, .f32⟩
  | 65 => ⟨S50000, .f32⟩
  | 66 => ⟨S50000, .f32⟩
  | 67 => ⟨S_, .i32⟩
  | 68 => ⟨S850000, .i32⟩
  | 69 => ⟨S850000, .i1⟩
  | 70 => ⟨S_, .i32⟩
  | 71 => ⟨S850000, .i32⟩
  | 72 => ⟨S850000, .i32⟩
  | 73 => ⟨S850000, .i32⟩
  | 74 => ⟨S850000x1, .i32⟩
  | 75 => ⟨S850000, .f32⟩
  | 76 => ⟨S_, .i32⟩
  | 77 => ⟨S850000, .i32⟩
  | 78 => ⟨S850000, .i1⟩
  | 79 => ⟨S_, .i32⟩
  | 80 => ⟨S850000, .i32⟩
  | 81 => ⟨S850000, .i32⟩
  | 82 => ⟨S850000, .i32⟩
  | 83 => ⟨S850000x1, .i32⟩
  | 84 => ⟨S850000, .f32⟩
  | 85 => ⟨S850000, .f32⟩
  | 86 => ⟨S_, .i32⟩
  | 87 => ⟨S850000, .i32⟩
  | 88 => ⟨S850000, .i1⟩
  | 89 => ⟨S_, .i32⟩
  | 90 => ⟨S850000, .i32⟩
  | 91 => ⟨S850000, .i32⟩
  | 92 => ⟨S850000, .i32⟩
  | 93 => ⟨S850000x1, .i32⟩
  | 94 => ⟨S850000x128, .f32⟩
  | 95 => ⟨S_, .i32⟩
  | 96 => ⟨S850000, .i32⟩
  | 97 => ⟨S850000, .i1⟩
  | 98 => ⟨S_, .i32⟩
  | 99 => ⟨S850000, .i32⟩
  | 100 => ⟨S850000, .i32⟩
  | 101 => ⟨S850000, .i32⟩
  | 102 => ⟨S850000x1, .i32⟩
  | 103 => ⟨S850000x128, .f32⟩
  | 104 => ⟨S850000x128, .f32⟩
  | 105 => ⟨S850000x128, .f32⟩
  | 106 => ⟨S1x128, .f32⟩
  | 107 => ⟨S850000x128, .f32⟩
  | 108 => ⟨S850000x128, .f32⟩
  | 109 => ⟨S850000x128, .f32⟩
  | 110 => ⟨S850000x1, .f32⟩
  | 111 => ⟨S850000x1, .f32⟩
  | 112 => ⟨S850000x1, .f32⟩
  | 113 => ⟨S_, .f32⟩
  | 114 => ⟨S850000x1, .f32⟩
  | 115 => ⟨S850000x1, .f32⟩
  | 116 => ⟨S_, .f32⟩
  | 117 => ⟨S850000x1, .f32⟩
  | 118 => ⟨S850000x1, .f32⟩
  | 119 => ⟨S850000x1, .f32⟩
  | 120 => ⟨S850000x128, .f32⟩
  | 121 => ⟨S850000x128, .f32⟩
  | 122 => ⟨S_, .f32⟩
  | 123 => ⟨S850000x1, .f32⟩
  | 124 => ⟨S850000x1, .f32⟩
  | 125 => ⟨S850000x128, .f32⟩
  | 126 => ⟨S850000x128, .f32⟩
  | 127 => ⟨S850000x128, .f32⟩
  | _ => ⟨S50000x256, .f32⟩

abbrev hbmTy0_1 (i : Nat) : BufTy := match i % 128 with
  | 0 => ⟨S850000x128, .f32⟩
  | 1 => ⟨S850000x128, .f32⟩
  | 2 => ⟨S_, .f32⟩
  | 3 => ⟨S50000x128, .f32⟩
  | 4 => ⟨S850000x1, .i32⟩
  | 5 => ⟨S50000x128, .f32⟩
  | 6 => ⟨S50000x128, .f32⟩
  | 7 => ⟨S1x128, .f32⟩
  | 8 => ⟨S50000x128, .f32⟩
  | 9 => ⟨S50000x128, .f32⟩
  | 10 => ⟨S_, .f32⟩
  | 11 => ⟨S50000x128, .f32⟩
  | 12 => ⟨S50000x128, .i1⟩
  | 13 => ⟨S_, .f32⟩
  | 14 => ⟨S50000x128, .f32⟩
  | 15 => ⟨S50000x128, .f32⟩
  | 16 => ⟨S50000x128, .f32⟩
  | 17 => ⟨S50000x2, .f32⟩
  | 18 => ⟨S1x2, .f32⟩
  | 19 => ⟨S50000x2, .f32⟩
  | 20 => ⟨S50000x2, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call0_cst : Ref sig .tc := ⟨.hbm, 29, rfl⟩
abbrev main_call0_v0 : Ref sig .tc := ⟨.hbm, 30, rfl⟩
abbrev main_call0_v1 : Ref sig .tc := ⟨.hbm, 31, rfl⟩
abbrev main_call0_cst_0 : Ref sig .tc := ⟨.hbm, 32, rfl⟩
abbrev main_call0_v2 : Ref sig .tc := ⟨.hbm, 33, rfl⟩
abbrev main_call0_v3 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst : Ref sig .tc := ⟨.hbm, 46, rfl⟩
abbrev main_v25 : Ref sig .tc := ⟨.hbm, 47, rfl⟩
abbrev main_cst_0 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_1 : Ref sig .tc := ⟨.hbm, 52, rfl⟩
abbrev main_v29 : Ref sig .tc := ⟨.hbm, 53, rfl⟩
abbrev main_v30 : Ref sig .tc := ⟨.hbm, 54, rfl⟩
abbrev main_cst_2 : Ref sig .tc := ⟨.hbm, 55, rfl⟩
abbrev main_v31 : Ref sig .tc := ⟨.hbm, 56, rfl⟩
abbrev main_v32 : Ref sig .tc := ⟨.hbm, 57, rfl⟩
abbrev main_cst_3 : Ref sig .tc := ⟨.hbm, 58, rfl⟩
abbrev main_call1_v0 : Ref sig .tc := ⟨.hbm, 59, rfl⟩
abbrev main_call1_v1 : Ref sig .tc := ⟨.hbm, 60, rfl⟩
abbrev main_v33 : Ref sig .tc := ⟨.hbm, 61, rfl⟩
abbrev main_v34 : Ref sig .tc := ⟨.hbm, 62, rfl⟩
abbrev main_cst_4 : Ref sig .tc := ⟨.hbm, 63, rfl⟩
abbrev main_call2_v0 : Ref sig .tc := ⟨.hbm, 64, rfl⟩
abbrev main_call2_v1 : Ref sig .tc := ⟨.hbm, 65, rfl⟩
abbrev main_v35 : Ref sig .tc := ⟨.hbm, 66, rfl⟩
abbrev main_c : Ref sig .tc := ⟨.hbm, 67, rfl⟩
abbrev main_v36 : Ref sig .tc := ⟨.hbm, 68, rfl⟩
abbrev main_v37 : Ref sig .tc := ⟨.hbm, 69, rfl⟩
abbrev main_c_5 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_c_6 : Ref sig .tc := ⟨.hbm, 76, rfl⟩
abbrev main_v43 : Ref sig .tc := ⟨.hbm, 77, rfl⟩
abbrev main_v44 : Ref sig .tc := ⟨.hbm, 78, rfl⟩
abbrev main_c_7 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_c_8 : Ref sig .tc := ⟨.hbm, 86, rfl⟩
abbrev main_v51 : Ref sig .tc := ⟨.hbm, 87, rfl⟩
abbrev main_v52 : Ref sig .tc := ⟨.hbm, 88, rfl⟩
abbrev main_c_9 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_c_10 : Ref sig .tc := ⟨.hbm, 95, rfl⟩
abbrev main_v58 : Ref sig .tc := ⟨.hbm, 96, rfl⟩
abbrev main_v59 : Ref sig .tc := ⟨.hbm, 97, rfl⟩
abbrev main_c_11 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_cst_12 : Ref sig .tc := ⟨.hbm, 113, rfl⟩
abbrev main_v74 : Ref sig .tc := ⟨.hbm, 114, rfl⟩
abbrev main_v75 : Ref sig .tc := ⟨.hbm, 115, rfl⟩
abbrev main_cst_13 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_cst_14 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_cst_15 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_call3_cst : Ref sig .tc := ⟨.hbm, 138, rfl⟩
abbrev main_call3_v0 : Ref sig .tc := ⟨.hbm, 139, rfl⟩
abbrev main_call3_v1 : Ref sig .tc := ⟨.hbm, 140, rfl⟩
abbrev main_call3_cst_0 : Ref sig .tc := ⟨.hbm, 141, rfl⟩
abbrev main_call3_v2 : Ref sig .tc := ⟨.hbm, 142, rfl⟩
abbrev main_call3_v3 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩

abbrev nD : Nat := 1
abbrev τ : Topo := Topo.v7x

variable {F : FTy → Type} [FloatOps F]

class Facts₀ : Prop where
  bcast_S50000_S1x50000_1 : S50000.BroadcastsInDim S1x50000 (![1] : Fin 1 → Fin S1x50000.rank)
  shapeCasts_S1x50000_S1x1x1x50000 : S1x50000.ShapeCasts S1x1x1x50000
  bcast_S1x1x1x50000_S2x1x1x50000_0_1_2_3 : S1x1x1x50000.BroadcastsInDim S2x1x1x50000 (![0, 1, 2, 3] : Fin 4 → Fin S2x1x1x50000.rank)
  shapeCasts_S2x1x1x50000_S2x50000 : S2x1x1x50000.ShapeCasts S2x50000
  concatenates_S2x800000_S2x50000_S2x850000_d1 : Shape.Concatenates [S2x800000, S2x50000] S2x850000 1
  slices_S2x850000_S1x850000_0_0 : S2x850000.Slices ![0, 0] S1x850000
  shapeCasts_S1x850000_S850000 : S1x850000.ShapeCasts S850000
  slices_S2x850000_S1x850000_1_0 : S2x850000.Slices ![1, 0] S1x850000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S50000x128_S50000x64_0_0 : S50000x128.Slices ![0, 0] S50000x64
  slices_S50000x128_S50000x64_0_64 : S50000x128.Slices ![0, 64] S50000x64
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S1x128_S850000x128_0_1 : S1x128.BroadcastsInDim S850000x128 (![0, 1] : Fin 2 → Fin S850000x128.rank)
  bcast_S_S850000x1 : S_.BroadcastsInDim S850000x1 (![] : Fin 0 → Fin S850000x1.rank)
  bcast_S850000x1_S850000x128_0_1 : S850000x1.BroadcastsInDim S850000x128 (![0, 1] : Fin 2 → Fin S850000x128.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  dot_S50000x256_S256x128_S50000x128_1_0_0_1_n_n_wf : DotDims.WF S50000x256 S256x128 S50000x128 [1] [0] [0] [1] [] []
  dot_S50000x64_S64x128_S50000x128_1_0_0_1_n_n_wf : DotDims.WF S50000x64 S64x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  dot_S850000x128_S128x128_S850000x128_1_0_0_1_n_n_wf : DotDims.WF S850000x128 S128x128 S850000x128 [1] [0] [0] [1] [] []
  dot_S850000x128_S128x1_S850000x1_1_0_0_1_n_n_wf : DotDims.WF S850000x128 S128x1 S850000x1 [1] [0] [0] [1] [] []
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  dot_S50000x128_S128x2_S50000x2_1_0_0_1_n_n_wf : DotDims.WF S50000x128 S128x2 S50000x2 [1] [0] [0] [1] [] []

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def dot_S850000x128_S128x128_S850000x128_1_0_0_1_n_n : DotDims S850000x128 S128x128 S850000x128 where
  lhsContracting := [1]
  rhsContracting := [0]
  lhsNonContracting := [0]
  rhsNonContracting := [1]
  lhsBatch := []
  rhsBatch := []
  wf := dot_S850000x128_S128x128_S850000x128_1_0_0_1_n_n_wf
def dot_S850000x128_S128x1_S850000x1_1_0_0_1_n_n : DotDims S850000x128 S128x1 S850000x1 where
  lhsContracting := [1]
  rhsContracting := [0]
  lhsNonContracting := [0]
  rhsNonContracting := [1]
  lhsBatch := []
  rhsBatch := []
  wf := dot_S850000x128_S128x1_S850000x1_1_0_0_1_n_n_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

class Facts : Prop extends Facts₀ where

variable [Facts]
-- ==== Proof.KernelRun.lean ====
/-
  The idealized kernel program's run with its result named: every weakly fair execution of @main ends with the
  result buffer at the contents the second region's write-backs leave (the last boundary of the fold through
  @main's host stretches and its two regions), and the fifteen argument arrays as launched.
-/
import proofs.«125175_j46377056862932_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of @main over its eight segments: the result buffer ends at the last boundary's contents, the
    arguments as launched. -/
theorem run : θ_run defs (onTc (τ := τ) (main (F := F))) ⟨m, fun _ => 0, ρ⟩ (fun r => ∀ c : Dev nD,
      r.2.mem ((c.tc : Thread nD τ).loc main_v54) = W8 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v54 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c)⟩)

end Cert.KernelIdeal.KRun

end
-- ==== Proof.Spec.lean ====
/-
  The graph layer both programs compute, written once over the extended reals, row by row.

  A node row of features passes a linear layer and a leaky rectifier (`hid`), its two halves pass two more linear
  layers (`xn`, `xa`), and a gate `α = logistic (tanh ((xn + xa) · W_att + b_att) · v_att)` mixes them:
  `mix = α · xn + (1 − α) · xa`, one value per node and channel. Each edge (src, dst) carries the mixed row of
  its source, scaled by `dinv src · dinv dst` where `dinv = 1/√degree` (the degree counted over the targets), to its
  target, where the rows are summed; the summed row passes a linear layer, the rectifier and the classifier (`cls`).
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- An array of extended reals with two axes, and with one. -/
abbrev A2 (a b : Nat) : Type := (⟨2, ![a, b]⟩ : Shape).Idx → EReal
abbrev A1 (a : Nat) : Type := (⟨1, ![a]⟩ : Shape).Idx → EReal

/-- The three float words the programs carry: 0.0, the rectifier's slope, 1.0. -/
def zeroW : EReal := Ideal.ofBits .f32 0x00000000#32
def slopeW : EReal := Ideal.ofBits .f32 0x3C23D70A#32
def oneW : EReal := Ideal.ofBits .f32 0x3F800000#32

/-- The leaky rectifier: x where x ≥ 0, slope · x elsewhere. -/
def lrelu (x : EReal) : EReal :=
  Scalar.select (FloatOps.cmpf (F := Ideal) (φ := .f32) .oge x zeroW) x (slopeW * x)

/-- The hidden row: rectified x · W_in + b_in. -/
def hid (x : A2 50000 256) (Win : A2 256 128) (bin : A1 128) : A2 50000 128 :=
  fun r => lrelu ((∑ j : Fin 256, x (ix2 (r 0) j) * Win (ix2 j (r 1))) + bin (ix1 (r 1)))

/-- Channel k of the first half of a 128-wide row, and of the second half. -/
def lo (k : Fin 64) : Fin 128 := ⟨k.val, by omega⟩
def hi (k : Fin 64) : Fin 128 := ⟨64 + k.val, by omega⟩

/-- The two projected rows: the first half of the hidden row through W_nor, the second through W_abnor. -/
def xn (H : A2 50000 128) (Wnor : A2 64 128) (bnor : A1 128) : A2 50000 128 :=
  fun r => (∑ k : Fin 64, H (ix2 (r 0) (lo k)) * Wnor (ix2 k (r 1))) + bnor (ix1 (r 1))
def xa (H : A2 50000 128) (Wab : A2 64 128) (bab : A1 128) : A2 50000 128 :=
  fun r => (∑ k : Fin 64, H (ix2 (r 0) (hi k)) * Wab (ix2 k (r 1))) + bab (ix1 (r 1))

/-- The gate of one node from its two projected rows u, v. -/
def gate (Watt : A2 128 128) (batt : A1 128) (vatt : A2 128 1) (u v : Fin 128 → EReal) : EReal :=
  Ideal.logistic (∑ c : Fin 128,
    Ideal.tanh ((∑ k : Fin 128, (u k + v k) * Watt (ix2 k c)) + batt (ix1 c)) * vatt (ix2 c (0 : Fin 1)))

/-- The mixed row of one node from its two projected rows: α · u + (1 − α) · v. -/
def mix (Watt : A2 128 128) (batt : A1 128) (vatt : A2 128 1) (u v : Fin 128 → EReal) (c : Fin 128) : EReal :=
  gate Watt batt vatt u v * u c + (oneW - gate Watt batt vatt u v) * v c

/-- 1/√degree from a degree: 0 where the degree is not positive. -/
def dinvOf (d : EReal) : EReal :=
  Scalar.select (FloatOps.cmpf (F := Ideal) (φ := .f32) .ogt d zeroW)
    (Ideal.rsqrt (Scalar.select (FloatOps.cmpf (F := Ideal) (φ := .f32) .ogt d zeroW) d oneW)) zeroW

/-- The head on one summed row a: rectified a · W_upd + b_upd, then · W_cls + b_cls. -/
def cls (Wupd : A2 128 128) (bupd : A1 128) (Wcls : A2 128 2) (bcls : A1 2) (a : Fin 128 → EReal) (o : Fin 2) : EReal :=
  (∑ c : Fin 128, lrelu ((∑ k : Fin 128, a k * Wupd (ix2 k c)) + bupd (ix1 c)) * Wcls (ix2 c o)) + bcls (ix1 o)

end Cert.Spec

end
-- ==== Proof.KDefs.lean ====
/-
  The kernel program's value, named piece by piece over the shared row functions: the edge index vectors as the program
  computes them, the degree as its accumulating scatter, the per-node scaled mixed rows the first region writes, and
  the summed rows the second region reads (scaled by the target's factor).
-/
import proofs.«125175_j46377056862932_2_alg».proof.Proof.Gen.KernelIdeal
import proofs.«125175_j46377056862932_2_alg».proof.Proof.Spec
import Idealize.ShloMosaic.Lib.ValueIdx

noncomputable section

namespace Cert.KernelIdeal.KValue

open Cert.KernelIdeal Cert.KernelIdeal.Gen Idealize.ShloMosaic Idealize.ShloMosaic.ValueIdx
open Cert.Spec (A1 A2 zeroW oneW dinvOf mix xn xa hid cls)

/-- The self-loop pairs (n, n) as a [2, 50000] table: both rows count the nodes. -/
def loops : IVec S2x50000 32 :=
  shapeCast S2x50000 (broadcastInDim S2x1x1x50000 ![0, 1, 2, 3] bcast_S1x1x1x50000_S2x1x1x50000_0_1_2_3
    (shapeCast S1x1x1x50000 (broadcastInDim S1x50000 ![1] bcast_S50000_S1x50000_1 (iotaInDim S50000 32 0))
      shapeCasts_S1x50000_S1x1x1x50000)) shapeCasts_S2x1x1x50000_S2x50000

/-- The edge table with the self loops appended: [2, 850000]. -/
def allEdges (a1 : IVec S2x800000 32) : IVec S2x850000 32 :=
  concatenate S2x850000 1 [⟨S2x800000, a1⟩, ⟨S2x50000, loops⟩] concatenates_S2x800000_S2x50000_S2x850000_d1

/-- The sources (row 0 of the table) and the targets (row 1), one per edge. -/
def rowVec (a1 : IVec S2x800000 32) : IVec S850000 32 :=
  shapeCast S850000 (extractStridedSlice S1x850000 ![0, 0] (allEdges a1) slices_S2x850000_S1x850000_0_0) shapeCasts_S1x850000_S850000
def colVec (a1 : IVec S2x800000 32) : IVec S850000 32 :=
  shapeCast S850000 (extractStridedSlice S1x850000 ![1, 0] (allEdges a1) slices_S2x850000_S1x850000_1_0) shapeCasts_S1x850000_S850000

/-- An index vector as a column of start indices, as it is; and with 50000 added to its negative entries first. -/
def rawCol (v : IVec S850000 32) : IVec S850000x1 32 := broadcastInDim S850000x1 ![0] bcast_S850000_S850000x1_0 v
def wrapCol (v : IVec S850000 32) : IVec S850000x1 32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- The degree of every node: one per edge landing on it (the target column with its negative entries wrapped). -/
def degK (a1 : IVec S2x800000 32) : A1 50000 :=
  Host.scatterAdd (F := Ideal) (φ := .f32) scatter_S50000_S850000x1_S850000_n_0_0_1 (fun _ => zeroW) (wrapCol (colVec a1)) (fun _ => oneW)

/-- What the first region leaves: per node, 1/√degree times the mixed row. -/
def m2K (a1 : IVec S2x800000 32) (XN XA : A2 50000 128) (Watt : A2 128 128) (batt : A1 128) (vatt : A2 128 1) : A2 50000 128 :=
  fun r => dinvOf (degK a1 (ix1 (r 0))) * mix Watt batt vatt (fun k => XN (ix2 (r 0) k)) (fun k => XA (ix2 (r 0) k)) (r 1)

/-- What the second region reads, scaled: the sum over the edges landing at a node of the source's row, times the node's factor. -/
def aggK (a1 : IVec S2x800000 32) (M2 : A2 50000 128) : A2 50000 128 :=
  fun r => Host.scatterAdd (F := Ideal) (φ := .f32) scatter_S50000x128_S850000x1_S850000x128_1_0_0_1 (fun _ => zeroW) (wrapCol (colVec a1))
      (Host.gather gather_S50000x128_S850000x1_S850000x128_1_0_n_n_0_1_1128 M2 (wrapCol (rowVec a1))) r
    * dinvOf (degK a1 (ix1 (r 0)))

end Cert.KernelIdeal.KValue

end
-- ==== Proof.LibKeepdims.lean ====
/-
  Layout operations of small shapes read at an index, for row-wise reductions kept as a column and for a vector used as a
  one-row matrix; the float word of minus infinity; the host's exponential and logarithm at an index.

  A row-wise reduction of an `a × b` array (a maximum, a sum) is a vector of `a` entries; to combine it with the array again it
  is cast or broadcast to a column `a × 1` and the column is broadcast along the rows to `a × b`. Read at (p, c), each of these
  is the vector's entry `p`. A vector of `n` entries reshaped to a one-row matrix `1 × n` is the same as the vector broadcast
  along axis 1 of that shape. None of this depends on a program.
-/
import Idealize.ShloMosaic.Lib.Pipeline.Value
import Idealize.ShloMosaic.Lib.ValueIdx
import Idealize.ShloMosaic.PureOps.Ideal.Laws

noncomputable section

namespace Cert.Gcn

open Idealize.ShloMosaic Idealize.ShloMosaic.ValueIdx

/-! ## A column of row values: the keepdims cast and its broadcast along the rows -/

section Columns
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array broadcast in dimension 0 to `[a, 1]` reads, at `(i, u)`, the operand at `i`. -/
theorem broadcastInDim_a_a1_apply {a : ℕ} (hbc : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] hbc x (ix2 i u) = x (ix1 i) := by
  refine broadcastInDim_apply ![0] hbc x (ix2 i u) (ix1 i) fun ax => ?_
  match ax with
  | ⟨0, _⟩ =>
    show i.val = if a = 1 then 0 else i.val
    split
    · have := i.isLt; omega
    · rfl

/-- An `[a, 1]` array broadcast in dimensions (0, 1) to `[a, b]` reads, at `(p, c)`, the operand's one column at row `p`. -/
theorem broadcastInDim_a1_ab_apply {a b : ℕ} (hbc : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] hbc v (ix2 p c) = v (ix2 p (0 : Fin 1)) := by
  refine broadcastInDim_apply ![0, 1] hbc v (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## A vector as a one-row matrix -/

/-- A vector of `n` entries reshaped to one row is the vector broadcast along axis 1 of a one-row matrix. -/
theorem reshape_row_eq_broadcast {n : Nat} (x : (⟨1, ![n]⟩ : Shape).Idx → EReal)
    (h : (⟨1, ![n]⟩ : Shape).ShapeCasts ⟨2, ![1, n]⟩) (h' : (⟨1, ![n]⟩ : Shape).BroadcastsInDim ⟨2, ![1, n]⟩ ![1]) :
    shapeCast ⟨2, ![1, n]⟩ x h = broadcastInDim ⟨2, ![1, n]⟩ ![1] h' x := by
  funext i
  obtain ⟨a, b, rfl⟩ : ∃ (a : Fin 1) (b : Fin n), i = ix2 a b := ⟨i 0, i 1, eq_ix2 i⟩
  have e1 := shapeCast_apply x h (ix2 a b) (ix1 b) (by
    rw [Shape.rowMajor_val_two, Shape.rowMajor_val_one]
    have := a.isLt
    show b.val = a.val * n + b.val
    have : a.val = 0 := by omega
    rw [this]; omega)
  have e2 := broadcastInDim_apply ![1] h' x (ix2 a b) (ix1 b) (by
    intro d
    match d with
    | ⟨0, _⟩ =>
      show b.val = if n = 1 then 0 else b.val
      split
      · have := b.isLt; omega
      · rfl)
  exact e1.trans e2.symm

/-! ## Values on the extended reals -/

/-- The word of `−∞` at f32 is the extended reals' bottom. -/
theorem ofBits_negInf_f32 : Ideal.ofBits .f32 0xFF800000#32 = ⊥ := by simp [Ideal.ofBits, Ideal.ieee]

/-- The host's exponential of an array at an index is the exponential of the entry. -/
theorem hostExp_apply {s : Shape} (v : FVec Ideal s .f32) (i : s.Idx) : Host.exp v i = Ideal.exp (v i) := rfl

/-- The host's logarithm of an array at an index is the logarithm of the entry. -/
theorem hostLog_apply {s : Shape} (v : FVec Ideal s .f32) (i : s.Idx) : Host.log v i = Ideal.log (v i) := rfl

end Cert.Gcn

end
-- ==== Proof.KValue0Dot.lean ====
/-
  A plain matrix product read at an index, over the extended reals.

  For the dimension numbers of an [M, K] by [K, N] product (the left operand contracted on its second axis, the right
  on its first, no batch axis) the left operand's index at result index (p, c) and contraction position k is (p, k), the
  right operand's is (k, c); so the product accumulated into zeros is, at (p, c), the sum over k of lhs (p, k) · rhs (k, c).
  None of this depends on a program.
-/
import Idealize.ShloMosaic.PureOps.Ideal
import Idealize.ShloMosaic.PureOps.Ideal.Laws
import Idealize.ShloMosaic.Lib.ValueIdx

noncomputable section

open scoped BigOperators

namespace Cert.KernelIdeal.KValue

open Idealize.ShloMosaic Idealize.ShloMosaic.ValueIdx

/-- The dimension numbers of a plain [M, K] × [K, N] product. -/
abbrev plainDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section Plain
variable {M K N : Nat} (wf : DotDims.WF ⟨2, ![M, K]⟩ ⟨2, ![K, N]⟩ ⟨2, ![M, N]⟩ [1] [0] [0] [1] [] [])
  (i : (⟨2, ![M, N]⟩ : Shape).Idx) (q : (plainDims M K N wf).contr.Idx)

theorem plain_lhs0 : ((plainDims M K N wf).lhsIdx i q 0).val = (i 0).val := by
  unfold DotDims.lhsIdx
  rw [dif_neg (show ¬ (0 : Fin 2) ∈ (plainDims M K N wf).lhsBatch from List.not_mem_nil),
    dif_pos (show (0 : Fin 2) ∈ (plainDims M K N wf).lhsNonContracting from List.mem_singleton.mpr rfl)]
  rfl

theorem plain_lhs1 : ((plainDims M K N wf).lhsIdx i q 1).val = (q ⟨0, Nat.one_pos⟩).val :=
  (plainDims M K N wf).lhsIdx_val_of_single rfl i q

theorem plain_rhs0 : ((plainDims M K N wf).rhsIdx i q 0).val = (q ⟨0, Nat.one_pos⟩).val :=
  (plainDims M K N wf).rhsIdx_val_of_single rfl i q

theorem plain_rhs1 : ((plainDims M K N wf).rhsIdx i q 1).val = (i 1).val := by
  unfold DotDims.rhsIdx
  rw [dif_neg (show ¬ (1 : Fin 2) ∈ (plainDims M K N wf).rhsBatch from List.not_mem_nil),
    dif_pos (show (1 : Fin 2) ∈ (plainDims M K N wf).rhsNonContracting from List.mem_singleton.mpr rfl)]
  rfl

end Plain

/-- A plain product accumulated into zeros, at (p, c): Σ k, lhs (p, k) · rhs (k, c). -/
theorem matmul_plain_apply {M K N : Nat} {φ₁ φ₂ : FTy}
    (wf : DotDims.WF ⟨2, ![M, K]⟩ ⟨2, ![K, N]⟩ ⟨2, ![M, N]⟩ [1] [0] [0] [1] [] []) (prec : Option ContractPrecision)
    (lhs : FVec Ideal ⟨2, ![M, K]⟩ φ₁) (rhs : FVec Ideal ⟨2, ![K, N]⟩ φ₂) (p : Fin M) (c : Fin N) :
    FloatOps.matmul (plainDims M K N wf) prec lhs rhs (constant (F := Ideal) ⟨2, ![M, N]⟩ .f32 0x00000000#32) (ix2 p c)
      = ∑ k : Fin K, lhs (ix2 p k) * rhs (ix2 k c) := by
  refine (Ideal.matmul_constant_zero_apply (plainDims M K N wf) prec lhs rhs (ix2 p c)).trans ?_
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p c) ((contrEquiv1 (plainDims M K N wf) K rfl rfl).symm k) = ix2 p k :=
    funext fun a => Fin.ext (by
      match a with
      | ⟨0, _⟩ => exact plain_lhs0 wf _ _
      | ⟨1, _⟩ => exact (plain_lhs1 wf _ _).trans hk)
  have er : (plainDims M K N wf).rhsIdx (ix2 p c) ((contrEquiv1 (plainDims M K N wf) K rfl rfl).symm k) = ix2 k c :=
    funext fun a => Fin.ext (by
      match a with
      | ⟨0, _⟩ => exact (plain_rhs0 wf _ _).trans hk
      | ⟨1, _⟩ => exact plain_rhs1 wf _ _)
  rw [el, er]

end Cert.KernelIdeal.KValue

end
-- ==== Proof.KValue0Pay.lean ====
/-
  The first region's body at one entry of its block, over the extended reals.

  On a block of 5000 node rows the body computes, row p and channel by channel:
  the hidden row (`hidB`: rectified x · W_in + b_in), the projected double row (`xnaB`: hidden · Wblk + bblk, 256 wide),
  its two halves u = columns 0..127 and v = columns 128..255, the gate's summands tanh ((u + v) · W_att + b_att) · v_row,
  and the stored value dinv_p · (α · u_c + (1 − α) · v_c) with α the logistic function of the summands' sum over the
  channels. Each matrix product accumulates into zeros, so it is a plain finite sum; rounding to the narrower format is the
  identity here; a bias vector enters as a one-row matrix broadcast over the rows.
-/
import proofs.«125175_j46377056862932_2_alg».proof.Proof.Gen.KernelIdeal.Skeleton
import proofs.«125175_j46377056862932_2_alg».proof.Proof.Spec
import proofs.«125175_j46377056862932_2_alg».proof.Proof.LibKeepdims
import proofs.«125175_j46377056862932_2_alg».proof.Proof.KValue0Dot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KValue

open Cert.KernelIdeal Cert.KernelIdeal.Gen Idealize.ShloMosaic Idealize.ShloMosaic.ValueIdx
open Cert.Spec (lrelu zeroW slopeW oneW)

/-! ## Layout steps read at an index -/

/-- A bias vector made a one-row matrix and broadcast over the rows reads, at (p, c), the vector's entry c. -/
theorem bias_row_apply {α : Type} {a n : Nat} (b : (⟨1, ![n]⟩ : Shape).Idx → α)
    (h1 : (⟨1, ![n]⟩ : Shape).ShapeCasts ⟨2, ![1, n]⟩) (h2 : (⟨2, ![1, n]⟩ : Shape).Broadcasts ⟨2, ![a, n]⟩)
    (p : Fin a) (c : Fin n) :
    broadcastTo ⟨2, ![a, n]⟩ (shapeCast ⟨2, ![1, n]⟩ b h1) h2 (ix2 p c) = b (ix1 c) :=
  (broadcastTo_1b_ab_apply _ h2 p c).trans (shapeCast_a_1a_apply b h1 0 c)

/-- A one-row matrix cast to its own shape and broadcast over the rows reads, at (p, c), the row's entry c. -/
theorem row_bcast_apply {α : Type} {a n : Nat} (v : (⟨2, ![1, n]⟩ : Shape).Idx → α)
    (h1 : (⟨2, ![1, n]⟩ : Shape).ShapeCasts ⟨2, ![1, n]⟩) (h2 : (⟨2, ![1, n]⟩ : Shape).Broadcasts ⟨2, ![a, n]⟩)
    (p : Fin a) (c : Fin n) :
    broadcastTo ⟨2, ![a, n]⟩ (shapeCast ⟨2, ![1, n]⟩ v h1) h2 (ix2 p c) = v (ix2 (0 : Fin 1) c) :=
  (broadcastTo_1b_ab_apply _ h2 p c).trans (congrFun (shapeCast_self v h1) _)

/-! ## The hidden row and the projected double row of a block -/

/-- Channel c of the hidden row p of a block: rectified x · W_in + b_in. -/
def hidB (x0 : Vec Ideal S5000x256 .f32) (x2 : Vec Ideal S256x128 .f32) (x3 : Vec Ideal S128 .f32) (p : Fin 5000) (c : Fin 128) : EReal :=
  lrelu ((∑ j : Fin 256, x0 (ix2 p j) * x2 (ix2 j c)) + x3 (ix1 c))

/-- Column q of the projected double row p: hidden · Wblk + bblk. -/
def xnaB (x0 : Vec Ideal S5000x256 .f32) (x2 : Vec Ideal S256x128 .f32) (x3 : Vec Ideal S128 .f32)
    (x4 : Vec Ideal S128x256 .f32) (x5 : Vec Ideal S256 .f32) (p : Fin 5000) (q : Fin 256) : EReal :=
  (∑ k : Fin 128, hidB x0 x2 x3 p k * x4 (ix2 k q)) + x5 (ix1 q)

section Pay
variable (x0 : Vec Ideal S5000x256 .f32) (x2 : Vec Ideal S256x128 .f32) (x3 : Vec Ideal S128 .f32)
  (x4 : Vec Ideal S128x256 .f32) (x5 : Vec Ideal S256 .f32)

theorem projPay2_apply (p : Fin 5000) (q : Fin 256) :
    k0_pay2 (F := Ideal) x0 x2 x3 x4 x5 (ix2 p q) = xnaB x0 x2 x3 x4 x5 p q := by
  unfold k0_pay2 xnaB
  refine congrArg₂ (· + ·) ?_ ?_
  · refine (matmul_plain_apply _ none _ _ p q).trans ?_
    refine Finset.sum_congr rfl fun k _ => ?_
    refine congrArg₂ (· * ·) ?_ ?_
    · unfold hidB
      refine (congrArg lrelu ?_ : _ = lrelu _)
      refine congrArg₂ (· + ·) ?_ ?_
      · exact matmul_plain_apply _ none _ _ p k
      · exact bias_row_apply x3 _ _ p k
    · exact congrFun (shapeCast_self x4 _) (ix2 k q)
  · refine (bias_row_apply _ _ _ p q).trans ?_
    exact congrFun (shapeCast_self x5 _) (ix1 q)

/-- The first half of the double row. -/
theorem projPay3_apply (p : Fin 5000) (c : Fin 128) :
    k0_pay3 (F := Ideal) x0 x2 x3 x4 x5 (ix2 p c) = xnaB x0 x2 x3 x4 x5 p ⟨c.val, by omega⟩ := by
  unfold k0_pay3
  refine (slice2_axis1_apply 0 (k0_pay2 (F := Ideal) x0 x2 x3 x4 x5) _ p c ⟨c.val, by omega⟩ (Nat.zero_add _).symm).trans ?_
  exact projPay2_apply x0 x2 x3 x4 x5 p _

/-- The second half of the double row. -/
theorem projPay4_apply (p : Fin 5000) (c : Fin 128) :
    k0_pay4 (F := Ideal) x0 x2 x3 x4 x5 (ix2 p c) = xnaB x0 x2 x3 x4 x5 p ⟨128 + c.val, by omega⟩ := by
  unfold k0_pay4
  refine (slice2_axis1_apply 128 (k0_pay2 (F := Ideal) x0 x2 x3 x4 x5) _ p c ⟨128 + c.val, by omega⟩ rfl).trans ?_
  exact projPay2_apply x0 x2 x3 x4 x5 p _

/-- The gate's summand at channel c of row p: tanh ((u + v) · W_att + b_att) · v_row, u and v the two halves of the double row. -/
def gsumB (x6 : Vec Ideal S128x128 .f32) (x7 : Vec Ideal S128 .f32) (x8 : Vec Ideal S1x128 .f32) (p : Fin 5000) (c : Fin 128) : EReal :=
  Ideal.tanh ((∑ k : Fin 128, (xnaB x0 x2 x3 x4 x5 p ⟨k.val, by omega⟩ + xnaB x0 x2 x3 x4 x5 p ⟨128 + k.val, by omega⟩) * x6 (ix2 k c))
    + x7 (ix1 c)) * x8 (ix2 (0 : Fin 1) c)

theorem projPay5_apply (x6 : Vec Ideal S128x128 .f32) (x7 : Vec Ideal S128 .f32) (x8 : Vec Ideal S1x128 .f32) (p : Fin 5000) (c : Fin 128) :
    k0_pay5 (F := Ideal) x0 x2 x3 x4 x5 x6 x7 x8 (ix2 p c) = gsumB x0 x2 x3 x4 x5 x6 x7 x8 p c := by
  unfold k0_pay5 gsumB
  refine congrArg₂ (· * ·) ?_ ?_
  · refine (congrArg Ideal.tanh ?_ : _ = Ideal.tanh _)
    refine congrArg₂ (· + ·) ?_ ?_
    · refine (matmul_plain_apply _ none _ _ p c).trans ?_
      refine Finset.sum_congr rfl fun k _ => ?_
      refine congrArg₂ (· * ·) ?_ rfl
      exact congrArg₂ (· + ·) (projPay3_apply x0 x2 x3 x4 x5 p k) (projPay4_apply x0 x2 x3 x4 x5 p k)
    · exact bias_row_apply x7 _ _ p c
  · exact row_bcast_apply x8 _ _ p c

end Pay

/-- The stored value at (p, c): the row's factor times the gated mix of the two halves, the gate the logistic function of
    the summands' sum over the channels. -/
theorem projPay1_apply (v24 v25 v39 : FVec Ideal S5000x128 .f32) (v43 : Vec Ideal S5000x1 .f32) (p : Fin 5000) (c : Fin 128) :
    k0_pay1 (F := Ideal) v24 v25 v39 v43 (ix2 p c)
      = v43 (ix2 p (0 : Fin 1)) * (Ideal.logistic (∑ k : Fin 128, v39 (ix2 p k)) * v24 (ix2 p c)
          + (oneW - Ideal.logistic (∑ k : Fin 128, v39 (ix2 p k))) * v25 (ix2 p c)) := by
  have hsum : (multiReduction (F := Ideal) .add [1] S5000 v39 0x00000000#32 reduces_S5000x128_S5000 (.inl rfl) rfl) (ix1 p)
      = ∑ k : Fin 128, v39 (ix2 p k) := by
    refine (Ideal.multiReduction_add_single v39 0x00000000#32 reduces_S5000x128_S5000 (.inl rfl) rfl (ix1 p)).trans ?_
    refine Finset.sum_congr rfl fun k _ => congrArg v39 ?_
    funext a
    match a with
    | ⟨0, _⟩ => rfl
    | ⟨1, _⟩ => rfl
  have hα : (logistic (shapeCast S5000x1 (multiReduction (F := Ideal) .add [1] S5000 v39 0x00000000#32 reduces_S5000x128_S5000 (.inl rfl) rfl)
      shapeCasts_S5000_S5000x1)) (ix2 p (0 : Fin 1)) = Ideal.logistic (∑ k : Fin 128, v39 (ix2 p k)) := by
    refine (congrArg Ideal.logistic ?_ : Ideal.logistic _ = _)
    exact (Cert.Gcn.shapeCast_a_a1_apply _ _ p 0).trans hsum
  unfold k0_pay1
  refine congrArg₂ (· * ·) ?_ ?_
  · exact (Cert.Gcn.broadcastTo_a1_ab_apply _ _ p c).trans (congrFun (shapeCast_self v43 _) _)
  · refine congrArg₂ (· + ·) ?_ ?_
    · refine congrArg₂ (· * ·) ?_ rfl
      exact (Cert.Gcn.broadcastTo_a1_ab_apply _ _ p c).trans hα
    · refine congrArg₂ (· * ·) ?_ rfl
      refine (Cert.Gcn.broadcastTo_a1_ab_apply _ _ p c).trans ?_
      exact congrArg (oneW - ·) hα

end Cert.KernelIdeal.KValue

end
-- ==== Proof.KValue0Row.lean ====
/-
  From the body's block to the row functions of the graph layer.

  The body multiplies the hidden row by ONE [128, 256] matrix and adds ONE 256-vector. When that matrix is the block-diagonal
  matrix of W_nor and W_abnor (W_nor in rows 0..63 × columns 0..127, W_abnor in rows 64..127 × columns 128..255, zero
  elsewhere) and the vector is b_nor followed by b_abnor, column c < 128 of the product is the first half of the hidden row
  through W_nor (the other half's terms are h · 0 = 0), and column 128 + c the second half through W_abnor. A sum over 128
  channels is the sum over the first 64 plus the sum over the last 64. With these, the value the body stores at (p, c) of a
  block whose row p is node n's feature row is the node's factor times the gated mix of the node's two projected rows.
-/
import proofs.«125175_j46377056862932_2_alg».proof.Proof.KValue0Pay
import proofs.«125175_j46377056862932_2_alg».proof.Proof.Gen.KernelIdeal.Frame

noncomputable section

open scoped BigOperators

namespace Cert.KernelIdeal.KValue

open Cert.KernelIdeal Cert.KernelIdeal.Gen Idealize.ShloMosaic Idealize.ShloMosaic.ValueIdx
open Cert.Spec (A1 A2 lo hi hid xn xa gate mix lrelu oneW)

/-- A sum over 128 channels is the sum over the first 64 plus the sum over the last 64. -/
theorem sum_halves (f : Fin 128 → EReal) : ∑ k : Fin 128, f k = (∑ k : Fin 64, f (lo k)) + ∑ k : Fin 64, f (hi k) :=
  Fin.sum_univ_add (a := 64) (b := 64) f

/-- The [128, 256] matrix is the block-diagonal matrix of two [64, 128] matrices, and the 256-vector the two bias vectors
    one after the other, entry by entry. -/
structure IsBlockDiag (Wblk : A2 128 256) (bblk : A1 256) (Wnor : A2 64 128) (bnor : A1 128) (Wab : A2 64 128) (bab : A1 128) : Prop where
  nn : ∀ (k : Fin 64) (c : Fin 128), Wblk (ix2 (lo k) ⟨c.val, by omega⟩) = Wnor (ix2 k c)
  an : ∀ (k : Fin 64) (c : Fin 128), Wblk (ix2 (hi k) ⟨c.val, by omega⟩) = 0
  na : ∀ (k : Fin 64) (c : Fin 128), Wblk (ix2 (lo k) ⟨128 + c.val, by omega⟩) = 0
  aa : ∀ (k : Fin 64) (c : Fin 128), Wblk (ix2 (hi k) ⟨128 + c.val, by omega⟩) = Wab (ix2 k c)
  bn : ∀ c : Fin 128, bblk (ix1 ⟨c.val, by omega⟩) = bnor (ix1 c)
  ba : ∀ c : Fin 128, bblk (ix1 ⟨128 + c.val, by omega⟩) = bab (ix1 c)

section Row
variable {Wblk : A2 128 256} {bblk : A1 256} {Wnor : A2 64 128} {bnor : A1 128} {Wab : A2 64 128} {bab : A1 128}
  (hB : IsBlockDiag Wblk bblk Wnor bnor Wab bab)
include hB

/-- Column c of a row through the block-diagonal matrix: its first half through W_nor. -/
theorem half_lo (H : Fin 128 → EReal) (c : Fin 128) :
    (∑ k : Fin 128, H k * Wblk (ix2 k ⟨c.val, by omega⟩)) + bblk (ix1 ⟨c.val, by omega⟩)
      = (∑ k : Fin 64, H (lo k) * Wnor (ix2 k c)) + bnor (ix1 c) := by
  refine (congrArg (· + bblk (ix1 ⟨c.val, by omega⟩)) (sum_halves _)).trans ?_
  refine congrArg₂ (· + ·) ?_ (hB.bn c)
  refine (congrArg₂ (· + ·) (Finset.sum_congr rfl fun k _ => ?_) (Finset.sum_eq_zero fun k _ => ?_)).trans (add_zero _)
  · exact congrArg (H (lo k) * ·) (hB.nn k c)
  · exact (congrArg (H (hi k) * ·) (hB.an k c)).trans (mul_zero _)

/-- Column 128 + c of a row through the block-diagonal matrix: its second half through W_abnor. -/
theorem half_hi (H : Fin 128 → EReal) (c : Fin 128) :
    (∑ k : Fin 128, H k * Wblk (ix2 k ⟨128 + c.val, by omega⟩)) + bblk (ix1 ⟨128 + c.val, by omega⟩)
      = (∑ k : Fin 64, H (hi k) * Wab (ix2 k c)) + bab (ix1 c) := by
  refine (congrArg (· + bblk (ix1 ⟨128 + c.val, by omega⟩)) (sum_halves _)).trans ?_
  refine congrArg₂ (· + ·) ?_ (hB.ba c)
  refine (congrArg₂ (· + ·) (Finset.sum_eq_zero fun k _ => ?_) (Finset.sum_congr rfl fun k _ => ?_)).trans (zero_add _)
  · exact (congrArg (H (lo k) * ·) (hB.na k c)).trans (mul_zero _)
  · exact congrArg (H (hi k) * ·) (hB.aa k c)

end Row

/-- The hidden row of a block whose row p is node n's feature row is node n's hidden row. -/
theorem hidB_eq (X : A2 50000 256) (Win : A2 256 128) (bin : A1 128) (x0 : Vec Ideal S5000x256 .f32) (n : Fin 50000) (p : Fin 5000)
    (h0 : ∀ j : Fin 256, x0 (ix2 p j) = X (ix2 n j)) (k : Fin 128) :
    hidB x0 Win bin p k = hid X Win bin (ix2 n k) := by
  unfold hidB hid
  refine congrArg lrelu (congrArg (· + bin (ix1 k)) (Finset.sum_congr rfl fun j _ => ?_))
  exact congrArg (· * Win (ix2 j k)) (h0 j)

section Entry
variable {Wblk : A2 128 256} {bblk : A1 256} {Wnor : A2 64 128} {bnor : A1 128} {Wab : A2 64 128} {bab : A1 128}
  (hB : IsBlockDiag Wblk bblk Wnor bnor Wab bab)
  (X : A2 50000 256) (Win : A2 256 128) (bin : A1 128) (x0 : Vec Ideal S5000x256 .f32) (n : Fin 50000) (p : Fin 5000)
  (h0 : ∀ j : Fin 256, x0 (ix2 p j) = X (ix2 n j))
include hB h0

/-- The first half of the double row is the node's row through W_nor. -/
theorem xnaB_lo (c : Fin 128) :
    xnaB x0 Win bin Wblk bblk p ⟨c.val, by omega⟩ = xn (hid X Win bin) Wnor bnor (ix2 n c) := by
  unfold xnaB xn
  refine (half_lo hB (fun k => hidB x0 Win bin p k) c).trans ?_
  refine congrArg (· + bnor (ix1 c)) (Finset.sum_congr rfl fun k _ => ?_)
  exact congrArg (· * Wnor (ix2 k c)) (hidB_eq X Win bin x0 n p h0 (lo k))

/-- The second half of the double row is the node's row through W_abnor. -/
theorem xnaB_hi (c : Fin 128) :
    xnaB x0 Win bin Wblk bblk p ⟨128 + c.val, by omega⟩ = xa (hid X Win bin) Wab bab (ix2 n c) := by
  unfold xnaB xa
  refine (half_hi hB (fun k => hidB x0 Win bin p k) c).trans ?_
  refine congrArg (· + bab (ix1 c)) (Finset.sum_congr rfl fun k _ => ?_)
  exact congrArg (· * Wab (ix2 k c)) (hidB_eq X Win bin x0 n p h0 (hi k))

end Entry

theorem hz2 : (![0, 0] : Fin 2 → Nat) = fun _ => 0 := funext fun a => by fin_cases a <;> rfl
theorem hz1 : (![0] : Fin 1 → Nat) = fun _ => 0 := funext fun a => by fin_cases a; rfl

/-- WHAT THE BODY STORES at (p, c) of a block whose row p is node n's feature row: the row's factor times the gated mix of
    the node's two projected rows. -/
theorem out_entry {Wblk : A2 128 256} {bblk : A1 256} {Wnor : A2 64 128} {bnor : A1 128} {Wab : A2 64 128} {bab : A1 128}
    (hB : IsBlockDiag Wblk bblk Wnor bnor Wab bab)
    (X : A2 50000 256) (Win : A2 256 128) (bin : A1 128) (Watt : A2 128 128) (batt : A1 128) (vatt : A2 128 1)
    (vrow : Vec Ideal S1x128 .f32) (hv : ∀ c : Fin 128, vrow (ix2 (0 : Fin 1) c) = vatt (ix2 c (0 : Fin 1)))
    (x0 : Vec Ideal S5000x256 .f32) (x1 : Vec Ideal S5000x1 .f32) (n : Fin 50000) (p : Fin 5000)
    (h0 : ∀ j : Fin 256, x0 (ix2 p j) = X (ix2 n j)) (q : Fin 128) :
    out0_9 (F := Ideal) x0 x1 Win bin Wblk bblk Watt batt vrow (ix2 p q)
      = x1 (ix2 p (0 : Fin 1)) * mix Watt batt vatt (fun k => xn (hid X Win bin) Wnor bnor (ix2 n k))
          (fun k => xa (hid X Win bin) Wab bab (ix2 n k)) q := by
  have hu : ∀ k : Fin 128, k0_pay3 (F := Ideal) x0 Win bin Wblk bblk (ix2 p k) = xn (hid X Win bin) Wnor bnor (ix2 n k) :=
    fun k => (projPay3_apply x0 Win bin Wblk bblk p k).trans (xnaB_lo hB X Win bin x0 n p h0 k)
  have hw : ∀ k : Fin 128, k0_pay4 (F := Ideal) x0 Win bin Wblk bblk (ix2 p k) = xa (hid X Win bin) Wab bab (ix2 n k) :=
    fun k => (projPay4_apply x0 Win bin Wblk bblk p k).trans (xnaB_hi hB X Win bin x0 n p h0 k)
  have hg : Ideal.logistic (∑ c : Fin 128, k0_pay5 (F := Ideal) x0 Win bin Wblk bblk Watt batt vrow (ix2 p c))
      = gate Watt batt vatt (fun k => xn (hid X Win bin) Wnor bnor (ix2 n k)) (fun k => xa (hid X Win bin) Wab bab (ix2 n k)) := by
    unfold gate
    refine congrArg Ideal.logistic (Finset.sum_congr rfl fun c _ => ?_)
    refine (projPay5_apply x0 Win bin Wblk bblk Watt batt vrow p c).trans ?_
    unfold gsumB
    refine congrArg₂ (· * ·) (congrArg Ideal.tanh (congrArg (· + batt (ix1 c)) (Finset.sum_congr rfl fun k _ => ?_))) (hv c)
    exact congrArg (· * Watt (ix2 k c)) (congrArg₂ (· + ·) (xnaB_lo hB X Win bin x0 n p h0 k) (xnaB_hi hB X Win bin x0 n p h0 k))
  unfold out0_9
  rw [View.canon_unit_zero hz2]
  simp only [View.ld_unit_zero (S := S5000x256) hz2, View.ld_unit_zero (S := S256x128) hz2, View.ld_unit_zero (S := S128) hz1,
    View.ld_unit_zero (S := S128x256) hz2, View.ld_unit_zero (S := S256) hz1, View.ld_unit_zero (S := S128x128) hz2,
    View.ld_unit_zero (S := S1x128) hz2, View.ld_unit_zero (S := S5000x1) hz2]
  refine (projPay1_apply _ _ _ _ p q).trans ?_
  unfold mix
  refine congrArg (x1 (ix2 p (0 : Fin 1)) * ·) ?_
  exact congrArg₂ (· + ·) (congrArg₂ (· * ·) hg (hu q)) (congrArg₂ (· * ·) (congrArg (oneW - ·) hg) (hw q))

end Cert.KernelIdeal.KValue

end
-- ==== Proof.KValue0Blocks.lean ====
/-
  From the first region's blocks to its result array.

  The region runs over ten points; point t reads rows 5000·t … 5000·t + 4999 of the feature array and of the factor column, the
  seven weight arrays whole, and writes back rows 5000·t … 5000·t + 4999 of the result. What it writes back at row p of its
  block is the stored value of the body for node 5000·t + p, so every written-back block is a block of ONE function of the
  arrays as the region finds them; the ten blocks cover the result array (row r lies in the block of point r / 5000), so the
  result array ends at that function.
-/
import proofs.«125175_j46377056862932_2_alg».proof.Proof.KValue0Row
import Idealize.ShloMosaic.Lib.Pipeline.Value

set_option maxRecDepth 16384

noncomputable section

namespace Cert.KernelIdeal.KValue

open Cert.KernelIdeal Cert.KernelIdeal.Gen Idealize.ShloMosaic Idealize.ShloMosaic.TcCoe Idealize.SL.Sem Idealize.ShloMosaic.ValueIdx
open Idealize.ShloMosaic.Pipeline (Dat)
open Cert.Spec (A1 A2 hid xn xa mix)

/-- The windows' block indices at point t: the row windows move with t, the weight windows stay at block 0. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 1) = 0
    ∧ win0_4.index t (0 : Fin 2) = 0
    ∧ win0_4.index t (1 : Fin 2) = 0
    ∧ win0_5.index t (0 : Fin 1) = 0
    ∧ win0_6.index t (0 : Fin 2) = 0
    ∧ win0_6.index t (1 : Fin 2) = 0
    ∧ win0_7.index t (0 : Fin 1) = 0
    ∧ win0_8.index t (0 : Fin 2) = 0
    ∧ win0_8.index t (1 : Fin 2) = 0
    ∧ win0_9.index t (0 : Fin 2) = t.val
    ∧ win0_9.index t (1 : Fin 2) = 0 :=
  (by decide +kernel : ∀ t : Fin grid0.N, _)

/-- The stored value's function of the arrays as the region finds them: row n's factor times the gated mix of node n's
    projected rows. -/
def G9 (Dv : A2 50000 1) (X : A2 50000 256) (Win : A2 256 128) (bin : A1 128) (Watt : A2 128 128) (batt : A1 128)
    (Wnor : A2 64 128) (bnor : A1 128) (Wab : A2 64 128) (bab : A1 128) (vatt : A2 128 1) : A2 50000 128 :=
  fun r => Dv (ix2 (r 0) (0 : Fin 1)) * mix Watt batt vatt (fun k => xn (hid X Win bin) Wnor bnor (ix2 (r 0) k))
    (fun k => xa (hid X Win bin) Wab bab (ix2 (r 0) k)) (r 1)

section Blocks
variable (V : (c : Dev nD) → (b : Ref sig .tc) → Buf (Elt Ideal) ((c : Thread nD τ).loc b)) (c : Dev nD)

/-- Row p of the feature block at point t is row 5000·t + p of the feature array. -/
theorem iblk0_0_apply (t : Fin cfg0.N) (p : Fin 5000) (j : Fin 256) (n : Fin 50000) (hn : n.val = 5000 * t.val + p.val) :
    (iblk0 V c 0 t : Vec Ideal S5000x256 .f32) (ix2 p j) = (V c main_arg0 : S50000x256.Idx → EReal) (ix2 n j) := by
  obtain ⟨e00, e01, e10, e11, e20, e21, e30, e40, e41, e50, e60, e61, e70, e80, e81, e90, e91⟩ := idx_facts t
  unfold iblk0
  rw [View.read_apply]
  show V c main_arg0 _ = V c main_arg0 _
  congr 1
  funext a
  apply Fin.ext
  match a with
  | ⟨0, _⟩ => show win0_0.index t (0 : Fin 2) * 5000 + 1 * p.val = n.val; rw [e00, hn]; omega
  | ⟨1, _⟩ => show win0_0.index t (1 : Fin 2) * 256 + 1 * j.val = j.val; rw [e01]; omega

/-- Row p of the factor block at point t is row 5000·t + p of the factor column. -/
theorem iblk0_1_apply (t : Fin cfg0.N) (p : Fin 5000) (n : Fin 50000) (hn : n.val = 5000 * t.val + p.val) :
    (iblk0 V c 1 t : Vec Ideal S5000x1 .f32) (ix2 p (0 : Fin 1)) = (V c main_v26 : S50000x1.Idx → EReal) (ix2 n (0 : Fin 1)) := by
  obtain ⟨e00, e01, e10, e11, e20, e21, e30, e40, e41, e50, e60, e61, e70, e80, e81, e90, e91⟩ := idx_facts t
  unfold iblk0
  rw [View.read_apply]
  show V c main_v26 _ = V c main_v26 _
  congr 1
  funext a
  apply Fin.ext
  match a with
  | ⟨0, _⟩ => show win0_1.index t (0 : Fin 2) * 5000 + 1 * p.val = n.val; rw [e10, hn]; omega
  | ⟨1, _⟩ => show win0_1.index t (1 : Fin 2) * 1 + 1 * 0 = 0; rw [e11]

/-- Window 2's block at every point is its whole array. -/
theorem iblk0_2_eq (t : Fin cfg0.N) : (iblk0 V c 2 t : Vec Ideal S256x128 .f32) = V c main_arg2 := by
  obtain ⟨e00, e01, e10, e11, e20, e21, e30, e40, e41, e50, e60, e61, e70, e80, e81, e90, e91⟩ := idx_facts t
  funext j
  unfold iblk0
  rw [View.read_apply]
  show V c main_arg2 _ = V c main_arg2 _
  congr 1
  funext a
  apply Fin.ext
  match a with
  | ⟨0, _⟩ => show win0_2.index t (0 : Fin 2) * 256 + 1 * (j 0).val = (j 0).val; rw [e20]; omega
  | ⟨1, _⟩ => show win0_2.index t (1 : Fin 2) * 128 + 1 * (j 1).val = (j 1).val; rw [e21]; omega

/-- Window 3's block at every point is its whole array. -/
theorem iblk0_3_eq (t : Fin cfg0.N) : (iblk0 V c 3 t : Vec Ideal S128 .f32) = V c main_arg3 := by
  obtain ⟨e00, e01, e10, e11, e20, e21, e30, e40, e41, e50, e60, e61, e70, e80, e81, e90, e91⟩ := idx_facts t
  funext j
  unfold iblk0
  rw [View.read_apply]
  show V c main_arg3 _ = V c main_arg3 _
  congr 1
  funext a
  apply Fin.ext
  match a with
  | ⟨0, _⟩ => show win0_3.index t (0 : Fin 1) * 128 + 1 * (j 0).val = (j 0).val; rw [e30]; omega

/-- Window 4's block at every point is its whole array. -/
theorem iblk0_4_eq (t : Fin cfg0.N) : (iblk0 V c 4 t : Vec Ideal S128x256 .f32) = V c main_v35 := by
  obtain ⟨e00, e01, e10, e11, e20, e21, e30, e40, e41, e50, e60, e61, e70, e80, e81, e90, e91⟩ := idx_facts t
  funext j
  unfold iblk0
  rw [View.read_apply]
  show V c main_v35 _ = V c main_v35 _
  congr 1
  funext a
  apply Fin.ext
  match a with
  | ⟨0, _⟩ => show win0_4.index t (0 : Fin 2) * 128 + 1 * (j 0).val = (j 0).val; rw [e40]; omega
  | ⟨1, _⟩ => show win0_4.index t (1 : Fin 2) * 256 + 1 * (j 1).val = (j 1).val; rw [e41]; omega

/-- Window 5's block at every point is its whole array. -/
theorem iblk0_5_eq (t : Fin cfg0.N) : (iblk0 V c 5 t : Vec Ideal S256 .f32) = V c main_v36 := by
  obtain ⟨e00, e01, e10, e11, e20, e21, e30, e40, e41, e50, e60, e61, e70, e80, e81, e90, e91⟩ := idx_facts t
  funext j
  unfold iblk0
  rw [View.read_apply]
  show V c main_v36 _ = V c main_v36 _
  congr 1
  funext a
  apply Fin.ext
  match a with
  | ⟨0, _⟩ => show win0_5.index t (0 : Fin 1) * 256 + 1 * (j 0).val = (j 0).val; rw [e50]; omega

/-- Window 6's block at every point is its whole array. -/
theorem iblk0_6_eq (t : Fin cfg0.N) : (iblk0 V c 6 t : Vec Ideal S128x128 .f32) = V c main_arg8 := by
  obtain ⟨e00, e01, e10, e11, e20, e21, e30, e40, e41, e50, e60, e61, e70, e80, e81, e90, e91⟩ := idx_facts t
  funext j
  unfold iblk0
  rw [View.read_apply]
  show V c main_arg8 _ = V c main_arg8 _
  congr 1
  funext a
  apply Fin.ext
  match a with
  | ⟨0, _⟩ => show win0_6.index t (0 : Fin 2) * 128 + 1 * (j 0).val = (j 0).val; rw [e60]; omega
  | ⟨1, _⟩ => show win0_6.index t (1 : Fin 2) * 128 + 1 * (j 1).val = (j 1).val; rw [e61]; omega

/-- Window 7's block at every point is its whole array. -/
theorem iblk0_7_eq (t : Fin cfg0.N) : (iblk0 V c 7 t : Vec Ideal S128 .f32) = V c main_arg9 := by
  obtain ⟨e00, e01, e10, e11, e20, e21, e30, e40, e41, e50, e60, e61, e70, e80, e81, e90, e91⟩ := idx_facts t
  funext j
  unfold iblk0
  rw [View.read_apply]
  show V c main_arg9 _ = V c main_arg9 _
  congr 1
  funext a
  apply Fin.ext
  match a with
  | ⟨0, _⟩ => show win0_7.index t (0 : Fin 1) * 128 + 1 * (j 0).val = (j 0).val; rw [e70]; omega

/-- Window 8's block at every point is its whole array. -/
theorem iblk0_8_eq (t : Fin cfg0.N) : (iblk0 V c 8 t : Vec Ideal S1x128 .f32) = V c main_v37 := by
  obtain ⟨e00, e01, e10, e11, e20, e21, e30, e40, e41, e50, e60, e61, e70, e80, e81, e90, e91⟩ := idx_facts t
  funext j
  unfold iblk0
  rw [View.read_apply]
  show V c main_v37 _ = V c main_v37 _
  congr 1
  funext a
  apply Fin.ext
  match a with
  | ⟨0, _⟩ => show win0_8.index t (0 : Fin 2) * 1 + 1 * (j 0).val = (j 0).val; rw [e80]; omega
  | ⟨1, _⟩ => show win0_8.index t (1 : Fin 2) * 128 + 1 * (j 1).val = (j 1).val; rw [e81]; omega

section Result
variable {Wnor : A2 64 128} {bnor : A1 128} {Wab : A2 64 128} {bab : A1 128} (vatt : A2 128 1)
  (hB : IsBlockDiag (V c main_v35) (V c main_v36) Wnor bnor Wab bab)
  (hv : ∀ k : Fin 128, (V c main_v37 : S1x128.Idx → EReal) (ix2 (0 : Fin 1) k) = vatt (ix2 k (0 : Fin 1)))
include hB hv

/-- The body's stored value at entry j of point t's block is the function at the array index i the entry lands at. -/
theorem block9_apply (t : Fin cfg0.N) (j : S5000x128.Idx) (i : S50000x128.Idx)
    (hi0 : (i 0).val = 5000 * t.val + (j 0).val) (hi1 : (i 1).val = (j 1).val) :
    out0_9 (F := Ideal) (iblk0 V c 0 t) (iblk0 V c 1 t) (V c main_arg2) (V c main_arg3) (V c main_v35) (V c main_v36)
        (V c main_arg8) (V c main_arg9) (V c main_v37) j
      = G9 (V c main_v26) (V c main_arg0) (V c main_arg2) (V c main_arg3) (V c main_arg8) (V c main_arg9) Wnor bnor Wab bab vatt i := by
  have ej : j = ix2 (j 0) (j 1) := eq_ix2 j
  have h1 : j 1 = i 1 := Fin.ext hi1.symm
  rw [ej]
  refine (out_entry hB (V c main_arg0) (V c main_arg2) (V c main_arg3) (V c main_arg8) (V c main_arg9) vatt (V c main_v37) hv
    (iblk0 V c 0 t) (iblk0 V c 1 t) (i 0) (j 0) (fun jj => iblk0_0_apply V c t (j 0) jj (i 0) hi0) (j 1)).trans ?_
  unfold G9
  rw [h1, iblk0_1_apply V c t (j 0) (i 0) hi0]

/-- WHAT POINT t WRITES BACK is block t of the function. -/
theorem flushed9_eq (t : Fin cfg0.N) :
    (dat0 V c).flushed 9 t = ((cfg0.win 9).blk t).view.read (Elt Ideal)
      (G9 (V c main_v26) (V c main_arg0) (V c main_arg2) (V c main_arg3) (V c main_arg8) (V c main_arg9) Wnor bnor Wab bab vatt) := by
  show (cfg0.win 9).cut (grid0.coords t) ((dat0 V c).after 9 t) = _
  rw [after0_9, iblk0_2_eq, iblk0_3_eq, iblk0_4_eq, iblk0_5_eq, iblk0_6_eq, iblk0_7_eq, iblk0_8_eq]
  obtain ⟨e00, e01, e10, e11, e20, e21, e30, e40, e41, e50, e60, e61, e70, e80, e81, e90, e91⟩ := idx_facts t
  funext j
  show out0_9 (F := Ideal) (iblk0 V c 0 t) (iblk0 V c 1 t) (V c main_arg2) (V c main_arg3) (V c main_v35) (V c main_v36)
        (V c main_arg8) (V c main_arg9) (V c main_v37) j
      = G9 (V c main_v26) (V c main_arg0) (V c main_arg2) (V c main_arg3) (V c main_arg8) (V c main_arg9) Wnor bnor Wab bab vatt
          (((cfg0.win 9).blk t).view.emb j)
  refine block9_apply V c vatt hB hv t j (((cfg0.win 9).blk t).view.emb j) ?_ ?_
  · show win0_9.index t (0 : Fin 2) * 5000 + 1 * (j 0).val = 5000 * t.val + (j 0).val
    rw [e90]; omega
  · show win0_9.index t (1 : Fin 2) * 128 + 1 * (j 1).val = (j 1).val
    rw [e91]; omega

end Result

/-- An index of the result array is in point t's block iff each coordinate is in the block's range on its axis. -/
theorem mem_blk9 (t : Fin cfg0.N) (i : S50000x128.Idx) :
    i ∈ ((cfg0.win 9).blk t).view.set ↔ ∀ a : Fin 2, win0_9.index t a * S5000x128.size a ≤ (i a).val
      ∧ (i a).val < win0_9.index t a * S5000x128.size a + S5000x128.size a := by
  show i ∈ ((View.whole main_v38).slice (win0_9.rect t)).set ↔ _
  rw [View.set_slice_whole, Rect.mem_set_unit]
  exact Iff.rfl

/-- Every index of the result array is in the block of the point its row divided by 5000 names. -/
theorem cover9 (i : S50000x128.Idx) : ∃ t : Fin cfg0.N, (cfg0.win 9).flush t = true ∧ i ∈ ((cfg0.win 9).blk t).view.set := by
  have hi0 : (i 0).val < 50000 := (i 0).isLt
  have hi1 : (i 1).val < 128 := (i 1).isLt
  have hN : grid0.N = 10 := N_0
  obtain ⟨t, ht⟩ : ∃ t : Fin cfg0.N, t.val = (i 0).val / 5000 :=
    ⟨⟨(i 0).val / 5000, by show (i 0).val / 5000 < grid0.N; rw [hN]; omega⟩, rfl⟩
  obtain ⟨e00, e01, e10, e11, e20, e21, e30, e40, e41, e50, e60, e61, e70, e80, e81, e90, e91⟩ := idx_facts t
  refine ⟨t, flush0_9 t, ?_⟩
  rw [mem_blk9]
  intro a
  match a with
  | ⟨0, _⟩ =>
    show win0_9.index t (0 : Fin 2) * 5000 ≤ (i 0).val ∧ (i 0).val < win0_9.index t (0 : Fin 2) * 5000 + 5000
    rw [e90, ht]; omega
  | ⟨1, _⟩ =>
    show win0_9.index t (1 : Fin 2) * 128 ≤ (i 1).val ∧ (i 1).val < win0_9.index t (1 : Fin 2) * 128 + 128
    rw [e91]; omega

/-- THE RESULT ARRAY after the region: the function of the arrays as the region finds them. -/
theorem arr9_eq {Wnor : A2 64 128} {bnor : A1 128} {Wab : A2 64 128} {bab : A1 128} (vatt : A2 128 1)
    (hB : IsBlockDiag (V c main_v35) (V c main_v36) Wnor bnor Wab bab)
    (hv : ∀ k : Fin 128, (V c main_v37 : S1x128.Idx → EReal) (ix2 (0 : Fin 1) k) = vatt (ix2 k (0 : Fin 1))) :
    (dat0 V c).arrAt 9 cfg0.N
      = G9 (V c main_v26) (V c main_arg0) (V c main_arg2) (V c main_arg3) (V c main_arg8) (V c main_arg9) Wnor bnor Wab bab vatt :=
  (dat0 V c).arrAt_eq_of_cover 9 _ (fun t _ => flushed9_eq V c vatt hB hv t) cover9

end Blocks

end Cert.KernelIdeal.KValue

end
-- ==== Proof.KValue0Blk.lean ====
/-
  A window written into a matrix, read at an index; the block-diagonal weight.

  A scatter that overwrites is a left fold over its updates: each update replaces the entry it lands at. When the
  updates land at pairwise distinct entries, the result at an entry is the one update that lands there, or the operand
  where none does. For ONE start index (r0, c0) and an update of shape [a, b] that fits, update (i, j) lands at
  (r0 + i, c0 + j): the result is the update inside the rectangle [r0, r0 + a) × [c0, c0 + b) and the operand outside.
  Two such writes into a matrix of zeros, W at (0, 0) and W' at (a, b), give the block-diagonal matrix of W and W'.
  None of this depends on a program.
-/
import Idealize.ShloMosaic.PureOps.Ideal
import Idealize.ShloMosaic.PureOps.Ideal.Laws
import Idealize.ShloMosaic.Lib.ValueIdx

noncomputable section

namespace Cert.KernelIdeal.KValue

open Idealize.ShloMosaic Idealize.ShloMosaic.ValueIdx

/-! ## An overwriting fold -/

section Fold
variable {α β ι : Type} [DecidableEq ι]

/-- One step of an overwriting scatter: update `n` replaces the entry it lands at, if it lands. -/
def setStep (g : β → Option ι) (upd : β → α) (r : ι → α) (n : β) : ι → α :=
  match g n with
  | some i => fun i' => if i' = i then upd n else r i'
  | none => r

theorem setStep_of_ne (g : β → Option ι) (upd : β → α) (r : ι → α) (n : β) (i' : ι) (h : g n ≠ some i') :
    setStep g upd r n i' = r i' := by
  unfold setStep
  cases hg : g n with
  | none => rfl
  | some i =>
    have hne : i' ≠ i := fun e => h (by rw [hg, e])
    show (if i' = i then upd n else r i') = r i'
    exact if_neg hne

theorem setStep_of_eq (g : β → Option ι) (upd : β → α) (r : ι → α) (n : β) (i' : ι) (h : g n = some i') :
    setStep g upd r n i' = upd n := by
  unfold setStep
  rw [h]
  exact if_pos rfl

/-- No update of the list lands at `i'`: the fold leaves the entry as it was. -/
theorem foldl_setStep_miss (g : β → Option ι) (upd : β → α) (l : List β) (x : ι → α) (i' : ι)
    (h : ∀ n ∈ l, g n ≠ some i') : l.foldl (setStep g upd) x i' = x i' := by
  induction l generalizing x with
  | nil => rfl
  | cons a t ih =>
    rw [List.foldl_cons, ih _ (fun n hn => h n (List.mem_cons_of_mem _ hn)),
      setStep_of_ne _ _ _ _ _ (h a List.mem_cons_self)]

/-- Exactly one update of the list, `n0`, lands at `i'`: the fold leaves that update there. -/
theorem foldl_setStep_hit (g : β → Option ι) (upd : β → α) (l : List β) (x : ι → α) (i' : ι) (n0 : β)
    (hn0 : n0 ∈ l) (hg : g n0 = some i') (hu : ∀ n ∈ l, n ≠ n0 → g n ≠ some i') :
    l.foldl (setStep g upd) x i' = upd n0 := by
  induction l generalizing x with
  | nil => exact absurd hn0 List.not_mem_nil
  | cons a t ih =>
    rw [List.foldl_cons]
    by_cases hmem : n0 ∈ t
    · exact ih _ hmem (fun n hn => hu n (List.mem_cons_of_mem _ hn))
    · have ha : a = n0 := by
        rcases List.mem_cons.mp hn0 with h | h
        · exact h.symm
        · exact absurd h hmem
      subst ha
      rw [foldl_setStep_miss g upd t _ i' (fun n hn => hu n (List.mem_cons_of_mem _ hn) (fun e => hmem (e ▸ hn)))]
      exact setStep_of_eq _ _ _ _ _ hg

end Fold

/-! ## An overwriting scatter read at an index -/

section Scatter
variable {α : Type} {s si u : Shape} {w : Nat}

/-- An overwriting scatter is the fold of `setStep` over its updates in row-major order. -/
theorem scatter_set_eq_foldl (d : ScatterDims s si u) (x : s.Idx → α) (idx : IVec si w) (upd : u.Idx → α) :
    Host.scatter d (fun _ b => b) x idx upd
      = (List.finRange u.numel).foldl
          (setStep (fun n => d.resultIdx? (u.rowMajor.symm n) idx) (fun n => upd (u.rowMajor.symm n))) x := by
  unfold Host.scatter
  refine congrArg (fun f => (List.finRange u.numel).foldl f x) ?_
  funext r n
  unfold setStep
  dsimp only
  cases d.resultIdx? (u.rowMajor.symm n) idx with
  | none => rfl
  | some i =>
    funext i'
    by_cases h : i' = i
    · simp [h]
    · simp [h]

/-- Where exactly one update lands, the result is that update. -/
theorem scatter_set_hit (d : ScatterDims s si u) (x : s.Idx → α) (idx : IVec si w) (upd : u.Idx → α) (j0 : u.Idx)
    (i' : s.Idx) (hg : d.resultIdx? j0 idx = some i') (hu : ∀ j, j ≠ j0 → d.resultIdx? j idx ≠ some i') :
    Host.scatter d (fun _ b => b) x idx upd i' = upd j0 := by
  rw [scatter_set_eq_foldl]
  have h := foldl_setStep_hit (fun n => d.resultIdx? (u.rowMajor.symm n) idx) (fun n => upd (u.rowMajor.symm n))
    (List.finRange u.numel) x i' (u.rowMajor j0) (List.mem_finRange _)
    (by show d.resultIdx? (u.rowMajor.symm (u.rowMajor j0)) idx = some i'; rw [Equiv.symm_apply_apply]; exact hg)
    (fun n _ hn => hu _ (fun e => hn (by rw [← e, Equiv.apply_symm_apply])))
  rw [h]
  show upd (u.rowMajor.symm (u.rowMajor j0)) = upd j0
  rw [Equiv.symm_apply_apply]

/-- Where no update lands, the result is the operand. -/
theorem scatter_set_miss (d : ScatterDims s si u) (x : s.Idx → α) (idx : IVec si w) (upd : u.Idx → α)
    (i' : s.Idx) (hu : ∀ j, d.resultIdx? j idx ≠ some i') :
    Host.scatter d (fun _ b => b) x idx upd i' = x i' := by
  rw [scatter_set_eq_foldl]
  exact foldl_setStep_miss _ _ _ x i' (fun n _ => hu _)

end Scatter

/-! ## One window [a, b] written into a matrix [A, B] at one start index -/

/-- The dimension numbers of `x.at[r0 : r0 + a, c0 : c0 + b].set(u)`: one start index (r0, c0), no inserted axis. -/
abbrev winDims (A B a b : Nat) (wf : ScatterDims.WF ⟨2, ![A, B]⟩ ⟨1, ![2]⟩ ⟨2, ![a, b]⟩ [0, 1] [] [0, 1] 0) :
    ScatterDims ⟨2, ![A, B]⟩ ⟨1, ![2]⟩ ⟨2, ![a, b]⟩ where
  updateWindowDims := [0, 1]
  insertedWindowDims := []
  scatterDimsToOperandDims := [0, 1]
  indexVectorDim := 0
  wf := wf

section Window
variable {A B a b w : Nat} (wf : ScatterDims.WF ⟨2, ![A, B]⟩ ⟨1, ![2]⟩ ⟨2, ![a, b]⟩ [0, 1] [] [0, 1] 0)
  (j : (⟨2, ![a, b]⟩ : Shape).Idx) (idx : IVec ⟨1, ![2]⟩ w)

theorem win_start0 : (winDims A B a b wf).start j idx 0 = (idx (ix1 (0 : Fin 2))).toInt := by
  unfold ScatterDims.start
  rw [dif_pos (show (0 : Fin 2) ∈ (winDims A B a b wf).scatterDimsToOperandDims from (by decide : (0 : Fin 2) ∈ [(0 : Fin 2), 1]))]
  have hsi : (winDims A B a b wf).siIdx j ⟨List.idxOf (0 : Fin 2) (winDims A B a b wf).scatterDimsToOperandDims,
      List.idxOf_lt_length_iff.2 (by decide : (0 : Fin 2) ∈ [(0 : Fin 2), 1])⟩ = ix1 (0 : Fin 2) := by
    funext c; refine Fin.ext ?_
    match c with
    | ⟨0, _⟩ => rfl
  rw [hsi]

theorem win_start1 : (winDims A B a b wf).start j idx 1 = (idx (ix1 (1 : Fin 2))).toInt := by
  unfold ScatterDims.start
  rw [dif_pos (show (1 : Fin 2) ∈ (winDims A B a b wf).scatterDimsToOperandDims from (by decide : (1 : Fin 2) ∈ [(0 : Fin 2), 1]))]
  have hsi : (winDims A B a b wf).siIdx j ⟨List.idxOf (1 : Fin 2) (winDims A B a b wf).scatterDimsToOperandDims,
      List.idxOf_lt_length_iff.2 (by decide : (1 : Fin 2) ∈ [(0 : Fin 2), 1])⟩ = ix1 (1 : Fin 2) := by
    funext c; refine Fin.ext ?_
    match c with
    | ⟨0, _⟩ => rfl
  rw [hsi]

theorem win_window0 : (winDims A B a b wf).window j 0 = (j 0).val := by
  unfold ScatterDims.window
  rw [dif_pos (show (0 : Fin 2) ∈ (winDims A B a b wf).sKept by simp [ScatterDims.sKept, Shape.kept])]
  rfl

theorem win_window1 : (winDims A B a b wf).window j 1 = (j 1).val := by
  unfold ScatterDims.window
  rw [dif_pos (show (1 : Fin 2) ∈ (winDims A B a b wf).sKept by simp [ScatterDims.sKept, Shape.kept])]
  rfl

/-- WHERE AN UPDATE LANDS: update (i, j) of a window that fits lands at (r0 + i, c0 + j). -/
theorem win_lands (r0 c0 : Nat) (hr : (idx (ix1 (0 : Fin 2))).toInt = (r0 : Int)) (hc : (idx (ix1 (1 : Fin 2))).toInt = (c0 : Int))
    (hra : r0 + a ≤ A) (hcb : c0 + b ≤ B) (i : (⟨2, ![A, B]⟩ : Shape).Idx) :
    (winDims A B a b wf).resultIdx? j idx = some i ↔ (i 0).val = r0 + (j 0).val ∧ (i 1).val = c0 + (j 1).val := by
  have hj0 : (j 0).val < a := idx2_lt0 j
  have hj1 : (j 1).val < b := idx2_lt1 j
  have hall : ∀ ax, 0 ≤ (winDims A B a b wf).start j idx ax + (winDims A B a b wf).window j ax
      ∧ (winDims A B a b wf).start j idx ax + (winDims A B a b wf).window j ax < ((⟨2, ![A, B]⟩ : Shape).size ax : Int) := by
    intro ax
    match ax with
    | ⟨0, _⟩ =>
      show 0 ≤ (winDims A B a b wf).start j idx 0 + (winDims A B a b wf).window j 0
        ∧ (winDims A B a b wf).start j idx 0 + (winDims A B a b wf).window j 0 < (A : Int)
      rw [win_start0, win_window0, hr]; omega
    | ⟨1, _⟩ =>
      show 0 ≤ (winDims A B a b wf).start j idx 1 + (winDims A B a b wf).window j 1
        ∧ (winDims A B a b wf).start j idx 1 + (winDims A B a b wf).window j 1 < (B : Int)
      rw [win_start1, win_window1, hc]; omega
  unfold ScatterDims.resultIdx?
  rw [dif_pos hall]
  constructor
  · intro h
    have hi := Option.some.inj h
    have h0 := congrArg Fin.val (congrFun hi 0)
    have h1 := congrArg Fin.val (congrFun hi 1)
    simp only [win_start0, win_window0, win_start1, win_window1, hr, hc] at h0 h1
    constructor <;> omega
  · rintro ⟨h0, h1⟩
    refine congrArg some (funext fun ax => Fin.ext ?_)
    match ax with
    | ⟨0, _⟩ =>
      show ((winDims A B a b wf).start j idx 0 + (winDims A B a b wf).window j 0).toNat = (i 0).val
      rw [win_start0, win_window0, hr, h0]; omega
    | ⟨1, _⟩ =>
      show ((winDims A B a b wf).start j idx 1 + (winDims A B a b wf).window j 1).toNat = (i 1).val
      rw [win_start1, win_window1, hc, h1]; omega

end Window

section WindowRead
variable {α : Type} {A B a b w : Nat} (wf : ScatterDims.WF ⟨2, ![A, B]⟩ ⟨1, ![2]⟩ ⟨2, ![a, b]⟩ [0, 1] [] [0, 1] 0)
  (x : (⟨2, ![A, B]⟩ : Shape).Idx → α) (idx : IVec ⟨1, ![2]⟩ w) (upd : (⟨2, ![a, b]⟩ : Shape).Idx → α)
  (r0 c0 : Nat) (hr : (idx (ix1 (0 : Fin 2))).toInt = (r0 : Int)) (hc : (idx (ix1 (1 : Fin 2))).toInt = (c0 : Int))
  (hra : r0 + a ≤ A) (hcb : c0 + b ≤ B)
include hr hc hra hcb

/-- Inside the rectangle the result is the update. -/
theorem winSet_inside (p : Fin A) (q : Fin B) (i : Fin a) (j : Fin b) (hp : p.val = r0 + i.val) (hq : q.val = c0 + j.val) :
    Host.scatter (winDims A B a b wf) (fun _ b => b) x idx upd (ix2 p q) = upd (ix2 i j) := by
  refine scatter_set_hit _ x idx upd (ix2 i j) (ix2 p q) ?_ ?_
  · exact (win_lands wf (ix2 i j) idx r0 c0 hr hc hra hcb (ix2 p q)).mpr ⟨hp, hq⟩
  · intro j' hne hl
    obtain ⟨h0, h1⟩ := (win_lands wf j' idx r0 c0 hr hc hra hcb (ix2 p q)).mp hl
    apply hne
    have e0 : j' 0 = i := Fin.ext (by show (j' 0).val = i.val; have : (ix2 p q 0).val = p.val := rfl; omega)
    have e1 : j' 1 = j := Fin.ext (by show (j' 1).val = j.val; have : (ix2 p q 1).val = q.val := rfl; omega)
    funext ax
    match ax with
    | ⟨0, _⟩ => exact e0
    | ⟨1, _⟩ => exact e1

/-- Outside the rectangle the result is the operand. -/
theorem winSet_outside (p : Fin A) (q : Fin B)
    (h : ¬ (r0 ≤ p.val ∧ p.val < r0 + a ∧ c0 ≤ q.val ∧ q.val < c0 + b)) :
    Host.scatter (winDims A B a b wf) (fun _ b => b) x idx upd (ix2 p q) = x (ix2 p q) := by
  refine scatter_set_miss _ x idx upd (ix2 p q) fun j' hl => h ?_
  obtain ⟨h0, h1⟩ := (win_lands wf j' idx r0 c0 hr hc hra hcb (ix2 p q)).mp hl
  have hj0 : (j' 0).val < a := idx2_lt0 j'
  have hj1 : (j' 1).val < b := idx2_lt1 j'
  have e0 : (ix2 p q 0).val = p.val := rfl
  have e1 : (ix2 p q 1).val = q.val := rfl
  omega

end WindowRead

end Cert.KernelIdeal.KValue

end
-- ==== Proof.KValue0Arr.lean ====
/-
  The first region's input arrays as the host stretch before it leaves them.

  The last host stretch before the region builds the [128, 256] weight by writing W_nor at (0, 0) and then W_abnor at
  (64, 128) into zeros, the 256-vector as b_nor followed by b_abnor, and the gate vector as a row (a transpose); no host
  operation writes an argument array. Read entry by entry: the weight is the block-diagonal matrix of W_nor and W_abnor
  (inside the second rectangle the second write, else inside the first the first write, else zero), the 256-vector's
  entry c is b_nor's and entry 128 + c is b_abnor's, the row's entry c is the gate vector's entry c.
-/
import proofs.«125175_j46377056862932_2_alg».proof.Proof.KValue0Blk
import proofs.«125175_j46377056862932_2_alg».proof.Proof.KValue0Row
import Idealize.ShloMosaic.Lib.StableHlo.Run
import Idealize.ShloMosaic.Lib.ValueLayout
import Idealize.ShloMosaic.Lib.Pipeline.Value

set_option maxRecDepth 16384

noncomputable section

namespace Cert.KernelIdeal.KValue

open Cert.KernelIdeal Cert.KernelIdeal.Gen Idealize.ShloMosaic Idealize.ShloMosaic.TcCoe Idealize.SL.Sem Idealize.ShloMosaic.ValueIdx
open Idealize.ShloMosaic.StableHlo
open Cert.Spec (A1 A2 lo hi)

/-! ## Two windows written into zeros -/

/-- The start index (r, c) as the host builds it: two one-entry vectors, one after the other. -/
def startIdx (r c : BitVec 32) : IVec S2 32 :=
  concatenate S2 0 [⟨S1, broadcastInDim S1 ![] bcast_S_S1 (constantI S_ 32 r)⟩, ⟨S1, broadcastInDim S1 ![] bcast_S_S1 (constantI S_ 32 c)⟩]
    concatenates_S1_S1_S2_d0

theorem startIdx_0 (r c : BitVec 32) : startIdx r c (ix1 (0 : Fin 2)) = r := rfl
theorem startIdx_1 (r c : BitVec 32) : startIdx r c (ix1 (1 : Fin 2)) = c := rfl

/-- W at (0, 0), then W' at (64, 128), written into Z. -/
def twoWrites (Z : A2 128 256) (Wn Wa : A2 64 128) : A2 128 256 :=
  Host.scatter (winDims 128 256 64 128 scatter_S128x256_S2_S64x128_01_n_01_0_wf) (fun _ b => b)
    (Host.scatter (winDims 128 256 64 128 scatter_S128x256_S2_S64x128_01_n_01_0_wf) (fun _ b => b) Z (startIdx 0#32 0#32) Wn)
    (startIdx 64#32 128#32) Wa

section TwoWrites
variable (Z : A2 128 256) (Wn Wa : A2 64 128)

theorem h00r : ((startIdx 0#32 0#32) (ix1 (0 : Fin 2))).toInt = ((0 : Nat) : Int) := by rw [startIdx_0]; rfl
theorem h00c : ((startIdx 0#32 0#32) (ix1 (1 : Fin 2))).toInt = ((0 : Nat) : Int) := by rw [startIdx_1]; rfl
theorem h64r : ((startIdx 64#32 128#32) (ix1 (0 : Fin 2))).toInt = ((64 : Nat) : Int) := by rw [startIdx_0]; decide
theorem h128c : ((startIdx 64#32 128#32) (ix1 (1 : Fin 2))).toInt = ((128 : Nat) : Int) := by rw [startIdx_1]; decide

/-- Rows 0..63 × columns 0..127: the first write. -/
theorem twoWrites_nn (k : Fin 64) (c : Fin 128) : twoWrites Z Wn Wa (ix2 (lo k) ⟨c.val, by omega⟩) = Wn (ix2 k c) := by
  have hk : (lo k).val = k.val := rfl
  unfold twoWrites
  refine (winSet_outside _ _ (startIdx 64#32 128#32) Wa 64 128 h64r h128c (by omega) (by omega) (lo k) ⟨c.val, by omega⟩
    (fun h => by have := k.isLt; omega)).trans ?_
  exact winSet_inside _ Z (startIdx 0#32 0#32) Wn 0 0 h00r h00c (by omega) (by omega) (lo k) ⟨c.val, by omega⟩ k c
    (by omega) (by show c.val = 0 + c.val; omega)

/-- Rows 64..127 × columns 128..255: the second write. -/
theorem twoWrites_aa (k : Fin 64) (c : Fin 128) : twoWrites Z Wn Wa (ix2 (hi k) ⟨128 + c.val, by omega⟩) = Wa (ix2 k c) := by
  have hk : (hi k).val = 64 + k.val := rfl
  unfold twoWrites
  exact winSet_inside _ _ (startIdx 64#32 128#32) Wa 64 128 h64r h128c (by omega) (by omega) (hi k) ⟨128 + c.val, by omega⟩ k c
    hk rfl

/-- Rows 64..127 × columns 0..127: neither write. -/
theorem twoWrites_an (k : Fin 64) (c : Fin 128) : twoWrites Z Wn Wa (ix2 (hi k) ⟨c.val, by omega⟩) = Z (ix2 (hi k) ⟨c.val, by omega⟩) := by
  have hk : (hi k).val = 64 + k.val := rfl
  unfold twoWrites
  refine (winSet_outside _ _ (startIdx 64#32 128#32) Wa 64 128 h64r h128c (by omega) (by omega) (hi k) ⟨c.val, by omega⟩
    (fun h => by have := c.isLt; have e : (⟨c.val, by omega⟩ : Fin 256).val = c.val := rfl; omega)).trans ?_
  exact winSet_outside _ Z (startIdx 0#32 0#32) Wn 0 0 h00r h00c (by omega) (by omega) (hi k) ⟨c.val, by omega⟩
    (fun h => by omega)

/-- Rows 0..63 × columns 128..255: neither write. -/
theorem twoWrites_na (k : Fin 64) (c : Fin 128) : twoWrites Z Wn Wa (ix2 (lo k) ⟨128 + c.val, by omega⟩) = Z (ix2 (lo k) ⟨128 + c.val, by omega⟩) := by
  have hk : (lo k).val = k.val := rfl
  unfold twoWrites
  refine (winSet_outside _ _ (startIdx 64#32 128#32) Wa 64 128 h64r h128c (by omega) (by omega) (lo k) ⟨128 + c.val, by omega⟩
    (fun h => by have := k.isLt; omega)).trans ?_
  exact winSet_outside _ Z (startIdx 0#32 0#32) Wn 0 0 h00r h00c (by omega) (by omega) (lo k) ⟨128 + c.val, by omega⟩
    (fun h => by have e : (⟨128 + c.val, by omega⟩ : Fin 256).val = 128 + c.val := rfl; omega)

end TwoWrites

/-! ## The stretch before the region -/

variable (m : (ℓ : Loc nD τ sig) → Buf (Elt Ideal) ℓ) (ρ : Dev nD → PrngReg)

/-- The weight the region reads: W_nor written at (0, 0), then W_abnor at (64, 128), into zeros. -/
theorem W5_v35 (c : Dev nD) : (W5 m ρ c (Proc.devRef .tc main_v35) : S128x256.Idx → EReal)
    = Host.scatter scatter_S128x256_S2_S64x128_01_n_01_0 (fun _ b => b)
        (Host.scatter scatter_S128x256_S2_S64x128_01_n_01_0 (fun _ b => b)
          (broadcastInDim S128x256 ![] bcast_S_S128x256 (constant (F := Ideal) S_ .f32 0x00000000#32))
          (startIdx 0#32 0#32) (W4 m ρ c (Proc.devRef .tc main_arg4)))
        (startIdx 64#32 128#32) (W4 m ρ c (Proc.devRef .tc main_arg6)) := by
  show StableHlo.after hostOps0_4 (W4 m ρ c) (Proc.devRef .tc main_v35) = _
  generalize W4 m ρ c = F
  unfold hostOps0_4
  after_results
  rfl

/-- The 256-vector the region reads: b_nor followed by b_abnor. -/
theorem W5_v36 (c : Dev nD) : (W5 m ρ c (Proc.devRef .tc main_v36) : S256.Idx → EReal)
    = concatenate S256 0 [⟨S128, W4 m ρ c (Proc.devRef .tc main_arg5)⟩, ⟨S128, W4 m ρ c (Proc.devRef .tc main_arg7)⟩]
        concatenates_S128_S128_S256_d0 := by
  show StableHlo.after hostOps0_4 (W4 m ρ c) (Proc.devRef .tc main_v36) = _
  generalize W4 m ρ c = F
  unfold hostOps0_4
  after_results
  all_goals rfl

/-- The row the region reads: the gate vector transposed. -/
theorem W5_v37 (c : Dev nD) : (W5 m ρ c (Proc.devRef .tc main_v37) : S1x128.Idx → EReal)
    = transpose S1x128 [1, 0] (W4 m ρ c (Proc.devRef .tc main_arg10)) transposes_S128x1_S1x128_1_0 := by
  show StableHlo.after hostOps0_4 (W4 m ρ c) (Proc.devRef .tc main_v37) = _
  generalize W4 m ρ c = F
  unfold hostOps0_4
  after_results
  all_goals rfl

/-- A buffer no operation of the stretch writes holds after the stretch what it held before. -/
local macro "kept_by " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-! ### The argument arrays are as launched: no host operation before the region writes one -/

theorem W4_arg4 (c : Dev nD) : W4 m ρ c (Proc.devRef .tc main_arg4) = m ((c : Thread nD τ).loc main_arg4) :=
  calc W4 m ρ c (Proc.devRef .tc main_arg4)
    _ = W3 m ρ c (Proc.devRef .tc main_arg4) := by kept_by hostOps0_3
    _ = W2 m ρ c (Proc.devRef .tc main_arg4) := by kept_by hostOps0_2
    _ = W1 m ρ c (Proc.devRef .tc main_arg4) := by kept_by hostOps0_1
    _ = W0 m ρ c (Proc.devRef .tc main_arg4) := by kept_by hostOps0
    _ = m ((c : Thread nD τ).loc main_arg4) := rfl
theorem W4_arg5 (c : Dev nD) : W4 m ρ c (Proc.devRef .tc main_arg5) = m ((c : Thread nD τ).loc main_arg5) :=
  calc W4 m ρ c (Proc.devRef .tc main_arg5)
    _ = W3 m ρ c (Proc.devRef .tc main_arg5) := by kept_by hostOps0_3
    _ = W2 m ρ c (Proc.devRef .tc main_arg5) := by kept_by hostOps0_2
    _ = W1 m ρ c (Proc.devRef .tc main_arg5) := by kept_by hostOps0_1
    _ = W0 m ρ c (Proc.devRef .tc main_arg5) := by kept_by hostOps0
    _ = m ((c : Thread nD τ).loc main_arg5) := rfl
theorem W4_arg6 (c : Dev nD) : W4 m ρ c (Proc.devRef .tc main_arg6) = m ((c : Thread nD τ).loc main_arg6) :=
  calc W4 m ρ c (Proc.devRef .tc main_arg6)
    _ = W3 m ρ c (Proc.devRef .tc main_arg6) := by kept_by hostOps0_3
    _ = W2 m ρ c (Proc.devRef .tc main_arg6) := by kept_by hostOps0_2
    _ = W1 m ρ c (Proc.devRef .tc main_arg6) := by kept_by hostOps0_1
    _ = W0 m ρ c (Proc.devRef .tc main_arg6) := by kept_by hostOps0
    _ = m ((c : Thread nD τ).loc main_arg6) := rfl
theorem W4_arg7 (c : Dev nD) : W4 m ρ c (Proc.devRef .tc main_arg7) = m ((c : Thread nD τ).loc main_arg7) :=
  calc W4 m ρ c (Proc.devRef .tc main_arg7)
    _ = W3 m ρ c (Proc.devRef .tc main_arg7) := by kept_by hostOps0_3
    _ = W2 m ρ c (Proc.devRef .tc main_arg7) := by kept_by hostOps0_2
    _ = W1 m ρ c (Proc.devRef .tc main_arg7) := by kept_by hostOps0_1
    _ = W0 m ρ c (Proc.devRef .tc main_arg7) := by kept_by hostOps0
    _ = m ((c : Thread nD τ).loc main_arg7) := rfl
theorem W4_arg10 (c : Dev nD) : W4 m ρ c (Proc.devRef .tc main_arg10) = m ((c : Thread nD τ).loc main_arg10) :=
  calc W4 m ρ c (Proc.devRef .tc main_arg10)
    _ = W3 m ρ c (Proc.devRef .tc main_arg10) := by kept_by hostOps0_3
    _ = W2 m ρ c (Proc.devRef .tc main_arg10) := by kept_by hostOps0_2
    _ = W1 m ρ c (Proc.devRef .tc main_arg10) := by kept_by hostOps0_1
    _ = W0 m ρ c (Proc.devRef .tc main_arg10) := by kept_by hostOps0
    _ = m ((c : Thread nD τ).loc main_arg10) := rfl
theorem W5_arg0 (c : Dev nD) : W5 m ρ c (Proc.devRef .tc main_arg0) = m ((c : Thread nD τ).loc main_arg0) :=
  calc W5 m ρ c (Proc.devRef .tc main_arg0)
    _ = W4 m ρ c (Proc.devRef .tc main_arg0) := by kept_by hostOps0_4
    _ = W3 m ρ c (Proc.devRef .tc main_arg0) := by kept_by hostOps0_3
    _ = W2 m ρ c (Proc.devRef .tc main_arg0) := by kept_by hostOps0_2
    _ = W1 m ρ c (Proc.devRef .tc main_arg0) := by kept_by hostOps0_1
    _ = W0 m ρ c (Proc.devRef .tc main_arg0) := by kept_by hostOps0
    _ = m ((c : Thread nD τ).loc main_arg0) := rfl
theorem W5_arg2 (c : Dev nD) : W5 m ρ c (Proc.devRef .tc main_arg2) = m ((c : Thread nD τ).loc main_arg2) :=
  calc W5 m ρ c (Proc.devRef .tc main_arg2)
    _ = W4 m ρ c (Proc.devRef .tc main_arg2) := by kept_by hostOps0_4
    _ = W3 m ρ c (Proc.devRef .tc main_arg2) := by kept_by hostOps0_3
    _ = W2 m ρ c (Proc.devRef .tc main_arg2) := by kept_by hostOps0_2
    _ = W1 m ρ c (Proc.devRef .tc main_arg2) := by kept_by hostOps0_1
    _ = W0 m ρ c (Proc.devRef .tc main_arg2) := by kept_by hostOps0
    _ = m ((c : Thread nD τ).loc main_arg2) := rfl
theorem W5_arg3 (c : Dev nD) : W5 m ρ c (Proc.devRef .tc main_arg3) = m ((c : Thread nD τ).loc main_arg3) :=
  calc W5 m ρ c (Proc.devRef .tc main_arg3)
    _ = W4 m ρ c (Proc.devRef .tc main_arg3) := by kept_by hostOps0_4
    _ = W3 m ρ c (Proc.devRef .tc main_arg3) := by kept_by hostOps0_3
    _ = W2 m ρ c (Proc.devRef .tc main_arg3) := by kept_by hostOps0_2
    _ = W1 m ρ c (Proc.devRef .tc main_arg3) := by kept_by hostOps0_1
    _ = W0 m ρ c (Proc.devRef .tc main_arg3) := by kept_by hostOps0
    _ = m ((c : Thread nD τ).loc main_arg3) := rfl
theorem W5_arg8 (c : Dev nD) : W5 m ρ c (Proc.devRef .tc main_arg8) = m ((c : Thread nD τ).loc main_arg8) :=
  calc W5 m ρ c (Proc.devRef .tc main_arg8)
    _ = W4 m ρ c (Proc.devRef .tc main_arg8) := by kept_by hostOps0_4
    _ = W3 m ρ c (Proc.devRef .tc main_arg8) := by kept_by hostOps0_3
    _ = W2 m ρ c (Proc.devRef .tc main_arg8) := by kept_by hostOps0_2
    _ = W1 m ρ c (Proc.devRef .tc main_arg8) := by kept_by hostOps0_1
    _ = W0 m ρ c (Proc.devRef .tc main_arg8) := by kept_by hostOps0
    _ = m ((c : Thread nD τ).loc main_arg8) := rfl
theorem W5_arg9 (c : Dev nD) : W5 m ρ c (Proc.devRef .tc main_arg9) = m ((c : Thread nD τ).loc main_arg9) :=
  calc W5 m ρ c (Proc.devRef .tc main_arg9)
    _ = W4 m ρ c (Proc.devRef .tc main_arg9) := by kept_by hostOps0_4
    _ = W3 m ρ c (Proc.devRef .tc main_arg9) := by kept_by hostOps0_3
    _ = W2 m ρ c (Proc.devRef .tc main_arg9) := by kept_by hostOps0_2
    _ = W1 m ρ c (Proc.devRef .tc main_arg9) := by kept_by hostOps0_1
    _ = W0 m ρ c (Proc.devRef .tc main_arg9) := by kept_by hostOps0
    _ = m ((c : Thread nD τ).loc main_arg9) := rfl

/-- THE WEIGHT AND THE 256-VECTOR the region reads are the block-diagonal matrix of W_nor and W_abnor and b_nor followed
    by b_abnor. -/
theorem W5_blockdiag (c : Dev nD) :
    IsBlockDiag (W5 m ρ c (Proc.devRef .tc main_v35)) (W5 m ρ c (Proc.devRef .tc main_v36))
      (m ((c : Thread nD τ).loc main_arg4)) (m ((c : Thread nD τ).loc main_arg5))
      (m ((c : Thread nD τ).loc main_arg6)) (m ((c : Thread nD τ).loc main_arg7)) := by
  have e35 : (W5 m ρ c (Proc.devRef .tc main_v35) : S128x256.Idx → EReal)
      = twoWrites (broadcastInDim S128x256 ![] bcast_S_S128x256 (constant (F := Ideal) S_ .f32 0x00000000#32))
          (m ((c : Thread nD τ).loc main_arg4)) (m ((c : Thread nD τ).loc main_arg6)) := by
    rw [W5_v35, W4_arg4, W4_arg6]; rfl
  have e36 : (W5 m ρ c (Proc.devRef .tc main_v36) : S256.Idx → EReal)
      = concatenate S256 0 [⟨S128, m ((c : Thread nD τ).loc main_arg5)⟩, ⟨S128, m ((c : Thread nD τ).loc main_arg7)⟩]
          concatenates_S128_S128_S256_d0 := by
    rw [W5_v36, W4_arg5, W4_arg7]
  have hZ : ∀ i : S128x256.Idx,
      (broadcastInDim S128x256 ![] bcast_S_S128x256 (constant (F := Ideal) S_ .f32 0x00000000#32) : S128x256.Idx → EReal) i = 0 :=
    fun i => Ideal.ofBits_zero_f32
  refine ⟨fun k c' => ?_, fun k c' => ?_, fun k c' => ?_, fun k c' => ?_, fun c' => ?_, fun c' => ?_⟩
  · rw [e35]; exact twoWrites_nn _ _ _ k c'
  · rw [e35]; exact (twoWrites_an _ _ _ k c').trans (hZ _)
  · rw [e35]; exact (twoWrites_na _ _ _ k c').trans (hZ _)
  · rw [e35]; exact twoWrites_aa _ _ _ k c'
  · rw [e36]
    exact concatenate_pair_apply_left (t := S256) (s₁ := S128) (s₂ := S128) 0 _ _ concatenates_S128_S128_S256_d0 _ rfl (ix1 c')
      (fun b => by match b with | ⟨0, _⟩ => rfl)
  · rw [e36]
    exact concatenate_pair_apply_right (t := S256) (s₁ := S128) (s₂ := S128) 0 _ _ concatenates_S128_S128_S256_d0 _ rfl rfl (ix1 c')
      (fun b hb => absurd (Subsingleton.elim _ _) hb) (by show c'.val + 128 = 128 + c'.val; omega)

/-- THE ROW the region reads holds the gate vector's entries. -/
theorem W5_vrow (c : Dev nD) (k : Fin 128) :
    (W5 m ρ c (Proc.devRef .tc main_v37) : S1x128.Idx → EReal) (ix2 (0 : Fin 1) k)
      = (m ((c : Thread nD τ).loc main_arg10) : S128x1.Idx → EReal) (ix2 k (0 : Fin 1)) := by
  rw [W5_v37, W4_arg10]
  exact transpose_ix2_apply _ transposes_S128x1_S1x128_1_0 (0 : Fin 1) k

end Cert.KernelIdeal.KValue

end
-- ==== Proof.LibTypedRefs.lean ====
/-
  Typed buffer references: writing contents at the tensor type into a buffer and reading them back is the identity.

  A typed reference carries a proof that its buffer's type is a given tensor type; contents move between the two types along
  that proof. For any typed reference the move to the buffer's type followed by the move back is the identity: take the
  buffer's type as the given type (the proof is then reflexivity) and both moves are the identity cast. This does not depend
  on a program.
-/
import Idealize.ShloMosaic.Lib.StableHlo

noncomputable section

namespace Cert.Gcn

open Idealize.ShloMosaic Idealize.ShloMosaic.StableHlo

/-- Contents moved to a typed reference's buffer type and back are unchanged. -/
theorem ofBuf_toBuf {sig : RefSig} {Val : EltTy → Type} {T : BufTy} (x : TRef sig T) (v : T.Contents Val) :
    x.ofBuf (x.toBuf v) = v := by
  obtain ⟨r, h, p, q⟩ := x
  subst h
  rfl

end Cert.Gcn

end
-- ==== Proof.KValue0DinvOps.lean ====
/-
  The host stretches that make the per-node factor, each read at the buffer it writes, from any contents before it.

  The degree's count is compared with zero; a count that is not positive is replaced by one (a call of a module-local
  function: a rank-zero word broadcast, then a select); the inverse square root is taken; zero is put back where the
  count was not positive (the same function again); the vector is made a column. Each stretch is a short line of
  operations, and what it leaves at its result buffer is the operations' term of the buffers it reads. The calls move
  contents between a buffer's own type and the tensor type along a reflexive equation: those moves are the identity.
-/
import proofs.«125175_j46377056862932_2_alg».proof.Proof.Gen.KernelIdeal.Launch
import proofs.«125175_j46377056862932_2_alg».proof.Proof.LibTypedRefs
import Idealize.ShloMosaic.Lib.StableHlo.Run
import Idealize.ShloMosaic.Lib.ValueIdx

noncomputable section

open scoped BigOperators

namespace Cert.KernelIdeal.KValue

open Cert.KernelIdeal Cert.KernelIdeal.Gen Idealize.ShloMosaic Idealize.ShloMosaic.ValueIdx

open Idealize.ShloMosaic.TcCoe Idealize.SL.Sem Idealize.ShloMosaic.StableHlo

/-! ## The typed references' moves at this program's buffers: identities -/

theorem ofBuf_cst_4 {Val : EltTy → Type} (h1 : (main_cst_4 : Ref sig .tc).ty = ⟨S_, .f32⟩) (h2 : (main_cst_4 : Ref sig .tc).space ≠ .host) (h3 : (main_cst_4 : Ref sig .tc).isScoped = false)
    (v : (⟨S_, .f32⟩ : BufTy).Contents Val) : (TRef.of main_cst_4 h1 h2 h3).ofBuf v = v := rfl
theorem ofBuf_v22 {Val : EltTy → Type} (h1 : (main_v22 : Ref sig .tc).ty = ⟨S50000, .i1⟩) (h2 : (main_v22 : Ref sig .tc).space ≠ .host) (h3 : (main_v22 : Ref sig .tc).isScoped = false)
    (v : (⟨S50000, .i1⟩ : BufTy).Contents Val) : (TRef.of main_v22 h1 h2 h3).ofBuf v = v := rfl
theorem ofBuf_v18 {Val : EltTy → Type} (h1 : (main_v18 : Ref sig .tc).ty = ⟨S50000, .f32⟩) (h2 : (main_v18 : Ref sig .tc).space ≠ .host) (h3 : (main_v18 : Ref sig .tc).isScoped = false)
    (v : (⟨S50000, .f32⟩ : BufTy).Contents Val) : (TRef.of main_v18 h1 h2 h3).ofBuf v = v := rfl
theorem toBuf_v23 {Val : EltTy → Type} (h1 : (main_v23 : Ref sig .tc).ty = ⟨S50000, .f32⟩) (h2 : (main_v23 : Ref sig .tc).space ≠ .host) (h3 : (main_v23 : Ref sig .tc).isScoped = false)
    (v : (⟨S50000, .f32⟩ : BufTy).Contents Val) : (TRef.of main_v23 h1 h2 h3).toBuf v = v := rfl
theorem ofBuf_cst_5 {Val : EltTy → Type} (h1 : (main_cst_5 : Ref sig .tc).ty = ⟨S_, .f32⟩) (h2 : (main_cst_5 : Ref sig .tc).space ≠ .host) (h3 : (main_cst_5 : Ref sig .tc).isScoped = false)
    (v : (⟨S_, .f32⟩ : BufTy).Contents Val) : (TRef.of main_cst_5 h1 h2 h3).ofBuf v = v := rfl
theorem ofBuf_v20 {Val : EltTy → Type} (h1 : (main_v20 : Ref sig .tc).ty = ⟨S50000, .i1⟩) (h2 : (main_v20 : Ref sig .tc).space ≠ .host) (h3 : (main_v20 : Ref sig .tc).isScoped = false)
    (v : (⟨S50000, .i1⟩ : BufTy).Contents Val) : (TRef.of main_v20 h1 h2 h3).ofBuf v = v := rfl
theorem ofBuf_v24 {Val : EltTy → Type} (h1 : (main_v24 : Ref sig .tc).ty = ⟨S50000, .f32⟩) (h2 : (main_v24 : Ref sig .tc).space ≠ .host) (h3 : (main_v24 : Ref sig .tc).isScoped = false)
    (v : (⟨S50000, .f32⟩ : BufTy).Contents Val) : (TRef.of main_v24 h1 h2 h3).ofBuf v = v := rfl
theorem toBuf_v25 {Val : EltTy → Type} (h1 : (main_v25 : Ref sig .tc).ty = ⟨S50000, .f32⟩) (h2 : (main_v25 : Ref sig .tc).space ≠ .host) (h3 : (main_v25 : Ref sig .tc).isScoped = false)
    (v : (⟨S50000, .f32⟩ : BufTy).Contents Val) : (TRef.of main_v25 h1 h2 h3).toBuf v = v := rfl

variable (F : Valuation τ sig (Elt Ideal))

/-- The second stretch: the count where it is positive, one elsewhere. -/
theorem ops1_safe : (StableHlo.after hostOps0_1 F (Proc.devRef .tc main_v23) : FVec Ideal S50000 .f32)
    = select (F (Proc.devRef .tc main_v22)) (F (Proc.devRef .tc main_v18))
        (broadcastInDim S50000 ![] bcast_S_S50000 (F (Proc.devRef .tc main_cst_4))) := by
  dsimp only [hostOps0_1]
  after_results
  simp only [Cert.Gcn.ofBuf_toBuf, ofBuf_cst_4, ofBuf_v22, ofBuf_v18, toBuf_v23, id_eq]

/-- The third stretch: the inverse square root, and the word 0.0. -/
theorem ops2_rsqrt : (StableHlo.after hostOps0_2 F (Proc.devRef .tc main_v24) : FVec Ideal S50000 .f32)
    = Host.rsqrt (F := Ideal) (φ := .f32) (F (Proc.devRef .tc main_v23)) := by
  dsimp only [hostOps0_2]
  after_results
theorem ops2_zero : (StableHlo.after hostOps0_2 F (Proc.devRef .tc main_cst_5) : FVec Ideal S_ .f32)
    = constant (F := Ideal) S_ .f32 0x00000000#32 := by
  dsimp only [hostOps0_2]
  after_results

/-- The fourth stretch: the inverse square root where the count is positive, zero elsewhere. -/
theorem ops3_dinv : (StableHlo.after hostOps0_3 F (Proc.devRef .tc main_v25) : FVec Ideal S50000 .f32)
    = select (F (Proc.devRef .tc main_v20)) (F (Proc.devRef .tc main_v24))
        (broadcastInDim S50000 ![] bcast_S_S50000 (F (Proc.devRef .tc main_cst_5))) := by
  dsimp only [hostOps0_3]
  after_results
  simp only [Cert.Gcn.ofBuf_toBuf, ofBuf_cst_5, ofBuf_v20, ofBuf_v24, toBuf_v25, id_eq]

/-- The fifth stretch: the vector as a column. -/
theorem ops4_col : (StableHlo.after hostOps0_4 F (Proc.devRef .tc main_v26) : S50000x1.Idx → EReal)
    = broadcastInDim S50000x1 ![0] bcast_S50000_S50000x1_0 (F (Proc.devRef .tc main_v25)) := by
  dsimp only [hostOps0_4]
  after_results

end Cert.KernelIdeal.KValue

end
-- ==== Proof.KValue0Dinv.lean ====
/-
  The factor column the first region is given: 1/√degree of every node.

  Before the first region the host counts, for every node, the edges landing on it (ones added into zeros at the wrapped
  targets), compares the count with zero, replaces a count that is not positive by one, takes the inverse square root,
  and puts zero back where the count was not positive; the result, as a column, is the array the first region reads as its
  factor. Entry n of that column is the shared `Cert.Spec.dinvOf` of node n's degree. The operations sit in five
  stretches; a buffer written in one stretch is written by no later one, so each is read where it was written.
-/
import proofs.«125175_j46377056862932_2_alg».proof.Proof.Gen.KernelIdeal.Frame
import proofs.«125175_j46377056862932_2_alg».proof.Proof.KDefs
import proofs.«125175_j46377056862932_2_alg».proof.Proof.LibKeepdims
import proofs.«125175_j46377056862932_2_alg».proof.Proof.KValue0DinvOps
import Idealize.ShloMosaic.Lib.StableHlo.Run

noncomputable section

open scoped BigOperators

namespace Cert.KernelIdeal.KValue

open Cert.KernelIdeal Cert.KernelIdeal.Gen Idealize.ShloMosaic Idealize.ShloMosaic.ValueIdx

open Idealize.ShloMosaic.TcCoe Idealize.SL.Sem Idealize.ShloMosaic.StableHlo
open Cert.Spec (A1 A2 zeroW oneW dinvOf)

/-- The zero vector the counts are compared with, the vector of ones, and the vector of zeros put back. -/
abbrev zeros50000 : FVec Ideal S50000 .f32 := broadcastInDim S50000 ![] bcast_S_S50000 (constant (F := Ideal) S_ .f32 0x00000000#32)
abbrev ones50000 : FVec Ideal S50000 .f32 := broadcastInDim S50000 ![] bcast_S_S50000 (constant (F := Ideal) S_ .f32 0x3F800000#32)

/-- The factor vector as the operations' term of a degree vector. -/
def dinvVec (d : A1 50000) : FVec Ideal S50000 .f32 :=
  select (cmpf (F := Ideal) (φ := .f32) .ogt d zeros50000)
    (Host.rsqrt (F := Ideal) (φ := .f32) (select (cmpf (F := Ideal) (φ := .f32) .ogt d zeros50000) d ones50000))
    zeros50000

/-- Entry n of it is the shared 1/√degree of the degree's entry n. -/
theorem dinvVec_apply (d : A1 50000) (n : Fin 50000) : dinvVec d (ix1 n) = dinvOf (d (ix1 n)) := rfl

/-- A select of equal operands. -/
theorem select3_congr {α : Type} {s : Shape} {p p' : IVec s 1} {a a' b b' : s.Idx → α} (hp : p = p') (ha : a = a') (hb : b = b') :
    select p a b = select p' a' b' := by
  subst hp ha hb; rfl

variable (m : (ℓ : Loc nD τ sig) → Buf (Elt Ideal) ℓ) (ρ : Dev nD → PrngReg)

/-! ## The first stretch: the degree, its two comparisons with zero, the word 1.0 -/

/-- The count of edges landing on each node. -/
theorem W1_degree (c : Dev nD) : (W1 m ρ c (Proc.devRef .tc main_v18) : S50000.Idx → EReal) = degK (m ((c : Thread nD τ).loc main_arg1)) := by
  show StableHlo.after hostOps0 (W0 m ρ c) (Proc.devRef .tc main_v18) = _
  dsimp only [hostOps0]
  after_results_simp
  rfl

/-- The two comparisons "degree > 0". -/
theorem W1_pos (c : Dev nD) : (W1 m ρ c (Proc.devRef .tc main_v20) : IVec S50000 1)
    = cmpf (F := Ideal) (φ := .f32) .ogt (degK (m ((c : Thread nD τ).loc main_arg1))) zeros50000 := by
  show StableHlo.after hostOps0 (W0 m ρ c) (Proc.devRef .tc main_v20) = _
  dsimp only [hostOps0]
  after_results_simp
  rfl
theorem W1_pos' (c : Dev nD) : (W1 m ρ c (Proc.devRef .tc main_v22) : IVec S50000 1)
    = cmpf (F := Ideal) (φ := .f32) .ogt (degK (m ((c : Thread nD τ).loc main_arg1))) zeros50000 := by
  show StableHlo.after hostOps0 (W0 m ρ c) (Proc.devRef .tc main_v22) = _
  dsimp only [hostOps0]
  after_results_simp
  rfl

/-- The word 1.0 as a rank-zero array. -/
theorem W1_one (c : Dev nD) : (W1 m ρ c (Proc.devRef .tc main_cst_4) : FVec Ideal S_ .f32)
    = constant (F := Ideal) S_ .f32 0x3F800000#32 := by
  show StableHlo.after hostOps0 (W0 m ρ c) (Proc.devRef .tc main_cst_4) = _
  dsimp only [hostOps0]
  after_results_simp

/-! ## The later stretches, each read where it writes -/

/-- A count that is not positive replaced by one. -/
theorem W2_safe (c : Dev nD) : (W2 m ρ c (Proc.devRef .tc main_v23) : FVec Ideal S50000 .f32)
    = select (cmpf (F := Ideal) (φ := .f32) .ogt (degK (m ((c : Thread nD τ).loc main_arg1))) zeros50000) (degK (m ((c : Thread nD τ).loc main_arg1))) ones50000 := by
  show StableHlo.after hostOps0_1 (W1 m ρ c) (Proc.devRef .tc main_v23) = _
  exact (ops1_safe (W1 m ρ c)).trans (select3_congr (W1_pos' m ρ c) (W1_degree m ρ c)
    (congrArg (broadcastInDim S50000 ![] bcast_S_S50000) (W1_one m ρ c)))

/-- Its inverse square root. -/
theorem W3_rsqrt (c : Dev nD) : (W3 m ρ c (Proc.devRef .tc main_v24) : FVec Ideal S50000 .f32)
    = Host.rsqrt (F := Ideal) (φ := .f32)
        (select (cmpf (F := Ideal) (φ := .f32) .ogt (degK (m ((c : Thread nD τ).loc main_arg1))) zeros50000) (degK (m ((c : Thread nD τ).loc main_arg1))) ones50000) := by
  show StableHlo.after hostOps0_2 (W2 m ρ c) (Proc.devRef .tc main_v24) = _
  exact (ops2_rsqrt (W2 m ρ c)).trans (congrArg (Host.rsqrt (F := Ideal) (φ := .f32)) (W2_safe m ρ c))

/-- The word 0.0 as a rank-zero array. -/
theorem W3_zero (c : Dev nD) : (W3 m ρ c (Proc.devRef .tc main_cst_5) : FVec Ideal S_ .f32)
    = constant (F := Ideal) S_ .f32 0x00000000#32 := by
  show StableHlo.after hostOps0_2 (W2 m ρ c) (Proc.devRef .tc main_cst_5) = _
  exact ops2_zero (W2 m ρ c)

/-- The comparison "degree > 0" is written by neither the second nor the third stretch. -/
theorem W3_pos (c : Dev nD) : (W3 m ρ c (Proc.devRef .tc main_v20) : IVec S50000 1)
    = cmpf (F := Ideal) (φ := .f32) .ogt (degK (m ((c : Thread nD τ).loc main_arg1))) zeros50000 :=
  calc W3 m ρ c (Proc.devRef .tc main_v20)
    _ = W2 m ρ c (Proc.devRef .tc main_v20) := StableHlo.after_of_forall_not_mem (b := Proc.devRef .tc main_v20) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v20) := StableHlo.after_of_forall_not_mem (b := Proc.devRef .tc main_v20) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = _ := W1_pos m ρ c

/-- Zero put back where the count is not positive: the factor vector. -/
theorem W4_dinv (c : Dev nD) : (W4 m ρ c (Proc.devRef .tc main_v25) : FVec Ideal S50000 .f32) = dinvVec (degK (m ((c : Thread nD τ).loc main_arg1))) := by
  show StableHlo.after hostOps0_3 (W3 m ρ c) (Proc.devRef .tc main_v25) = _
  exact (ops3_dinv (W3 m ρ c)).trans (select3_congr (W3_pos m ρ c) (W3_rsqrt m ρ c)
    (congrArg (broadcastInDim S50000 ![] bcast_S_S50000) (W3_zero m ρ c)))

/-- The factor vector as a column: what the first region is given. -/
theorem W5_factor (c : Dev nD) : (W5 m ρ c (Proc.devRef .tc main_v26) : S50000x1.Idx → EReal)
    = broadcastInDim S50000x1 ![0] bcast_S50000_S50000x1_0 (dinvVec (degK (m ((c : Thread nD τ).loc main_arg1)))) := by
  show StableHlo.after hostOps0_4 (W4 m ρ c) (Proc.devRef .tc main_v26) = _
  rw [ops4_col (W4 m ρ c), W4_dinv m ρ c]

/-- Entry n of the factor column: 1/√degree of node n, zero where the degree is not positive. -/
theorem dinv_col_eq (m : (ℓ : Loc nD τ sig) → Buf (Elt Ideal) ℓ) (ρ : Dev nD → PrngReg) (c : Dev nD) (n : Fin 50000) :
    (Gen.W5 m ρ c (Proc.devRef .tc main_v26) : S50000x1.Idx → EReal) (ix2 n (0 : Fin 1))
      = Cert.Spec.dinvOf (degK (m ((c.tc : Thread nD τ).loc main_arg1)) (ix1 n)) :=
  (congrFun (W5_factor m ρ c) (ix2 n (0 : Fin 1))).trans
    ((Cert.Gcn.broadcastInDim_a_a1_apply bcast_S50000_S50000x1_0 (dinvVec (degK (m ((c.tc : Thread nD τ).loc main_arg1)))) n 0).trans
      (dinvVec_apply (degK (m ((c.tc : Thread nD τ).loc main_arg1))) n))

end Cert.KernelIdeal.KValue

end
-- ==== Proof.KValue0.lean ====
/-
  The first region's result array, read: for every node, 1/√degree times the gated mix of the node's two projected rows.

  The region's result array is what its ten write-backs leave: the function of the arrays the region finds (the stored value
  of the body, block by block, and the blocks cover the array). The arrays it finds are the argument arrays as launched, the
  block-diagonal weight and the joined bias the host built from W_nor, W_abnor, b_nor, b_abnor, the gate vector as a row, and
  the per-node factor column, which holds 1/√degree of the degree counted over the wrapped target column.
-/
import proofs.«125175_j46377056862932_2_alg».proof.Proof.KDefs
import proofs.«125175_j46377056862932_2_alg».proof.Proof.KValue0Blocks
import proofs.«125175_j46377056862932_2_alg».proof.Proof.KValue0Arr
import proofs.«125175_j46377056862932_2_alg».proof.Proof.KValue0Dinv

set_option maxRecDepth 16384

noncomputable section

namespace Cert.KernelIdeal.KValue

open Cert.KernelIdeal Cert.KernelIdeal.Gen Idealize.ShloMosaic Idealize.ShloMosaic.TcCoe Idealize.SL.Sem Idealize.ShloMosaic.ValueIdx

/-- THE FIRST REGION'S RESULT: per node, 1/√degree times the gated mix of the node's row through W_nor and its row through
    W_abnor. -/
theorem m2_eq (m : (ℓ : Loc nD τ sig) → Buf (Elt Ideal) ℓ) (ρ : Dev nD → PrngReg) (c : Dev nD) :
    (Gen.W6 m ρ c (Proc.devRef .tc main_v38) : S50000x128.Idx → EReal)
      = m2K (m ((c.tc : Thread nD τ).loc main_arg1)) (Cert.Spec.xn (Cert.Spec.hid (m ((c.tc : Thread nD τ).loc main_arg0)) (m ((c.tc : Thread nD τ).loc main_arg2)) (m ((c.tc : Thread nD τ).loc main_arg3))) (m ((c.tc : Thread nD τ).loc main_arg4)) (m ((c.tc : Thread nD τ).loc main_arg5)))
          (Cert.Spec.xa (Cert.Spec.hid (m ((c.tc : Thread nD τ).loc main_arg0)) (m ((c.tc : Thread nD τ).loc main_arg2)) (m ((c.tc : Thread nD τ).loc main_arg3))) (m ((c.tc : Thread nD τ).loc main_arg6)) (m ((c.tc : Thread nD τ).loc main_arg7))) (m ((c.tc : Thread nD τ).loc main_arg8)) (m ((c.tc : Thread nD τ).loc main_arg9)) (m ((c.tc : Thread nD τ).loc main_arg10)) := by
  have e0 : V5 m ρ c main_arg0 = m ((c : Thread nD τ).loc main_arg0) := W5_arg0 m ρ c
  have e2 : V5 m ρ c main_arg2 = m ((c : Thread nD τ).loc main_arg2) := W5_arg2 m ρ c
  have e3 : V5 m ρ c main_arg3 = m ((c : Thread nD τ).loc main_arg3) := W5_arg3 m ρ c
  have e8 : V5 m ρ c main_arg8 = m ((c : Thread nD τ).loc main_arg8) := W5_arg8 m ρ c
  have e9 : V5 m ρ c main_arg9 = m ((c : Thread nD τ).loc main_arg9) := W5_arg9 m ρ c
  refine (W6_arr m ρ c 9).trans ?_
  refine (arr9_eq (V5 m ρ) c (m ((c : Thread nD τ).loc main_arg10)) (W5_blockdiag m ρ c) (W5_vrow m ρ c)).trans ?_
  rw [e0, e2, e3, e8, e9]
  funext r
  unfold G9 m2K
  exact congrArg (· * Cert.Spec.mix (m ((c : Thread nD τ).loc main_arg8)) (m ((c : Thread nD τ).loc main_arg9)) (m ((c : Thread nD τ).loc main_arg10))
      (fun k => Cert.Spec.xn (Cert.Spec.hid (m ((c : Thread nD τ).loc main_arg0)) (m ((c : Thread nD τ).loc main_arg2)) (m ((c : Thread nD τ).loc main_arg3))) (m ((c : Thread nD τ).loc main_arg4)) (m ((c : Thread nD τ).loc main_arg5)) (ix2 (r 0) k))
      (fun k => Cert.Spec.xa (Cert.Spec.hid (m ((c : Thread nD τ).loc main_arg0)) (m ((c : Thread nD τ).loc main_arg2)) (m ((c : Thread nD τ).loc main_arg3))) (m ((c : Thread nD τ).loc main_arg6)) (m ((c : Thread nD τ).loc main_arg7)) (ix2 (r 0) k)) (r 1))
    (dinv_col_eq m ρ c (r 0))

end Cert.KernelIdeal.KValue

end
-- ==== Proof.KValue1Dot.lean ====
/-
  The second region's two block products read at an index.

  Each is a product of a block of rows with a whole weight matrix into a zero accumulator, so its entry (p, q) is the plain
  sum over the 128 contracted channels of row p of the left block times column q of the weight.
-/
import proofs.«125175_j46377056862932_2_alg».proof.Proof.Gen.KernelIdeal
import Idealize.ShloMosaic.PureOps.Ideal.Laws
import Idealize.ShloMosaic.Lib.ValueIdx

noncomputable section

open scoped BigOperators

namespace Cert.KernelIdeal.KValue

open Cert.KernelIdeal Cert.KernelIdeal.Gen Idealize.ShloMosaic Idealize.ShloMosaic.ValueIdx

/-- The block product with the 128 × 128 weight at (p, q): the sum over the contracted channel. -/
theorem mm128_apply (L : FVec Ideal S5000x128 .bf16) (R : FVec Ideal S128x128 .bf16) (p : Fin 5000) (q : Fin 128) :
    matmul dot_S5000x128_S128x128_S5000x128_1_0_0_1_n_n none L R (constant (F := Ideal) S5000x128 .f32 0x00000000#32) (ix2 p q)
      = ∑ k : Fin 128, L (ix2 p k) * R (ix2 k q) := by
  refine (Ideal.matmul_constant_zero_apply dot_S5000x128_S128x128_S5000x128_1_0_0_1_n_n none L R (ix2 p q)).trans ?_
  rw [← Equiv.sum_comp (contrEquiv1 dot_S5000x128_S128x128_S5000x128_1_0_0_1_n_n 128 rfl rfl).symm]
  refine Finset.sum_congr rfl fun k _ => ?_
  have hl : dot_S5000x128_S128x128_S5000x128_1_0_0_1_n_n.lhsIdx (ix2 p q)
      ((contrEquiv1 dot_S5000x128_S128x128_S5000x128_1_0_0_1_n_n 128 rfl rfl).symm k) = ix2 p k := by
    funext a; apply Fin.ext
    match a with
    | ⟨0, _⟩ => simp [DotDims.lhsIdx, dot_S5000x128_S128x128_S5000x128_1_0_0_1_n_n]; rfl
    | ⟨1, _⟩ =>
      exact (DotDims.lhsIdx_val_of_single (d := dot_S5000x128_S128x128_S5000x128_1_0_0_1_n_n) (cl := (1 : Fin 2)) rfl _ _).trans
        (contrEquiv1_symm_val dot_S5000x128_S128x128_S5000x128_1_0_0_1_n_n 128 rfl rfl k)
  have hr : dot_S5000x128_S128x128_S5000x128_1_0_0_1_n_n.rhsIdx (ix2 p q)
      ((contrEquiv1 dot_S5000x128_S128x128_S5000x128_1_0_0_1_n_n 128 rfl rfl).symm k) = ix2 k q := by
    funext a; apply Fin.ext
    match a with
    | ⟨0, _⟩ =>
      exact (DotDims.rhsIdx_val_of_single (d := dot_S5000x128_S128x128_S5000x128_1_0_0_1_n_n) (cr := (0 : Fin 2)) rfl _ _).trans
        (contrEquiv1_symm_val dot_S5000x128_S128x128_S5000x128_1_0_0_1_n_n 128 rfl rfl k)
    | ⟨1, _⟩ => simp [DotDims.rhsIdx, dot_S5000x128_S128x128_S5000x128_1_0_0_1_n_n]; rfl
  rw [hl, hr]

/-- The block product with the 128 × 2 classifier weight at (p, o): the sum over the contracted channel. -/
theorem mm2_apply (L : FVec Ideal S5000x128 .bf16) (R : FVec Ideal S128x2 .bf16) (p : Fin 5000) (o : Fin 2) :
    matmul dot_S5000x128_S128x2_S5000x2_1_0_0_1_n_n none L R (constant (F := Ideal) S5000x2 .f32 0x00000000#32) (ix2 p o)
      = ∑ k : Fin 128, L (ix2 p k) * R (ix2 k o) := by
  refine (Ideal.matmul_constant_zero_apply dot_S5000x128_S128x2_S5000x2_1_0_0_1_n_n none L R (ix2 p o)).trans ?_
  rw [← Equiv.sum_comp (contrEquiv1 dot_S5000x128_S128x2_S5000x2_1_0_0_1_n_n 128 rfl rfl).symm]
  refine Finset.sum_congr rfl fun k _ => ?_
  have hl : dot_S5000x128_S128x2_S5000x2_1_0_0_1_n_n.lhsIdx (ix2 p o)
      ((contrEquiv1 dot_S5000x128_S128x2_S5000x2_1_0_0_1_n_n 128 rfl rfl).symm k) = ix2 p k := by
    funext a; apply Fin.ext
    match a with
    | ⟨0, _⟩ => simp [DotDims.lhsIdx, dot_S5000x128_S128x2_S5000x2_1_0_0_1_n_n]; rfl
    | ⟨1, _⟩ =>
      exact (DotDims.lhsIdx_val_of_single (d := dot_S5000x128_S128x2_S5000x2_1_0_0_1_n_n) (cl := (1 : Fin 2)) rfl _ _).trans
        (contrEquiv1_symm_val dot_S5000x128_S128x2_S5000x2_1_0_0_1_n_n 128 rfl rfl k)
  have hr : dot_S5000x128_S128x2_S5000x2_1_0_0_1_n_n.rhsIdx (ix2 p o)
      ((contrEquiv1 dot_S5000x128_S128x2_S5000x2_1_0_0_1_n_n 128 rfl rfl).symm k) = ix2 k o := by
    funext a; apply Fin.ext
    match a with
    | ⟨0, _⟩ =>
      exact (DotDims.rhsIdx_val_of_single (d := dot_S5000x128_S128x2_S5000x2_1_0_0_1_n_n) (cr := (0 : Fin 2)) rfl _ _).trans
        (contrEquiv1_symm_val dot_S5000x128_S128x2_S5000x2_1_0_0_1_n_n 128 rfl rfl k)
    | ⟨1, _⟩ => simp [DotDims.rhsIdx, dot_S5000x128_S128x2_S5000x2_1_0_0_1_n_n]; rfl
  rw [hl, hr]

end Cert.KernelIdeal.KValue

end
-- ==== Proof.KValue1Pay.lean ====
/-
  The second region's body at an entry: the head applied to the scaled block row.

  The body multiplies each of the 5000 block rows by that row's entry of the one-column factor block, passes the scaled row
  through the update layer (a product with the 128 × 128 weight, the bias row added, the leaky rectifier) and through the
  classifier (a product with the 128 × 2 weight, the bias row added). The narrowing format changes are the identity on the
  extended reals, so entry (p, o) of what it stores is the shared head `Cert.Spec.cls` of the row
  k ↦ aggr (p, k) · factor (p, 0).
-/
import proofs.«125175_j46377056862932_2_alg».proof.Proof.Gen.KernelIdeal.Skeleton
import proofs.«125175_j46377056862932_2_alg».proof.Proof.Spec
import proofs.«125175_j46377056862932_2_alg».proof.Proof.LibKeepdims
import proofs.«125175_j46377056862932_2_alg».proof.Proof.KValue1Dot
import Idealize.ShloMosaic.Lib.ValueLayout

noncomputable section

open scoped BigOperators

namespace Cert.KernelIdeal.KValue

open Cert.KernelIdeal Cert.KernelIdeal.Gen Idealize.ShloMosaic Idealize.ShloMosaic.ValueIdx

/-- A bias vector of 128 entries, cast to one row and broadcast over the 5000 block rows, read at (p, c): entry c. -/
theorem biasRow128_apply (v : Vec Ideal S128 .f32) (p : Fin 5000) (c : Fin 128) :
    broadcastTo S5000x128 (shapeCast S1x128 v shapeCasts_S128_S1x128) broadcasts_S1x128_S5000x128 (ix2 p c) = v (ix1 c) :=
  (broadcastTo_1b_ab_apply _ broadcasts_S1x128_S5000x128 p c).trans (shapeCast_a_1a_apply v shapeCasts_S128_S1x128 0 c)

/-- The classifier's bias of 2 entries, cast to one row and broadcast over the 5000 block rows, read at (p, o): entry o. -/
theorem biasRow2_apply (v : Vec Ideal S2 .f32) (p : Fin 5000) (o : Fin 2) :
    broadcastTo S5000x2 (shapeCast S1x2 v shapeCasts_S2_S1x2) broadcasts_S1x2_S5000x2 (ix2 p o) = v (ix1 o) :=
  (broadcastTo_1b_ab_apply _ broadcasts_S1x2_S5000x2 p o).trans (shapeCast_a_1a_apply v shapeCasts_S2_S1x2 0 o)

/-- The one-column factor block broadcast along the 128 channels, read at (p, k): the column's entry of row p. -/
theorem factorCol_apply (x1 : Vec Ideal S5000x1 .f32) (p : Fin 5000) (k : Fin 128) :
    broadcastTo S5000x128 (shapeCast S5000x1 x1 shapeCasts_S5000x1_S5000x1) broadcasts_S5000x1_S5000x128 (ix2 p k)
      = x1 (ix2 p (0 : Fin 1)) :=
  (Cert.Gcn.broadcastTo_a1_ab_apply _ broadcasts_S5000x1_S5000x128 p k).trans
    (congrFun (shapeCast_self x1 shapeCasts_S5000x1_S5000x1) _)

/-- What the body stores, at (p, o): the head of block row p scaled by the factor column's entry p. -/
theorem pay1_apply (x0 : Vec Ideal S5000x128 .f32) (x1 : Vec Ideal S5000x1 .f32) (x2 : Vec Ideal S128x128 .f32)
    (x3 : Vec Ideal S128 .f32) (x4 : Vec Ideal S128x2 .f32) (x5 : Vec Ideal S2 .f32) (p : Fin 5000) (o : Fin 2) :
    k1_pay1 x0 x1 x2 x3 x4 x5 (ix2 p o)
      = Cert.Spec.cls x2 x3 x4 x5 (fun k => x0 (ix2 p k) * x1 (ix2 p (0 : Fin 1))) o := by
  unfold k1_pay1
  simp only [addf_apply, mm2_apply, mm128_apply, truncf_apply, select_apply, cmpf_apply, broadcast_apply, mulf_apply,
    shapeCast_self]
  rw [biasRow2_apply]
  unfold Cert.Spec.cls
  refine congrArg (· + x5 (ix1 o)) (Finset.sum_congr rfl fun c _ => ?_)
  refine congrArg (· * x4 (ix2 c o)) ?_
  rw [biasRow128_apply]
  have e : ∀ k : Fin 128, broadcastTo S5000x128 x1 broadcasts_S5000x1_S5000x128 (ix2 p k) = x1 (ix2 p (0 : Fin 1)) :=
    fun k => Cert.Gcn.broadcastTo_a1_ab_apply x1 broadcasts_S5000x1_S5000x128 p k
  simp only [e]
  rfl

end Cert.KernelIdeal.KValue

end
-- ==== Proof.KValue1Blk.lean ====
/-
  From the second region's blocks to its whole output array.

  The second region runs over 10 grid points. Point t reads rows 5000·t … 5000·t + 4999 of the summed-row array and of the
  one-column factor array, the four head weights whole, and writes rows 5000·t … 5000·t + 4999 of the result. What it writes
  is, entry by entry, the head of the scaled row; so each written block is the block of ONE whole-array function (`clsArr`:
  row r of the result is the head of row r of the summed rows times entry r of the factor column), the ten blocks cover
  the 50000 rows (row r lies in the block of point r / 5000), and the result array ends as that function. All of this is
  stated at arbitrary contents `V` of the buffers when the region is entered.
-/
import proofs.«125175_j46377056862932_2_alg».proof.Proof.Gen.KernelIdeal.Frame
import proofs.«125175_j46377056862932_2_alg».proof.Proof.KValue1Pay
import Idealize.ShloMosaic.Lib.Pipeline.Value

noncomputable section

open scoped BigOperators

namespace Cert.KernelIdeal.KValue

open Cert.KernelIdeal Cert.KernelIdeal.Gen Idealize.ShloMosaic Idealize.ShloMosaic.ValueIdx

open Idealize.ShloMosaic.TcCoe Idealize.SL.Sem
open Idealize.ShloMosaic.Pipeline (Dat)
open Cert.Spec (A1 A2)

/-- The head applied row by row: row r of the result is the head of row r of `A` scaled by entry r of the column `D`. -/
def clsArr (A : A2 50000 128) (D : A2 50000 1) (Wupd : A2 128 128) (bupd : A1 128) (Wcls : A2 128 2) (bcls : A1 2) :
    A2 50000 2 :=
  fun i => Cert.Spec.cls Wupd bupd Wcls bcls (fun k => A (ix2 (i 0) k) * D (ix2 (i 0) (0 : Fin 1))) (i 1)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The block index maps over the grid: the row windows (summed rows, factor column, result) are at block row t at point t,
    the four weight windows at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- The summed-row block at point t, entry (p, k): row 5000·t + p of the array. -/
theorem blk_aggr_apply (c : Dev nD) (t : Fin cfg1.N) (p : Fin 5000) (k : Fin 128) (r : Fin 50000)
    (hr : r.val = t.val * 5000 + p.val) :
    (iblk1 V c 0 t : Vec Ideal S5000x128 .f32) (ix2 p k) = (V c main_v53 : S50000x128.Idx → EReal) (ix2 r k) := by
  obtain ⟨e0, e1, -⟩ := idx_facts1 t
  unfold iblk1
  rw [View.read_apply]
  show V c main_v53 _ = V c main_v53 _
  refine congrArg (V c main_v53) ?_
  funext a; apply Fin.ext
  match a with
  | ⟨0, _⟩ => show win1_0.index t (0 : Fin 2) * 5000 + 1 * p.val = r.val; omega
  | ⟨1, _⟩ => show win1_0.index t (1 : Fin 2) * 128 + 1 * k.val = k.val; omega

/-- The factor-column block at point t, entry (p, 0): entry 5000·t + p of the column. -/
theorem blk_factor_apply (c : Dev nD) (t : Fin cfg1.N) (p : Fin 5000) (u : Fin 1) (r : Fin 50000)
    (hr : r.val = t.val * 5000 + p.val) :
    (iblk1 V c 1 t : Vec Ideal S5000x1 .f32) (ix2 p u) = (V c main_v26 : S50000x1.Idx → EReal) (ix2 r u) := by
  obtain ⟨-, -, e0, e1, -⟩ := idx_facts1 t
  unfold iblk1
  rw [View.read_apply]
  show V c main_v26 _ = V c main_v26 _
  refine congrArg (V c main_v26) ?_
  funext a; apply Fin.ext
  match a with
  | ⟨0, _⟩ => show win1_1.index t (0 : Fin 2) * 5000 + 1 * p.val = r.val; omega
  | ⟨1, _⟩ => show win1_1.index t (1 : Fin 2) * 1 + 1 * u.val = u.val; omega

/-- The update weight's block at any point is the whole weight. -/
theorem blk_wupd_eq (c : Dev nD) (t : Fin cfg1.N) :
    (iblk1 V c 2 t : Vec Ideal S128x128 .f32) = (V c main_arg11 : S128x128.Idx → EReal) := by
  obtain ⟨-, -, -, -, e0, e1, -⟩ := idx_facts1 t
  funext y
  unfold iblk1
  rw [View.read_apply]
  show V c main_arg11 _ = V c main_arg11 y
  refine congrArg (V c main_arg11) ?_
  funext a; apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The update bias's block at any point is the whole bias. -/
theorem blk_bupd_eq (c : Dev nD) (t : Fin cfg1.N) :
    (iblk1 V c 3 t : Vec Ideal S128 .f32) = (V c main_arg12 : S128.Idx → EReal) := by
  obtain ⟨-, -, -, -, -, -, e0, -⟩ := idx_facts1 t
  funext y
  unfold iblk1
  rw [View.read_apply]
  show V c main_arg12 _ = V c main_arg12 y
  refine congrArg (V c main_arg12) ?_
  funext a; apply Fin.ext
  match a with
  | ⟨0, _⟩ => show win1_3.index t (0 : Fin 1) * 128 + 1 * (y 0).val = (y 0).val; omega

/-- The classifier weight's block at any point is the whole weight. -/
theorem blk_wcls_eq (c : Dev nD) (t : Fin cfg1.N) :
    (iblk1 V c 4 t : Vec Ideal S128x2 .f32) = (V c main_arg13 : S128x2.Idx → EReal) := by
  obtain ⟨-, -, -, -, -, -, -, e0, e1, -⟩ := idx_facts1 t
  funext y
  unfold iblk1
  rw [View.read_apply]
  show V c main_arg13 _ = V c main_arg13 y
  refine congrArg (V c main_arg13) ?_
  funext a; apply Fin.ext
  match a with
  | ⟨0, _⟩ => show win1_4.index t (0 : Fin 2) * 128 + 1 * (y 0).val = (y 0).val; omega
  | ⟨1, _⟩ => show win1_4.index t (1 : Fin 2) * 2 + 1 * (y 1).val = (y 1).val; omega

/-- The classifier bias's block at any point is the whole bias. -/
theorem blk_bcls_eq (c : Dev nD) (t : Fin cfg1.N) :
    (iblk1 V c 5 t : Vec Ideal S2 .f32) = (V c main_arg14 : S2.Idx → EReal) := by
  obtain ⟨-, -, -, -, -, -, -, -, -, e0, -⟩ := idx_facts1 t
  funext y
  unfold iblk1
  rw [View.read_apply]
  show V c main_arg14 _ = V c main_arg14 y
  refine congrArg (V c main_arg14) ?_
  funext a; apply Fin.ext
  match a with
  | ⟨0, _⟩ => show win1_5.index t (0 : Fin 1) * 2 + 1 * (y 0).val = (y 0).val; omega

/-- Entry (p, o) of the result's block at point t sits at row 5000·t + p, column o of the result array. -/
theorem blk_out_emb (t : Fin cfg1.N) (p : Fin 5000) (o : Fin 2) (r : Fin 50000) (hr : r.val = t.val * 5000 + p.val) :
    ((cfg1.win 6).blk t).view.emb (ix2 p o) = (ix2 r o : S50000x2.Idx) := by
  obtain ⟨-, -, -, -, -, -, -, -, -, -, e0, e1⟩ := idx_facts1 t
  funext a; apply Fin.ext
  match a with
  | ⟨0, _⟩ => show win1_6.index t (0 : Fin 2) * 5000 + 1 * p.val = r.val; omega
  | ⟨1, _⟩ => show win1_6.index t (1 : Fin 2) * 2 + 1 * o.val = o.val; omega

end Cert.KernelIdeal.KValue

end
-- ==== Proof.KValue1Arr.lean ====
/-
  The second region's result array as one function of what the region finds.

  Point t of the second region writes back block t of `clsArr` of the arrays the region finds (the summed rows, the factor
  column, the four head weights): entry (p, o) of what the body stores is the head of block row p scaled by the factor's
  entry p, and block row p at point t is array row 5000·t + p in the summed rows, in the factor column and in the result.
  Every row r of the result lies in the block of point r / 5000, so after the ten write-backs the result array is `clsArr`
  of those arrays.
-/
import proofs.«125175_j46377056862932_2_alg».proof.Proof.KValue1Blk

noncomputable section

open scoped BigOperators

namespace Cert.KernelIdeal.KValue

open Cert.KernelIdeal Cert.KernelIdeal.Gen Idealize.ShloMosaic Idealize.ShloMosaic.ValueIdx

open Idealize.ShloMosaic.TcCoe Idealize.SL.Sem
open Idealize.ShloMosaic.Pipeline (Dat)

variable (V : (c : Dev nD) → (b : Ref sig .tc) → Buf (Elt Ideal) ((c : Thread nD τ).loc b))

/-- The whole-array function the second region computes from the contents `V` it finds. -/
abbrev clsOf (c : Dev nD) : S50000x2.Idx → EReal :=
  clsArr (V c main_v53) (V c main_v26) (V c main_arg11) (V c main_arg12) (V c main_arg13) (V c main_arg14)

/-- What point t writes back is block t of that function. -/
theorem flushed1_eq (c : Dev nD) (t : Fin cfg1.N) :
    (dat1 V c).flushed 6 t = ((cfg1.win 6).blk t).view.read (Elt Ideal) (clsOf V c) := by
  show (cfg1.win 6).cut (grid1.coords t) ((dat1 V c).after 6 t) = _
  rw [after1_6]
  unfold out1_6
  rw [View.canon_unit_zero zeros2]
  simp only [View.ld_unit_zero (S := S5000x128) zeros2, View.ld_unit_zero (S := S5000x1) zeros2,
    View.ld_unit_zero (S := S128x128) zeros2, View.ld_unit_zero (S := S128) zeros1,
    View.ld_unit_zero (S := S128x2) zeros2, View.ld_unit_zero (S := S2) zeros1]
  funext j
  obtain ⟨p, o, rfl⟩ : ∃ (p : Fin 5000) (o : Fin 2), j = ix2 p o := ⟨j 0, j 1, eq_ix2 j⟩
  have hN : cfg1.N = 10 := N_1
  have hr : t.val * 5000 + p.val < 50000 := by have := t.isLt; have := p.isLt; omega
  refine (pay1_apply (iblk1 V c 0 t) (iblk1 V c 1 t) (iblk1 V c 2 t) (iblk1 V c 3 t) (iblk1 V c 4 t) (iblk1 V c 5 t) p o).trans ?_
  rw [View.read_apply, blk_out_emb t p o ⟨t.val * 5000 + p.val, hr⟩ rfl,
    blk_wupd_eq V c t, blk_bupd_eq V c t, blk_wcls_eq V c t, blk_bcls_eq V c t]
  show _ = Cert.Spec.cls (V c main_arg11) (V c main_arg12) (V c main_arg13) (V c main_arg14) _ o
  refine congrArg (fun a => Cert.Spec.cls (V c main_arg11) (V c main_arg12) (V c main_arg13) (V c main_arg14) a o)
    (funext fun k => ?_)
  rw [blk_aggr_apply V c t p k ⟨t.val * 5000 + p.val, hr⟩ rfl, blk_factor_apply V c t p 0 ⟨t.val * 5000 + p.val, hr⟩ rfl]

/-- An index of the result array is in point t's block iff its row is among the block's 5000 rows. -/
theorem mem_blk_out (t : Fin cfg1.N) (i : S50000x2.Idx) :
    i ∈ ((cfg1.win 6).blk t).view.set ↔ ∀ a : Fin 2, win1_6.index t a * S5000x2.size a ≤ (i a).val
      ∧ (i a).val < win1_6.index t a * S5000x2.size a + S5000x2.size a := by
  show i ∈ ((View.whole main_v54).slice (win1_6.rect t)).set ↔ _
  rw [View.set_slice_whole, Rect.mem_set_unit]
  exact Iff.rfl

/-- Row r of the result array lies in the block of point r / 5000. -/
theorem covered_out (i : S50000x2.Idx) :
    ∃ t : Fin cfg1.N, (cfg1.win 6).flush t = true ∧ i ∈ ((cfg1.win 6).blk t).view.set := by
  have hN : cfg1.N = 10 := N_1
  have hi0 : (i 0).val < 50000 := (i 0).isLt
  have hi1 : (i 1).val < 2 := (i 1).isLt
  refine ⟨⟨(i 0).val / 5000, by omega⟩, flush1_6 _, ?_⟩
  rw [mem_blk_out]
  obtain ⟨-, -, -, -, -, -, -, -, -, -, e0, e1⟩ := idx_facts1 ⟨(i 0).val / 5000, by omega⟩
  intro a
  match a with
  | ⟨0, _⟩ =>
    show win1_6.index ⟨(i 0).val / 5000, _⟩ (0 : Fin 2) * 5000 ≤ (i 0).val
      ∧ (i 0).val < win1_6.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win1_6.index ⟨(i 0).val / 5000, _⟩ (1 : Fin 2) * 2 ≤ (i 1).val
      ∧ (i 1).val < win1_6.index ⟨(i 0).val / 5000, _⟩ (1 : Fin 2) * 2 + 2
    rw [e1]; omega

/-- The result array after the region: the head, row by row, of the arrays the region finds. -/
theorem arr_out (c : Dev nD) : (dat1 V c).arrAt 6 cfg1.N = clsOf V c :=
  (dat1 V c).arrAt_eq_of_cover 6 (clsOf V c) (fun t _ => flushed1_eq V c t) covered_out

end Cert.KernelIdeal.KValue

end
-- ==== Proof.KValue1Host.lean ====
/-
  What the second region finds, walked back through the host operations.

  Between the two regions the host gathers the rows of the first region's output by the edges' sources and adds them
  into a zero array at the edges' targets (negative indices wrapped by 50000 first): that is the summed-row array the second
  region reads. The source and target vectors are rows 0 and 1 of the edge table with the self loops appended, computed before
  the first region and written by neither region nor by any later host operation. The factor column is an input of the first
  region, which leaves it as it found it, and no host operation after that region writes it. The four head weights are
  arguments, unchanged from the launch.
-/
import proofs.«125175_j46377056862932_2_alg».proof.Proof.Gen.KernelIdeal.Frame
import proofs.«125175_j46377056862932_2_alg».proof.Proof.KDefs
import Idealize.ShloMosaic.Lib.StableHlo.Run

noncomputable section

open scoped BigOperators

namespace Cert.KernelIdeal.KValue

open Cert.KernelIdeal Cert.KernelIdeal.Gen Idealize.ShloMosaic Idealize.ShloMosaic.ValueIdx

open Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The edges' sources when the first region ends: row 0 of the edge table with the self loops appended. -/
theorem W6_sources (c : Dev nD) : W6 m ρ c (Proc.devRef .tc main_v7) = rowVec (m ((c : Thread nD τ).loc main_arg1)) :=
  calc W6 m ρ c (Proc.devRef .tc main_v7)
    _ = W5 m ρ c (Proc.devRef .tc main_v7) := W6_of_ne m ρ c main_v7 (by decide)
    _ = W4 m ρ c (Proc.devRef .tc main_v7) := StableHlo.after_of_forall_not_mem (b := Proc.devRef .tc main_v7) _ _ (List.forall_iff_forall_mem.mp (by
      simp only [hostOps0_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_v7) := StableHlo.after_of_forall_not_mem (b := Proc.devRef .tc main_v7) _ _ (List.forall_iff_forall_mem.mp (by
      simp only [hostOps0_3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_v7) := StableHlo.after_of_forall_not_mem (b := Proc.devRef .tc main_v7) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v7) := StableHlo.after_of_forall_not_mem (b := Proc.devRef .tc main_v7) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = rowVec (m ((c : Thread nD τ).loc main_arg1)) := by
      show StableHlo.after hostOps0 (W0 m ρ c) (Proc.devRef .tc main_v7) = _
      dsimp only [hostOps0]
      after_results
      rfl

/-- The edges' targets when the first region ends: row 1 of the edge table with the self loops appended. -/
theorem W6_targets (c : Dev nD) : W6 m ρ c (Proc.devRef .tc main_v9) = colVec (m ((c : Thread nD τ).loc main_arg1)) :=
  calc W6 m ρ c (Proc.devRef .tc main_v9)
    _ = W5 m ρ c (Proc.devRef .tc main_v9) := W6_of_ne m ρ c main_v9 (by decide)
    _ = W4 m ρ c (Proc.devRef .tc main_v9) := StableHlo.after_of_forall_not_mem (b := Proc.devRef .tc main_v9) _ _ (List.forall_iff_forall_mem.mp (by
      simp only [hostOps0_4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W3 m ρ c (Proc.devRef .tc main_v9) := StableHlo.after_of_forall_not_mem (b := Proc.devRef .tc main_v9) _ _ (List.forall_iff_forall_mem.mp (by
      simp only [hostOps0_3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_v9) := StableHlo.after_of_forall_not_mem (b := Proc.devRef .tc main_v9) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v9) := StableHlo.after_of_forall_not_mem (b := Proc.devRef .tc main_v9) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = colVec (m ((c : Thread nD τ).loc main_arg1)) := by
      show StableHlo.after hostOps0 (W0 m ρ c) (Proc.devRef .tc main_v9) = _
      dsimp only [hostOps0]
      after_results
      rfl

/-- The summed rows the second region finds: the first region's output gathered by source and added at the targets. -/
theorem V7_aggr (c : Dev nD) :
    (V7 m ρ c main_v53 : S50000x128.Idx → EReal)
      = Host.scatterAdd (F := Ideal) (φ := .f32) scatter_S50000x128_S850000x1_S850000x128_1_0_0_1 (fun _ => Cert.Spec.zeroW)
          (wrapCol (colVec (m ((c : Thread nD τ).loc main_arg1))))
          (Host.gather gather_S50000x128_S850000x1_S850000x128_1_0_n_n_0_1_1128 (W6 m ρ c (Proc.devRef .tc main_v38))
            (wrapCol (rowVec (m ((c : Thread nD τ).loc main_arg1))))) := by
  rw [← W6_sources m ρ c, ← W6_targets m ρ c]
  show StableHlo.after hostOps1 (W6 m ρ c) (Proc.devRef .tc main_v53) = _
  dsimp only [hostOps1]
  after_results_simp
  rfl

/-- The factor column the second region finds is the one the first region was given. -/
theorem V7_factor (c : Dev nD) : V7 m ρ c main_v26 = W5 m ρ c (Proc.devRef .tc main_v26) :=
  calc W7 m ρ c (Proc.devRef .tc main_v26)
    _ = W6 m ρ c (Proc.devRef .tc main_v26) := StableHlo.after_of_forall_not_mem (b := Proc.devRef .tc main_v26) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_v26) :=
      (W6_arr m ρ c 1).trans (((dat0 (V5 m ρ) c).arrAt_in 1 rfl _).trans (A_eq0 (V5 m ρ) c 1))

/-- The head weights the second region finds are the launch's: an input window's array is what the region found, and the
    run leaves each argument as launched. -/
theorem V7_wupd (c : Dev nD) : V7 m ρ c main_arg11 = m ((c : Thread nD τ).loc main_arg11) :=
  ((A_eq1 (V7 m ρ) c 2).symm.trans (((dat1 (V7 m ρ) c).arrAt_in 2 rfl _).symm.trans (W8_arr m ρ c 2).symm)).trans
    (W8_main_arg11 m ρ c)
theorem V7_bupd (c : Dev nD) : V7 m ρ c main_arg12 = m ((c : Thread nD τ).loc main_arg12) :=
  ((A_eq1 (V7 m ρ) c 3).symm.trans (((dat1 (V7 m ρ) c).arrAt_in 3 rfl _).symm.trans (W8_arr m ρ c 3).symm)).trans
    (W8_main_arg12 m ρ c)
theorem V7_wcls (c : Dev nD) : V7 m ρ c main_arg13 = m ((c : Thread nD τ).loc main_arg13) :=
  ((A_eq1 (V7 m ρ) c 4).symm.trans (((dat1 (V7 m ρ) c).arrAt_in 4 rfl _).symm.trans (W8_arr m ρ c 4).symm)).trans
    (W8_main_arg13 m ρ c)
theorem V7_bcls (c : Dev nD) : V7 m ρ c main_arg14 = m ((c : Thread nD τ).loc main_arg14) :=
  ((A_eq1 (V7 m ρ) c 5).symm.trans (((dat1 (V7 m ρ) c).arrAt_in 5 rfl _).symm.trans (W8_arr m ρ c 5).symm)).trans
    (W8_main_arg14 m ρ c)

end Cert.KernelIdeal.KValue

end
-- ==== Proof.KValue1.lean ====
/-
  The kernel program's result read back to the first region's output.

  The result buffer at the end of the run is the second region's output array, which is the head applied row by row to
  what that region finds; what it finds is, walked back through the host operations between the regions, the first region's
  output gathered by the edges' sources and added at their targets, the factor column as the first region was given it, and
  the four head weights as launched.
-/
import proofs.«125175_j46377056862932_2_alg».proof.Proof.KValue1Arr
import proofs.«125175_j46377056862932_2_alg».proof.Proof.KValue1Host

noncomputable section

namespace Cert.KernelIdeal.KValue

open Cert.KernelIdeal Cert.KernelIdeal.Gen Idealize.ShloMosaic Idealize.ShloMosaic.TcCoe Idealize.SL.Sem Idealize.ShloMosaic.ValueIdx

/-- Entry i of the result: the head on row i's summed source rows, scaled by the row's entry of the factor column. -/
theorem out_eq1 (m : (ℓ : Loc nD τ sig) → Buf (Elt Ideal) ℓ) (ρ : Dev nD → PrngReg) (c : Dev nD) (i : S50000x2.Idx) :
    (Gen.W8 m ρ c (Proc.devRef .tc main_v54) : S50000x2.Idx → EReal) i
      = Cert.Spec.cls (m ((c.tc : Thread nD τ).loc main_arg11)) (m ((c.tc : Thread nD τ).loc main_arg12)) (m ((c.tc : Thread nD τ).loc main_arg13)) (m ((c.tc : Thread nD τ).loc main_arg14))
          (fun k => (Host.scatterAdd (F := Ideal) (φ := .f32) scatter_S50000x128_S850000x1_S850000x128_1_0_0_1 (fun _ => Cert.Spec.zeroW)
              (wrapCol (colVec (m ((c.tc : Thread nD τ).loc main_arg1))))
              (Host.gather gather_S50000x128_S850000x1_S850000x128_1_0_n_n_0_1_1128 (Gen.W6 m ρ c (Proc.devRef .tc main_v38) : S50000x128.Idx → EReal)
                (wrapCol (rowVec (m ((c.tc : Thread nD τ).loc main_arg1))))) (ix2 (i 0) k))
            * (Gen.W5 m ρ c (Proc.devRef .tc main_v26) : S50000x1.Idx → EReal) (ix2 (i 0) (0 : Fin 1))) (i 1) := by
  refine (congrFun ((W8_arr m ρ c 6).trans (arr_out (V7 m ρ) c)) i).trans ?_
  show clsArr (V7 m ρ c main_v53) (V7 m ρ c main_v26) (V7 m ρ c main_arg11) (V7 m ρ c main_arg12) (V7 m ρ c main_arg13)
    (V7 m ρ c main_arg14) i = _
  rw [V7_aggr m ρ c, V7_factor m ρ c, V7_wupd m ρ c, V7_bupd m ρ c, V7_wcls m ρ c, V7_bcls m ρ c]
  rfl

end Cert.KernelIdeal.KValue

end
-- ==== Proof.RefOps.lean ====
/-
  The reference program's host operations in order, one list per window of its @main, the operations of the functions it
  calls (the leaky rectifier, the two selects) listed at their calls over the calls' own buffers; and that each
  operation touches TensorCore buffers only.
-/
import proofs.«125175_j46377056862932_2_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem

variable {F : FTy → Type} [FloatOps F]

/-- The 70 operations of window 0 of @main. -/
abbrev ops0 : List (HloOp τ sig (Elt F)) :=
  [ StableHlo.nullary main_v0 (iotaInDim S50000 32 0),
    StableHlo.unary main_v0 main_v1 (broadcastInDim S1x50000 ![1] bcast_S50000_S1x50000_1 : (⟨S50000, .i32⟩ : BufTy).Contents (Elt F) → (⟨S1x50000, .i32⟩ : BufTy).Contents (Elt F)),
    StableHlo.reshape main_v1 main_v2 rfl shapeCasts_S1x50000_S1x1x1x50000,
    StableHlo.unary main_v2 main_v3 (broadcastInDim S2x1x1x50000 ![0, 1, 2, 3] bcast_S1x1x1x50000_S2x1x1x50000_0_1_2_3 : (⟨S1x1x1x50000, .i32⟩ : BufTy).Contents (Elt F) → (⟨S2x1x1x50000, .i32⟩ : BufTy).Contents (Elt F)),
    StableHlo.reshape main_v3 main_v4 rfl shapeCasts_S2x1x1x50000_S2x50000,
    StableHlo.binary main_arg1 main_v4 main_v5 ((fun a b => concatenate S2x850000 1 [⟨S2x800000, a⟩, ⟨S2x50000, b⟩] concatenates_S2x800000_S2x50000_S2x850000_d1) : (⟨S2x800000, .i32⟩ : BufTy).Contents (Elt F) → (⟨S2x50000, .i32⟩ : BufTy).Contents (Elt F) → (⟨S2x850000, .i32⟩ : BufTy).Contents (Elt F)),
    StableHlo.unary main_v5 main_v6 ((extractStridedSlice S1x850000 ![0, 0] · slices_S2x850000_S1x850000_0_0) : (⟨S2x850000, .i32⟩ : BufTy).Contents (Elt F) → (⟨S1x850000, .i32⟩ : BufTy).Contents (Elt F)),
    StableHlo.reshape main_v6 main_v7 rfl shapeCasts_S1x850000_S850000,
    StableHlo.unary main_v5 main_v8 ((extractStridedSlice S1x850000 ![1, 0] · slices_S2x850000_S1x850000_1_0) : (⟨S2x850000, .i32⟩ : BufTy).Contents (Elt F) → (⟨S1x850000, .i32⟩ : BufTy).Contents (Elt F)),
    StableHlo.reshape main_v8 main_v9 rfl shapeCasts_S1x850000_S850000,
    StableHlo.binary main_arg0 main_arg2 main_v10 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg3 main_v11 (broadcastInDim S1x128 ![1] bcast_S128_S1x128_1 : (⟨S128, .f32⟩ : BufTy).Contents (Elt F) → (⟨S1x128, .f32⟩ : BufTy).Contents (Elt F)),
    StableHlo.unary main_v11 main_v12 (broadcastInDim S50000x128 ![0, 1] bcast_S1x128_S50000x128_0_1 : (⟨S1x128, .f32⟩ : BufTy).Contents (Elt F) → (⟨S50000x128, .f32⟩ : BufTy).Contents (Elt F)),
    StableHlo.binary main_v10 main_v12 main_v13 (addf : (⟨S50000x128, .f32⟩ : BufTy).Contents (Elt F) → (⟨S50000x128, .f32⟩ : BufTy).Contents (Elt F) → (⟨S50000x128, .f32⟩ : BufTy).Contents (Elt F)),
    StableHlo.TRef.nullary main_call0.cst (constant S_ .f32 0x00000000#32),
    StableHlo.TRef.unary main_call0.cst main_call0.v0 (broadcastInDim S50000x128 ![] bcast_S_S50000x128),
    StableHlo.TRef.binary (.of main_v13 : StableHlo.TRef sig ⟨S50000x128, .f32⟩) main_call0.v0 main_call0.v1 (cmpf .oge),
    StableHlo.TRef.nullary main_call0.cst_0 (constant S_ .f32 0x3C23D70A#32),
    StableHlo.TRef.unary main_call0.cst_0 main_call0.v2 (broadcastInDim S50000x128 ![] bcast_S_S50000x128),
    StableHlo.TRef.binary main_call0.v2 (.of main_v13 : StableHlo.TRef sig ⟨S50000x128, .f32⟩) main_call0.v3 mulf,
    StableHlo.TRef.ternary main_call0.v1 (.of main_v13 : StableHlo.TRef sig ⟨S50000x128, .f32⟩) main_call0.v3 main_call0.call0.v0 select,
    StableHlo.unary main_v14 main_v15 ((extractStridedSlice S50000x64 ![0, 0] · slices_S50000x128_S50000x64_0_0) : (⟨S50000x128, .f32⟩ : BufTy).Contents (Elt F) → (⟨S50000x64, .f32⟩ : BufTy).Contents (Elt F)),
    StableHlo.binary main_v15 main_arg4 main_v16 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.unary main_arg5 main_v17 (broadcastInDim S1x128 ![1] bcast_S128_S1x128_1 : (⟨S128, .f32⟩ : BufTy).Contents (Elt F) → (⟨S1x128, .f32⟩ : BufTy).Contents (Elt F)),
    StableHlo.unary main_v17 main_v18 (broadcastInDim S50000x128 ![0, 1] bcast_S1x128_S50000x128_0_1 : (⟨S1x128, .f32⟩ : BufTy).Contents (Elt F) → (⟨S50000x128, .f32⟩ : BufTy).Contents (Elt F)),
    StableHlo.binary main_v16 main_v18 main_v19 (addf : (⟨S50000x128, .f32⟩ : BufTy).Contents (Elt F) → (⟨S50000x128, .f32⟩ : BufTy).Contents (Elt F) → (⟨S50000x128, .f32⟩ : BufTy).Contents (Elt F)),
    StableHlo.unary main_v14 main_v20 ((extractStridedSlice S50000x64 ![0, 64] · slices_S50000x128_S50000x64_0_64) : (⟨S50000x128, .f32⟩ : BufTy).Contents (Elt F) → (⟨S50000x64, .f32⟩ : BufTy).Contents (Elt F)),
    StableHlo.binary main_v20 main_arg6 main_v21 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.unary main_arg7 main_v22 (broadcastInDim S1x128 ![1] bcast_S128_S1x128_1 : (⟨S128, .f32⟩ : BufTy).Contents (Elt F) → (⟨S1x128, .f32⟩ : BufTy).Contents (Elt F)),
    StableHlo.unary main_v22 main_v23 (broadcastInDim S50000x128 ![0, 1] bcast_S1x128_S50000x128_0_1 : (⟨S1x128, .f32⟩ : BufTy).Contents (Elt F) → (⟨S50000x128, .f32⟩ : BufTy).Contents (Elt F)),
    StableHlo.binary main_v21 main_v23 main_v24 (addf : (⟨S50000x128, .f32⟩ : BufTy).Contents (Elt F) → (⟨S50000x128, .f32⟩ : BufTy).Contents (Elt F) → (⟨S50000x128, .f32⟩ : BufTy).Contents (Elt F)),
    StableHlo.nullary main_cst (constant S_ .f32 0x3F800000#32),
    StableHlo.unary main_cst main_v25 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v26 (broadcastInDim S50000 ![] bcast_S_S50000 : (⟨S_, .f32⟩ : BufTy).Contents (Elt F) → (⟨S50000, .f32⟩ : BufTy).Contents (Elt F)),
    StableHlo.unary main_v9 main_v27 (broadcastInDim S850000x1 ![0] bcast_S850000_S850000x1_0 : (⟨S850000, .i32⟩ : BufTy).Contents (Elt F) → (⟨S850000x1, .i32⟩ : BufTy).Contents (Elt F)),
    StableHlo.ternary main_v26 main_v27 main_v25 main_v28 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v29 (broadcastInDim S50000 ![] bcast_S_S50000 : (⟨S_, .f32⟩ : BufTy).Contents (Elt F) → (⟨S50000, .f32⟩ : BufTy).Contents (Elt F)),
    StableHlo.binary main_v28 main_v29 main_v30 (cmpf .ogt : (⟨S50000, .f32⟩ : BufTy).Contents (Elt F) → (⟨S50000, .f32⟩ : BufTy).Contents (Elt F) → (⟨S50000, .i1⟩ : BufTy).Contents (Elt F)),
    StableHlo.nullary main_cst_2 (constant S_ .f32 0x00000000#32),
    StableHlo.unary main_cst_2 main_v31 (broadcastInDim S50000 ![] bcast_S_S50000 : (⟨S_, .f32⟩ : BufTy).Contents (Elt F) → (⟨S50000, .f32⟩ : BufTy).Contents (Elt F)),
    StableHlo.binary main_v28 main_v31 main_v32 (cmpf .ogt : (⟨S50000, .f32⟩ : BufTy).Contents (Elt F) → (⟨S50000, .f32⟩ : BufTy).Contents (Elt F) → (⟨S50000, .i1⟩ : BufTy).Contents (Elt F)),
    StableHlo.nullary main_cst_3 (constant S_ .f32 0x3F800000#32),
    StableHlo.TRef.unary (.of main_cst_3 : StableHlo.TRef sig ⟨S_, .f32⟩) main_call1.v0 id,
    StableHlo.TRef.unary main_call1.v0 main_call1.v1 (broadcastInDim S50000 ![] bcast_S_S50000),
    StableHlo.TRef.ternary (.of main_v32 : StableHlo.TRef sig ⟨S50000, .i1⟩) (.of main_v28 : StableHlo.TRef sig ⟨S50000, .f32⟩) main_call1.v1 main_call1.v2 select,
    StableHlo.unary main_v33 main_v34 (Host.rsqrt : (⟨S50000, .f32⟩ : BufTy).Contents (Elt F) → (⟨S50000, .f32⟩ : BufTy).Contents (Elt F)),
    StableHlo.nullary main_cst_4 (constant S_ .f32 0x00000000#32),
    StableHlo.TRef.unary (.of main_cst_4 : StableHlo.TRef sig ⟨S_, .f32⟩) main_call2.v0 id,
    StableHlo.TRef.unary main_call2.v0 main_call2.v1 (broadcastInDim S50000 ![] bcast_S_S50000),
    StableHlo.TRef.ternary (.of main_v30 : StableHlo.TRef sig ⟨S50000, .i1⟩) (.of main_v34 : StableHlo.TRef sig ⟨S50000, .f32⟩) main_call2.v1 main_call2.v2 select,
    StableHlo.nullary main_c (constantI S_ 32 0#32),
    StableHlo.unary main_c main_v36 (broadcastInDim S850000 ![] bcast_S_S850000 : (⟨S_, .i32⟩ : BufTy).Contents (Elt F) → (⟨S850000, .i32⟩ : BufTy).Contents (Elt F)),
    StableHlo.binary main_v7 main_v36 main_v37 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v38 (broadcastInDim S850000 ![] bcast_S_S850000 : (⟨S_, .i32⟩ : BufTy).Contents (Elt F) → (⟨S850000, .i32⟩ : BufTy).Contents (Elt F)),
    StableHlo.binary main_v7 main_v38 main_v39 (addi : (⟨S850000, .i32⟩ : BufTy).Contents (Elt F) → (⟨S850000, .i32⟩ : BufTy).Contents (Elt F) → (⟨S850000, .i32⟩ : BufTy).Contents (Elt F)),
    StableHlo.ternary main_v37 main_v39 main_v7 main_v40 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v40 main_v41 (broadcastInDim S850000x1 ![0] bcast_S850000_S850000x1_0 : (⟨S850000, .i32⟩ : BufTy).Contents (Elt F) → (⟨S850000x1, .i32⟩ : BufTy).Contents (Elt F)),
    StableHlo.binary main_v35 main_v41 main_v42 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_6 (constantI S_ 32 0#32),
    StableHlo.unary main_c_6 main_v43 (broadcastInDim S850000 ![] bcast_S_S850000 : (⟨S_, .i32⟩ : BufTy).Contents (Elt F) → (⟨S850000, .i32⟩ : BufTy).Contents (Elt F)),
    StableHlo.binary main_v9 main_v43 main_v44 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v45 (broadcastInDim S850000 ![] bcast_S_S850000 : (⟨S_, .i32⟩ : BufTy).Contents (Elt F) → (⟨S850000, .i32⟩ : BufTy).Contents (Elt F)),
    StableHlo.binary main_v9 main_v45 main_v46 (addi : (⟨S850000, .i32⟩ : BufTy).Contents (Elt F) → (⟨S850000, .i32⟩ : BufTy).Contents (Elt F) → (⟨S850000, .i32⟩ : BufTy).Contents (Elt F)),
    StableHlo.ternary main_v44 main_v46 main_v9 main_v47 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v47 main_v48 (broadcastInDim S850000x1 ![0] bcast_S850000_S850000x1_0 : (⟨S850000, .i32⟩ : BufTy).Contents (Elt F) → (⟨S850000x1, .i32⟩ : BufTy).Contents (Elt F)),
    StableHlo.binary main_v35 main_v48 main_v49 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)) ]

theorem ops0_sub : (ops0 : List (HloOp τ sig (Elt F))).Forall fun op => op.bufs ⊆ StableHlo.tcRefs τ sig :=
  ⟨StableHlo.nullary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩

/-- The 64 operations of window 1 of @main. -/
abbrev ops1 : List (HloOp τ sig (Elt F)) :=
  [ StableHlo.binary main_v42 main_v49 main_v50 (mulf : (⟨S850000, .f32⟩ : BufTy).Contents (Elt F) → (⟨S850000, .f32⟩ : BufTy).Contents (Elt F) → (⟨S850000, .f32⟩ : BufTy).Contents (Elt F)),
    StableHlo.nullary main_c_8 (constantI S_ 32 0#32),
    StableHlo.unary main_c_8 main_v51 (broadcastInDim S850000 ![] bcast_S_S850000 : (⟨S_, .i32⟩ : BufTy).Contents (Elt F) → (⟨S850000, .i32⟩ : BufTy).Contents (Elt F)),
    StableHlo.binary main_v7 main_v51 main_v52 (cmpi .slt : (⟨S850000, .i32⟩ : BufTy).Contents (Elt F) → (⟨S850000, .i32⟩ : BufTy).Contents (Elt F) → (⟨S850000, .i1⟩ : BufTy).Contents (Elt F)),
    StableHlo.nullary main_c_9 (constantI S_ 32 50000#32),
    StableHlo.unary main_c_9 main_v53 (broadcastInDim S850000 ![] bcast_S_S850000 : (⟨S_, .i32⟩ : BufTy).Contents (Elt F) → (⟨S850000, .i32⟩ : BufTy).Contents (Elt F)),
    StableHlo.binary main_v7 main_v53 main_v54 (addi : (⟨S850000, .i32⟩ : BufTy).Contents (Elt F) → (⟨S850000, .i32⟩ : BufTy).Contents (Elt F) → (⟨S850000, .i32⟩ : BufTy).Contents (Elt F)),
    StableHlo.ternary main_v52 main_v54 main_v7 main_v55 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v55 main_v56 (broadcastInDim S850000x1 ![0] bcast_S850000_S850000x1_0 : (⟨S850000, .i32⟩ : BufTy).Contents (Elt F) → (⟨S850000x1, .i32⟩ : BufTy).Contents (Elt F)),
    StableHlo.binary main_v19 main_v56 main_v57 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.nullary main_c_10 (constantI S_ 32 0#32),
    StableHlo.unary main_c_10 main_v58 (broadcastInDim S850000 ![] bcast_S_S850000 : (⟨S_, .i32⟩ : BufTy).Contents (Elt F) → (⟨S850000, .i32⟩ : BufTy).Contents (Elt F)),
    StableHlo.binary main_v7 main_v58 main_v59 (cmpi .slt : (⟨S850000, .i32⟩ : BufTy).Contents (Elt F) → (⟨S850000, .i32⟩ : BufTy).Contents (Elt F) → (⟨S850000, .i1⟩ : BufTy).Contents (Elt F)),
    StableHlo.nullary main_c_11 (constantI S_ 32 50000#32),
    StableHlo.unary main_c_11 main_v60 (broadcastInDim S850000 ![] bcast_S_S850000 : (⟨S_, .i32⟩ : BufTy).Contents (Elt F) → (⟨S850000, .i32⟩ : BufTy).Contents (Elt F)),
    StableHlo.binary main_v7 main_v60 main_v61 (addi : (⟨S850000, .i32⟩ : BufTy).Contents (Elt F) → (⟨S850000, .i32⟩ : BufTy).Contents (Elt F) → (⟨S850000, .i32⟩ : BufTy).Contents (Elt F)),
    StableHlo.ternary main_v59 main_v61 main_v7 main_v62 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v62 main_v63 (broadcastInDim S850000x1 ![0] bcast_S850000_S850000x1_0 : (⟨S850000, .i32⟩ : BufTy).Contents (Elt F) → (⟨S850000x1, .i32⟩ : BufTy).Contents (Elt F)),
    StableHlo.binary main_v24 main_v63 main_v64 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.binary main_v57 main_v64 main_v65 (addf : (⟨S850000x128, .f32⟩ : BufTy).Contents (Elt F) → (⟨S850000x128, .f32⟩ : BufTy).Contents (Elt F) → (⟨S850000x128, .f32⟩ : BufTy).Contents (Elt F)),
    StableHlo.binary main_v65 main_arg8 main_v66 ((fun l r => Host.dotGeneral dot_S850000x128_S128x128_S850000x128_1_0_0_1_n_n none l r) : (⟨S850000x128, .f32⟩ : BufTy).Contents (Elt F) → (⟨S128x128, .f32⟩ : BufTy).Contents (Elt F) → (⟨S850000x128, .f32⟩ : BufTy).Contents (Elt F)),
    StableHlo.unary main_arg9 main_v67 (broadcastInDim S1x128 ![1] bcast_S128_S1x128_1 : (⟨S128, .f32⟩ : BufTy).Contents (Elt F) → (⟨S1x128, .f32⟩ : BufTy).Contents (Elt F)),
    StableHlo.unary main_v67 main_v68 (broadcastInDim S850000x128 ![0, 1] bcast_S1x128_S850000x128_0_1 : (⟨S1x128, .f32⟩ : BufTy).Contents (Elt F) → (⟨S850000x128, .f32⟩ : BufTy).Contents (Elt F)),
    StableHlo.binary main_v66 main_v68 main_v69 (addf : (⟨S850000x128, .f32⟩ : BufTy).Contents (Elt F) → (⟨S850000x128, .f32⟩ : BufTy).Contents (Elt F) → (⟨S850000x128, .f32⟩ : BufTy).Contents (Elt F)),
    StableHlo.unary main_v69 main_v70 (Host.tanh : (⟨S850000x128, .f32⟩ : BufTy).Contents (Elt F) → (⟨S850000x128, .f32⟩ : BufTy).Contents (Elt F)),
    StableHlo.binary main_v70 main_arg10 main_v71 ((fun l r => Host.dotGeneral dot_S850000x128_S128x1_S850000x1_1_0_0_1_n_n none l r) : (⟨S850000x128, .f32⟩ : BufTy).Contents (Elt F) → (⟨S128x1, .f32⟩ : BufTy).Contents (Elt F) → (⟨S850000x1, .f32⟩ : BufTy).Contents (Elt F)),
    StableHlo.unary main_v71 main_v72 (Host.negf : (⟨S850000x1, .f32⟩ : BufTy).Contents (Elt F) → (⟨S850000x1, .f32⟩ : BufTy).Contents (Elt F)),
    StableHlo.unary main_v72 main_v73 (Host.exp : (⟨S850000x1, .f32⟩ : BufTy).Contents (Elt F) → (⟨S850000x1, .f32⟩ : BufTy).Contents (Elt F)),
    StableHlo.nullary main_cst_12 (constant S_ .f32 0x3F800000#32),
    StableHlo.unary main_cst_12 main_v74 (broadcastInDim S850000x1 ![] bcast_S_S850000x1 : (⟨S_, .f32⟩ : BufTy).Contents (Elt F) → (⟨S850000x1, .f32⟩ : BufTy).Contents (Elt F)),
    StableHlo.binary main_v74 main_v73 main_v75 (addf : (⟨S850000x1, .f32⟩ : BufTy).Contents (Elt F) → (⟨S850000x1, .f32⟩ : BufTy).Contents (Elt F) → (⟨S850000x1, .f32⟩ : BufTy).Contents (Elt F)),
    StableHlo.nullary main_cst_13 (constant S_ .f32 0x3F800000#32),
    StableHlo.unary main_cst_13 main_v76 (broadcastInDim S850000x1 ![] bcast_S_S850000x1 : (⟨S_, .f32⟩ : BufTy).Contents (Elt F) → (⟨S850000x1, .f32⟩ : BufTy).Contents (Elt F)),
    StableHlo.binary main_v76 main_v75 main_v77 (Host.divf : (⟨S850000x1, .f32⟩ : BufTy).Contents (Elt F) → (⟨S850000x1, .f32⟩ : BufTy).Contents (Elt F) → (⟨S850000x1, .f32⟩ : BufTy).Contents (Elt F)),
    StableHlo.unary main_v50 main_v78 (broadcastInDim S850000x1 ![0] bcast_S850000_S850000x1_0 : (⟨S850000, .f32⟩ : BufTy).Contents (Elt F) → (⟨S850000x1, .f32⟩ : BufTy).Contents (Elt F)),
    StableHlo.unary main_v77 main_v79 (broadcastInDim S850000x128 ![0, 1] bcast_S850000x1_S850000x128_0_1 : (⟨S850000x1, .f32⟩ : BufTy).Contents (Elt F) → (⟨S850000x128, .f32⟩ : BufTy).Contents (Elt F)),
    StableHlo.binary main_v79 main_v57 main_v80 (mulf : (⟨S850000x128, .f32⟩ : BufTy).Contents (Elt F) → (⟨S850000x128, .f32⟩ : BufTy).Contents (Elt F) → (⟨S850000x128, .f32⟩ : BufTy).Contents (Elt F)),
    StableHlo.nullary main_cst_14 (constant S_ .f32 0x3F800000#32),
    StableHlo.unary main_cst_14 main_v81 (broadcastInDim S850000x1 ![] bcast_S_S850000x1 : (⟨S_, .f32⟩ : BufTy).Contents (Elt F) → (⟨S850000x1, .f32⟩ : BufTy).Contents (Elt F)),
    StableHlo.binary main_v81 main_v77 main_v82 (subf : (⟨S850000x1, .f32⟩ : BufTy).Contents (Elt F) → (⟨S850000x1, .f32⟩ : BufTy).Contents (Elt F) → (⟨S850000x1, .f32⟩ : BufTy).Contents (Elt F)),
    StableHlo.unary main_v82 main_v83 (broadcastInDim S850000x128 ![0, 1] bcast_S850000x1_S850000x128_0_1 : (⟨S850000x1, .f32⟩ : BufTy).Contents (Elt F) → (⟨S850000x128, .f32⟩ : BufTy).Contents (Elt F)),
    StableHlo.binary main_v83 main_v64 main_v84 (mulf : (⟨S850000x128, .f32⟩ : BufTy).Contents (Elt F) → (⟨S850000x128, .f32⟩ : BufTy).Contents (Elt F) → (⟨S850000x128, .f32⟩ : BufTy).Contents (Elt F)),
    StableHlo.binary main_v80 main_v84 main_v85 (addf : (⟨S850000x128, .f32⟩ : BufTy).Contents (Elt F) → (⟨S850000x128, .f32⟩ : BufTy).Contents (Elt F) → (⟨S850000x128, .f32⟩ : BufTy).Contents (Elt F)),
    StableHlo.unary main_v78 main_v86 (broadcastInDim S850000x128 ![0, 1] bcast_S850000x1_S850000x128_0_1 : (⟨S850000x1, .f32⟩ : BufTy).Contents (Elt F) → (⟨S850000x128, .f32⟩ : BufTy).Contents (Elt F)),
    StableHlo.binary main_v86 main_v85 main_v87 (mulf : (⟨S850000x128, .f32⟩ : BufTy).Contents (Elt F) → (⟨S850000x128, .f32⟩ : BufTy).Contents (Elt F) → (⟨S850000x128, .f32⟩ : BufTy).Contents (Elt F)),
    StableHlo.nullary main_cst_15 (constant S_ .f32 0x00000000#32),
    StableHlo.unary main_cst_15 main_v88 (broadcastInDim S50000x128 ![] bcast_S_S50000x128 : (⟨S_, .f32⟩ : BufTy).Contents (Elt F) → (⟨S50000x128, .f32⟩ : BufTy).Contents (Elt F)),
    StableHlo.unary main_v9 main_v89 (broadcastInDim S850000x1 ![0] bcast_S850000_S850000x1_0 : (⟨S850000, .i32⟩ : BufTy).Contents (Elt F) → (⟨S850000x1, .i32⟩ : BufTy).Contents (Elt F)),
    StableHlo.ternary main_v88 main_v89 main_v87 main_v90 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.binary main_v90 main_arg11 main_v91 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg12 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S50000x128 ![0, 1] bcast_S1x128_S50000x128_0_1 : (⟨S1x128, .f32⟩ : BufTy).Contents (Elt F) → (⟨S50000x128, .f32⟩ : BufTy).Contents (Elt F)),
    StableHlo.binary main_v91 main_v93 main_v94 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v94 : StableHlo.TRef sig ⟨S50000x128, .f32⟩) main_call3.v0 main_call3.v1 (cmpf .oge),
    StableHlo.TRef.nullary main_call3.cst_0 (constant S_ .f32 0x3C23D70A#32),
    StableHlo.TRef.unary main_call3.cst_0 main_call3.v2 (broadcastInDim S50000x128 ![] bcast_S_S50000x128),
    StableHlo.TRef.binary main_call3.v2 (.of main_v94 : StableHlo.TRef sig ⟨S50000x128, .f32⟩) main_call3.v3 mulf,
    StableHlo.TRef.ternary main_call3.v1 (.of main_v94 : StableHlo.TRef sig ⟨S50000x128, .f32⟩) main_call3.v3 main_call3.call0.v0 select,
    StableHlo.binary main_v95 main_arg13 main_v96 ((fun l r => Host.dotGeneral dot_S50000x128_S128x2_S50000x2_1_0_0_1_n_n none l r) : (⟨S50000x128, .f32⟩ : BufTy).Contents (Elt F) → (⟨S128x2, .f32⟩ : BufTy).Contents (Elt F) → (⟨S50000x2, .f32⟩ : BufTy).Contents (Elt F)),
    StableHlo.unary main_arg14 main_v97 (broadcastInDim S1x2 ![1] bcast_S2_S1x2_1 : (⟨S2, .f32⟩ : BufTy).Contents (Elt F) → (⟨S1x2, .f32⟩ : BufTy).Contents (Elt F)),
    StableHlo.unary main_v97 main_v98 (broadcastInDim S50000x2 ![0, 1] bcast_S1x2_S50000x2_0_1 : (⟨S1x2, .f32⟩ : BufTy).Contents (Elt F) → (⟨S50000x2, .f32⟩ : BufTy).Contents (Elt F)),
    StableHlo.binary main_v96 main_v98 main_v99 (addf : (⟨S50000x2, .f32⟩ : BufTy).Contents (Elt F) → (⟨S50000x2, .f32⟩ : BufTy).Contents (Elt F) → (⟨S50000x2, .f32⟩ : BufTy).Contents (Elt F)) ]

theorem ops1_sub : (ops1 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.binary_bufs_sub .., StableHlo.unary_bufs_sub .., StableHlo.unary_bufs_sub .., StableHlo.binary_bufs_sub ..⟩

end Cert.ReferenceIdeal.RefOps

end
-- ==== Proof.RefRun.lean ====
/-
  The reference program's @main is the straight line of its host operations: the called functions' bodies stand
  at their calls over the calls' own buffers, so each window is one chain of operation steps, and the two windows
  in order are the concatenated list. Every fair execution then ends with each buffer at the operations' fold over
  the launch contents.
-/
import proofs.«125175_j46377056862932_2_alg».proof.Proof.RefOps
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem

variable {F : FTy → Type} [FloatOps F]

set_option maxRecDepth 8192 in
set_option maxHeartbeats 4000000 in
/-- Window 0 is the line of its seventy operations. -/
theorem main_part0_eq (c : Dev nD) : main_part0 (F := F) c = StableHlo.seq RefOps.ops0 := by
  simp only [main_part0, fn_leaky_relu.body, fn_where.body, fn_where_0.body, StableHlo.seq, bind_assoc, pure_bind]
  rfl

set_option maxRecDepth 8192 in
set_option maxHeartbeats 4000000 in
/-- Window 1 is the line of its sixty-four operations. -/
theorem main_part1_eq (c : Dev nD) : main_part1 (F := F) c = StableHlo.seq RefOps.ops1 := by
  simp only [main_part1, fn_leaky_relu.body, fn_where.body, fn_where_0.body, StableHlo.seq, bind_assoc, pure_bind]

/-- @main is the two lines in order, which is the line of the concatenated list. -/
theorem main_eq (c : Dev nD) : main (F := F) c = StableHlo.seq (RefOps.ops0 ++ RefOps.ops1) := by
  rw [StableHlo.seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation of the concatenated list touches TensorCore buffers only. -/
theorem ops_sub : (RefOps.ops0 ++ RefOps.ops1 : List (HloOp τ sig (Elt F))).Forall fun op => op.bufs ⊆ StableHlo.tcRefs τ sig :=
  List.forall_append.mpr ⟨RefOps.ops0_sub, RefOps.ops1_sub⟩

/-- From any memory with zero counters, every weakly fair execution of @main on the TensorCores terminates, and
    every final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = StableHlo.after (RefOps.ops0 ++ RefOps.ops1) (StableHlo.launchContents m c) (b : DevRef τ sig) :=
  StableHlo.run_seq scopedRefs_eq scopedSems_eq defs main (fun _ => RefOps.ops0 ++ RefOps.ops1) main_eq (fun _ => ops_sub) m ρ

end Cert.ReferenceIdeal.RefRun

end
-- ==== Proof.RDefs.lean ====
/-
  The reference program's value, named piece by piece over the shared row functions: the edge index vectors as the
  program computes them, the degree as its accumulating scatter, and the summed messages: per edge the mixed row of the
  gathered source rows, scaled by the product of the source's and the target's factors.
-/
import proofs.«125175_j46377056862932_2_alg».proof.Proof.Gen.ReferenceIdeal
import proofs.«125175_j46377056862932_2_alg».proof.Proof.Spec
import Idealize.ShloMosaic.Lib.ValueIdx

noncomputable section

namespace Cert.ReferenceIdeal.RefValue

open Cert.ReferenceIdeal Cert.ReferenceIdeal.Gen Idealize.ShloMosaic Idealize.ShloMosaic.ValueIdx
open Cert.Spec (A1 A2 zeroW oneW dinvOf mix xn xa hid cls)

/-- The self-loop pairs (n, n) as a [2, 50000] table: both rows count the nodes. -/
def loops : IVec S2x50000 32 :=
  shapeCast S2x50000 (broadcastInDim S2x1x1x50000 ![0, 1, 2, 3] bcast_S1x1x1x50000_S2x1x1x50000_0_1_2_3
    (shapeCast S1x1x1x50000 (broadcastInDim S1x50000 ![1] bcast_S50000_S1x50000_1 (iotaInDim S50000 32 0))
      shapeCasts_S1x50000_S1x1x1x50000)) shapeCasts_S2x1x1x50000_S2x50000

/-- The edge table with the self loops appended: [2, 850000]. -/
def allEdges (a1 : IVec S2x800000 32) : IVec S2x850000 32 :=
  concatenate S2x850000 1 [⟨S2x800000, a1⟩, ⟨S2x50000, loops⟩] concatenates_S2x800000_S2x50000_S2x850000_d1

/-- The sources (row 0 of the table) and the targets (row 1), one per edge. -/
def rowVec (a1 : IVec S2x800000 32) : IVec S850000 32 :=
  shapeCast S850000 (extractStridedSlice S1x850000 ![0, 0] (allEdges a1) slices_S2x850000_S1x850000_0_0) shapeCasts_S1x850000_S850000
def colVec (a1 : IVec S2x800000 32) : IVec S850000 32 :=
  shapeCast S850000 (extractStridedSlice S1x850000 ![1, 0] (allEdges a1) slices_S2x850000_S1x850000_1_0) shapeCasts_S1x850000_S850000

/-- An index vector as a column of start indices, as it is; and with 50000 added to its negative entries first. -/
def rawCol (v : IVec S850000 32) : IVec S850000x1 32 := broadcastInDim S850000x1 ![0] bcast_S850000_S850000x1_0 v
def wrapCol (v : IVec S850000 32) : IVec S850000x1 32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- The degree of every node: one per edge landing on it (the target column as it is). -/
def degR (a1 : IVec S2x800000 32) : A1 50000 :=
  Host.scatterAdd (F := Ideal) (φ := .f32) scatter_S50000_S850000x1_S850000_n_0_0_1 (fun _ => zeroW) (rawCol (colVec a1)) (fun _ => oneW)

/-- The summed messages: per edge, (factor of the source · factor of the target) · mixed row of the source's gathered rows. -/
def aggR (a1 : IVec S2x800000 32) (XN XA : A2 50000 128) (Watt : A2 128 128) (batt : A1 128) (vatt : A2 128 1) : A2 50000 128 :=
  Host.scatterAdd (F := Ideal) (φ := .f32) scatter_S50000x128_S850000x1_S850000x128_1_0_0_1 (fun _ => zeroW) (rawCol (colVec a1))
    (fun j =>
      (Host.gather gather_S50000_S850000x1_S850000_n_0_n_n_0_1_1 (fun n => dinvOf (degR a1 n)) (wrapCol (rowVec a1)) (ix1 (j 0))
        * Host.gather gather_S50000_S850000x1_S850000_n_0_n_n_0_1_1 (fun n => dinvOf (degR a1 n)) (wrapCol (colVec a1)) (ix1 (j 0)))
      * mix Watt batt vatt
          (fun k => Host.gather gather_S50000x128_S850000x1_S850000x128_1_0_n_n_0_1_1128 XN (wrapCol (rowVec a1)) (ix2 (j 0) k))
          (fun k => Host.gather gather_S50000x128_S850000x1_S850000x128_1_0_n_n_0_1_1128 XA (wrapCol (rowVec a1)) (ix2 (j 0) k)) (j 1))

end Cert.ReferenceIdeal.RefValue

end
-- ==== Proof.RefTerms.lean ====
/-
  The reference program's stages as whole-array terms of the operations it applies, each a function of the stages it
  reads: the hidden rows, the two projections, the degree and its inverse square root, the per-edge factor, the
  gathered rows, the message, the summed rows and the head.
-/
import proofs.«125175_j46377056862932_2_alg».proof.Proof.RDefs
import proofs.«125175_j46377056862932_2_alg».proof.Proof.Spec
import Idealize.ShloMosaic.Lib.ValueIdx

noncomputable section

namespace Cert.ReferenceIdeal.RefValue

open Cert.ReferenceIdeal Cert.ReferenceIdeal.Gen Idealize.ShloMosaic Idealize.ShloMosaic.ValueIdx
open Cert.Spec (A1 A2)

/-- The float words 0.0, the rectifier's slope and 1.0 as rank-zero arrays. -/
abbrev c0 : FVec Ideal S_ .f32 := constant (F := Ideal) S_ .f32 0x00000000#32
abbrev cSlope : FVec Ideal S_ .f32 := constant (F := Ideal) S_ .f32 0x3C23D70A#32
abbrev c1 : FVec Ideal S_ .f32 := constant (F := Ideal) S_ .f32 0x3F800000#32

/-- A bias vector as every row of a [50000,128], a [850000,128] and a [50000,2] array. -/
def biasN (b : A1 128) : A2 50000 128 :=
  broadcastInDim S50000x128 ![0, 1] bcast_S1x128_S50000x128_0_1 (broadcastInDim S1x128 ![1] bcast_S128_S1x128_1 b)
def biasE (b : A1 128) : A2 850000 128 :=
  broadcastInDim S850000x128 ![0, 1] bcast_S1x128_S850000x128_0_1 (broadcastInDim S1x128 ![1] bcast_S128_S1x128_1 b)
def biasO (b : A1 2) : A2 50000 2 :=
  broadcastInDim S50000x2 ![0, 1] bcast_S1x2_S50000x2_0_1 (broadcastInDim S1x2 ![1] bcast_S2_S1x2_1 b)

/-- The leaky rectifier on a whole [50000,128] array: x where x ≥ 0, slope · x elsewhere. -/
def lreluV (t : A2 50000 128) : A2 50000 128 :=
  select (cmpf (F := Ideal) (φ := .f32) .oge t (broadcastInDim S50000x128 ![] bcast_S_S50000x128 c0))
    t (mulf (F := Ideal) (φ := .f32) (broadcastInDim S50000x128 ![] bcast_S_S50000x128 cSlope) t)

/-- The hidden rows: rectified x · W_in + b_in. -/
def hidV (x : A2 50000 256) (w : A2 256 128) (b : A1 128) : A2 50000 128 :=
  lreluV (addf (F := Ideal) (φ := .f32)
    (Host.dotGeneral (F := Ideal) (φ₁ := .f32) (φ₂ := .f32) dot_S50000x256_S256x128_S50000x128_1_0_0_1_n_n none x w) (biasN b))

/-- The two projections: the first 64 columns of the hidden rows through W_nor, the last 64 through W_abnor. -/
def xnV (H : A2 50000 128) (w : A2 64 128) (b : A1 128) : A2 50000 128 :=
  addf (F := Ideal) (φ := .f32)
    (Host.dotGeneral (F := Ideal) (φ₁ := .f32) (φ₂ := .f32) dot_S50000x64_S64x128_S50000x128_1_0_0_1_n_n none
      (extractStridedSlice S50000x64 ![0, 0] H slices_S50000x128_S50000x64_0_0) w) (biasN b)
def xaV (H : A2 50000 128) (w : A2 64 128) (b : A1 128) : A2 50000 128 :=
  addf (F := Ideal) (φ := .f32)
    (Host.dotGeneral (F := Ideal) (φ₁ := .f32) (φ₂ := .f32) dot_S50000x64_S64x128_S50000x128_1_0_0_1_n_n none
      (extractStridedSlice S50000x64 ![0, 64] H slices_S50000x128_S50000x64_0_64) w) (biasN b)

/-- The degree from the target vector: ones summed at the targets, from zero. -/
def degV (c : IVec S850000 32) : A1 50000 :=
  Host.scatterAdd (F := Ideal) (φ := .f32) scatter_S50000_S850000x1_S850000_n_0_0_1
    (broadcastInDim S50000 ![] bcast_S_S50000 c0) (rawCol c) (broadcastInDim S850000 ![] bcast_S_S850000 c1)

/-- 1/√degree where the degree is positive, 0 elsewhere. -/
def dinvV (d : A1 50000) : A1 50000 :=
  select (cmpf (F := Ideal) (φ := .f32) .ogt d (broadcastInDim S50000 ![] bcast_S_S50000 c0))
    (Host.rsqrt (F := Ideal) (φ := .f32)
      (select (cmpf (F := Ideal) (φ := .f32) .ogt d (broadcastInDim S50000 ![] bcast_S_S50000 c0)) d
        (broadcastInDim S50000 ![] bcast_S_S50000 c1)))
    (broadcastInDim S50000 ![] bcast_S_S50000 c0)

/-- The factor's two gathers: at the sources and at the targets. -/
def gSrcV (dinv : A1 50000) (r : IVec S850000 32) : A1 850000 :=
  Host.gather gather_S50000_S850000x1_S850000_n_0_n_n_0_1_1 dinv (wrapCol r)

/-- The rows of a [50000,128] array gathered at the (wrapped) sources. -/
def rowsV (X : A2 50000 128) (r : IVec S850000 32) : A2 850000 128 :=
  Host.gather gather_S50000x128_S850000x1_S850000x128_1_0_n_n_0_1_1128 X (wrapCol r)

/-- The gate column: 1 / (1 + exp(−(tanh((P + Q) · W_att + b_att) · v_att))). -/
def gateV (P Q : A2 850000 128) (w : A2 128 128) (b : A1 128) (v : A2 128 1) : A2 850000 1 :=
  Host.divf (F := Ideal) (φ := .f32) (broadcastInDim S850000x1 ![] bcast_S_S850000x1 c1)
    (addf (F := Ideal) (φ := .f32) (broadcastInDim S850000x1 ![] bcast_S_S850000x1 c1)
      (Host.exp (F := Ideal) (φ := .f32) (Host.negf (F := Ideal) (φ := .f32)
        (Host.dotGeneral (F := Ideal) (φ₁ := .f32) (φ₂ := .f32) dot_S850000x128_S128x1_S850000x1_1_0_0_1_n_n none
          (Host.tanh (F := Ideal) (φ := .f32) (addf (F := Ideal) (φ := .f32)
            (Host.dotGeneral (F := Ideal) (φ₁ := .f32) (φ₂ := .f32) dot_S850000x128_S128x128_S850000x128_1_0_0_1_n_n none
              (addf (F := Ideal) (φ := .f32) P Q) w) (biasE b))) v))))

/-- The message: the factor (as a column, along the rows) times (gate · P + (1 − gate) · Q). -/
def msgV (nrm : A1 850000) (P Q : A2 850000 128) (g : A2 850000 1) : A2 850000 128 :=
  mulf (F := Ideal) (φ := .f32)
    (broadcastInDim S850000x128 ![0, 1] bcast_S850000x1_S850000x128_0_1 (broadcastInDim S850000x1 ![0] bcast_S850000_S850000x1_0 nrm))
    (addf (F := Ideal) (φ := .f32)
      (mulf (F := Ideal) (φ := .f32) (broadcastInDim S850000x128 ![0, 1] bcast_S850000x1_S850000x128_0_1 g) P)
      (mulf (F := Ideal) (φ := .f32)
        (broadcastInDim S850000x128 ![0, 1] bcast_S850000x1_S850000x128_0_1
          (subf (F := Ideal) (φ := .f32) (broadcastInDim S850000x1 ![] bcast_S_S850000x1 c1) g)) Q))

/-- The summed rows: the messages added at the targets, from zero. -/
def aggV (c : IVec S850000 32) (m : A2 850000 128) : A2 50000 128 :=
  Host.scatterAdd (F := Ideal) (φ := .f32) scatter_S50000x128_S850000x1_S850000x128_1_0_0_1
    (broadcastInDim S50000x128 ![] bcast_S_S50000x128 c0) (rawCol c) m

/-- The head: rectified a · W_upd + b_upd, then · W_cls + b_cls. -/
def headV (a : A2 50000 128) (wu : A2 128 128) (bu : A1 128) (wc : A2 128 2) (bc : A1 2) : A2 50000 2 :=
  addf (F := Ideal) (φ := .f32)
    (Host.dotGeneral (F := Ideal) (φ₁ := .f32) (φ₂ := .f32) dot_S50000x128_S128x2_S50000x2_1_0_0_1_n_n none
      (lreluV (addf (F := Ideal) (φ := .f32)
        (Host.dotGeneral (F := Ideal) (φ₁ := .f32) (φ₂ := .f32) dot_S50000x128_S128x128_S50000x128_1_0_0_1_n_n none a wu) (biasN bu))) wc)
    (biasO bc)

end Cert.ReferenceIdeal.RefValue

end
-- ==== Proof.RefCasts.lean ====
/-
  The typed references of the reference program's calls at its own literal buffers: moving contents to such a
  buffer's type, or back, is the identity, the buffer's type being the tensor type by computation. With these a
  composed term of the program carries no transport.
-/
import proofs.«125175_j46377056862932_2_alg».proof.Proof.RefOps
import proofs.«125175_j46377056862932_2_alg».proof.Proof.LibTypedRefs
import proofs.«125175_j46377056862932_2_alg».proof.Proof.Spec
import Idealize.ShloMosaic.Lib.StableHlo.Run
import Idealize.ShloMosaic.Lib.ValueIdx

noncomputable section

namespace Cert.ReferenceIdeal.RefValue

open Cert.ReferenceIdeal Cert.ReferenceIdeal.Gen Idealize.ShloMosaic Idealize.ShloMosaic.TcCoe Idealize.SL.Sem
open Idealize.ShloMosaic.StableHlo Idealize.ShloMosaic.ValueIdx
open Cert.Spec (A1 A2)

section
variable {Val : EltTy → Type}

theorem toBuf_v14 (h1 : (main_v14 : Ref sig .tc).ty = ⟨S50000x128, .f32⟩) (h2 : (main_v14 : Ref sig .tc).space ≠ .host) (h3 : (main_v14 : Ref sig .tc).isScoped = false)
    (v : (⟨S50000x128, .f32⟩ : BufTy).Contents Val) : (TRef.of main_v14 h1 h2 h3).toBuf v = v := rfl
theorem toBuf_v33 (h1 : (main_v33 : Ref sig .tc).ty = ⟨S50000, .f32⟩) (h2 : (main_v33 : Ref sig .tc).space ≠ .host) (h3 : (main_v33 : Ref sig .tc).isScoped = false)
    (v : (⟨S50000, .f32⟩ : BufTy).Contents Val) : (TRef.of main_v33 h1 h2 h3).toBuf v = v := rfl
theorem toBuf_v35 (h1 : (main_v35 : Ref sig .tc).ty = ⟨S50000, .f32⟩) (h2 : (main_v35 : Ref sig .tc).space ≠ .host) (h3 : (main_v35 : Ref sig .tc).isScoped = false)
    (v : (⟨S50000, .f32⟩ : BufTy).Contents Val) : (TRef.of main_v35 h1 h2 h3).toBuf v = v := rfl
theorem toBuf_v95 (h1 : (main_v95 : Ref sig .tc).ty = ⟨S50000x128, .f32⟩) (h2 : (main_v95 : Ref sig .tc).space ≠ .host) (h3 : (main_v95 : Ref sig .tc).isScoped = false)
    (v : (⟨S50000x128, .f32⟩ : BufTy).Contents Val) : (TRef.of main_v95 h1 h2 h3).toBuf v = v := rfl
theorem ofBuf_v13 (h1 : (main_v13 : Ref sig .tc).ty = ⟨S50000x128, .f32⟩) (h2 : (main_v13 : Ref sig .tc).space ≠ .host) (h3 : (main_v13 : Ref sig .tc).isScoped = false)
    (v : (⟨S50000x128, .f32⟩ : BufTy).Contents Val) : (TRef.of main_v13 h1 h2 h3).ofBuf v = v := rfl
theorem ofBuf_v32 (h1 : (main_v32 : Ref sig .tc).ty = ⟨S50000, .i1⟩) (h2 : (main_v32 : Ref sig .tc).space ≠ .host) (h3 : (main_v32 : Ref sig .tc).isScoped = false)
    (v : (⟨S50000, .i1⟩ : BufTy).Contents Val) : (TRef.of main_v32 h1 h2 h3).ofBuf v = v := rfl
theorem ofBuf_v28 (h1 : (main_v28 : Ref sig .tc).ty = ⟨S50000, .f32⟩) (h2 : (main_v28 : Ref sig .tc).space ≠ .host) (h3 : (main_v28 : Ref sig .tc).isScoped = false)
    (v : (⟨S50000, .f32⟩ : BufTy).Contents Val) : (TRef.of main_v28 h1 h2 h3).ofBuf v = v := rfl
theorem ofBuf_cst_3 (h1 : (main_cst_3 : Ref sig .tc).ty = ⟨S_, .f32⟩) (h2 : (main_cst_3 : Ref sig .tc).space ≠ .host) (h3 : (main_cst_3 : Ref sig .tc).isScoped = false)
    (v : (⟨S_, .f32⟩ : BufTy).Contents Val) : (TRef.of main_cst_3 h1 h2 h3).ofBuf v = v := rfl
theorem ofBuf_v30 (h1 : (main_v30 : Ref sig .tc).ty = ⟨S50000, .i1⟩) (h2 : (main_v30 : Ref sig .tc).space ≠ .host) (h3 : (main_v30 : Ref sig .tc).isScoped = false)
    (v : (⟨S50000, .i1⟩ : BufTy).Contents Val) : (TRef.of main_v30 h1 h2 h3).ofBuf v = v := rfl
theorem ofBuf_v34 (h1 : (main_v34 : Ref sig .tc).ty = ⟨S50000, .f32⟩) (h2 : (main_v34 : Ref sig .tc).space ≠ .host) (h3 : (main_v34 : Ref sig .tc).isScoped = false)
    (v : (⟨S50000, .f32⟩ : BufTy).Contents Val) : (TRef.of main_v34 h1 h2 h3).ofBuf v = v := rfl
theorem ofBuf_cst_4 (h1 : (main_cst_4 : Ref sig .tc).ty = ⟨S_, .f32⟩) (h2 : (main_cst_4 : Ref sig .tc).space ≠ .host) (h3 : (main_cst_4 : Ref sig .tc).isScoped = false)
    (v : (⟨S_, .f32⟩ : BufTy).Contents Val) : (TRef.of main_cst_4 h1 h2 h3).ofBuf v = v := rfl
theorem ofBuf_v94 (h1 : (main_v94 : Ref sig .tc).ty = ⟨S50000x128, .f32⟩) (h2 : (main_v94 : Ref sig .tc).space ≠ .host) (h3 : (main_v94 : Ref sig .tc).isScoped = false)
    (v : (⟨S50000x128, .f32⟩ : BufTy).Contents Val) : (TRef.of main_v94 h1 h2 h3).ofBuf v = v := rfl

end

/-- The fold of a literal line of operations at a literal buffer, as one pass: each operation's result at its own
    buffer is its function's value, elsewhere what was there; the typed references' transports cancel. -/
macro "ref_results" : tactic =>
  `(tactic| (simp (disch := decide) only [after_cons, after_nil,
      nullary_result', unary_result', binary_result', ternary_result', quaternary_result', reshape_result',
      nullary_result_ne', unary_result_ne', binary_result_ne', ternary_result_ne', quaternary_result_ne', reshape_result_ne',
      Cert.Gcn.ofBuf_toBuf, toBuf_v14, toBuf_v33, toBuf_v35, toBuf_v95, ofBuf_v13, ofBuf_v32, ofBuf_v28, ofBuf_cst_3, ofBuf_v30, ofBuf_v34, ofBuf_cst_4, ofBuf_v94, id_eq]))

end Cert.ReferenceIdeal.RefValue

end
-- ==== Proof.RefStage0.lean ====
/-
  Window 0 of the reference, stage by stage: what each named buffer holds after the window's operations, as the
  stage's term of the buffers it reads; the arguments are left as they were.
-/
import proofs.«125175_j46377056862932_2_alg».proof.Proof.RefOps
import proofs.«125175_j46377056862932_2_alg».proof.Proof.RefTerms
import proofs.«125175_j46377056862932_2_alg».proof.Proof.RefCasts
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem
open Idealize.ShloMosaic.StableHlo Idealize.ShloMosaic.ValueIdx
open Cert.Spec (A1 A2)

section
variable (V : Valuation τ sig (Elt Ideal))

set_option maxRecDepth 8192
set_option maxHeartbeats 4000000

/-- The sources and the targets, one per edge with the self loops appended. -/
theorem w0_v7 : (after RefOps.ops0 V (main_v7 : DevRef τ sig) : IVec S850000 32) = rowVec (V main_arg1) := by
  ref_results
  rfl
theorem w0_v9 : (after RefOps.ops0 V (main_v9 : DevRef τ sig) : IVec S850000 32) = colVec (V main_arg1) := by
  ref_results
  rfl

/-- The hidden rows. -/
theorem w0_v14 : (after RefOps.ops0 V (main_v14 : DevRef τ sig) : A2 50000 128)
    = hidV (V main_arg0) (V main_arg2) (V main_arg3) := by
  ref_results
  rfl

/-- The two projections of the hidden rows. -/
theorem w0_v19 : (after RefOps.ops0 V (main_v19 : DevRef τ sig) : A2 50000 128)
    = xnV (after RefOps.ops0 V (main_v14 : DevRef τ sig)) (V main_arg4) (V main_arg5) := by
  ref_results
  rfl
theorem w0_v24 : (after RefOps.ops0 V (main_v24 : DevRef τ sig) : A2 50000 128)
    = xaV (after RefOps.ops0 V (main_v14 : DevRef τ sig)) (V main_arg6) (V main_arg7) := by
  ref_results
  rfl

/-- The degree, and its inverse square root. -/
theorem w0_v28 : (after RefOps.ops0 V (main_v28 : DevRef τ sig) : A1 50000)
    = degV (after RefOps.ops0 V (main_v9 : DevRef τ sig)) := by
  ref_results
  rfl
theorem w0_v35 : (after RefOps.ops0 V (main_v35 : DevRef τ sig) : A1 50000)
    = dinvV (after RefOps.ops0 V (main_v28 : DevRef τ sig)) := by
  ref_results
  rfl

/-- The factor gathered at the sources and at the targets. -/
theorem w0_v42 : (after RefOps.ops0 V (main_v42 : DevRef τ sig) : A1 850000)
    = gSrcV (after RefOps.ops0 V (main_v35 : DevRef τ sig)) (after RefOps.ops0 V (main_v7 : DevRef τ sig)) := by
  ref_results
  rfl
theorem w0_v49 : (after RefOps.ops0 V (main_v49 : DevRef τ sig) : A1 850000)
    = gSrcV (after RefOps.ops0 V (main_v35 : DevRef τ sig)) (after RefOps.ops0 V (main_v9 : DevRef τ sig)) := by
  ref_results
  rfl

/-- The window writes no argument. -/
theorem w0_arg0 : after RefOps.ops0 V (main_arg0 : DevRef τ sig) = V (main_arg0 : DevRef τ sig) := by
  ref_results
theorem w0_arg1 : after RefOps.ops0 V (main_arg1 : DevRef τ sig) = V (main_arg1 : DevRef τ sig) := by
  ref_results
theorem w0_arg2 : after RefOps.ops0 V (main_arg2 : DevRef τ sig) = V (main_arg2 : DevRef τ sig) := by
  ref_results
theorem w0_arg3 : after RefOps.ops0 V (main_arg3 : DevRef τ sig) = V (main_arg3 : DevRef τ sig) := by
  ref_results
theorem w0_arg4 : after RefOps.ops0 V (main_arg4 : DevRef τ sig) = V (main_arg4 : DevRef τ sig) := by
  ref_results
theorem w0_arg5 : after RefOps.ops0 V (main_arg5 : DevRef τ sig) = V (main_arg5 : DevRef τ sig) := by
  ref_results
theorem w0_arg6 : after RefOps.ops0 V (main_arg6 : DevRef τ sig) = V (main_arg6 : DevRef τ sig) := by
  ref_results
theorem w0_arg7 : after RefOps.ops0 V (main_arg7 : DevRef τ sig) = V (main_arg7 : DevRef τ sig) := by
  ref_results
theorem w0_arg8 : after RefOps.ops0 V (main_arg8 : DevRef τ sig) = V (main_arg8 : DevRef τ sig) := by
  ref_results
theorem w0_arg9 : after RefOps.ops0 V (main_arg9 : DevRef τ sig) = V (main_arg9 : DevRef τ sig) := by
  ref_results
theorem w0_arg10 : after RefOps.ops0 V (main_arg10 : DevRef τ sig) = V (main_arg10 : DevRef τ sig) := by
  ref_results
theorem w0_arg11 : after RefOps.ops0 V (main_arg11 : DevRef τ sig) = V (main_arg11 : DevRef τ sig) := by
  ref_results
theorem w0_arg12 : after RefOps.ops0 V (main_arg12 : DevRef τ sig) = V (main_arg12 : DevRef τ sig) := by
  ref_results
theorem w0_arg13 : after RefOps.ops0 V (main_arg13 : DevRef τ sig) = V (main_arg13 : DevRef τ sig) := by
  ref_results
theorem w0_arg14 : after RefOps.ops0 V (main_arg14 : DevRef τ sig) = V (main_arg14 : DevRef τ sig) := by
  ref_results

end

end Cert.ReferenceIdeal.RefValue

end
-- ==== Proof.RefStage1.lean ====
/-
  Window 1 of the reference, stage by stage, from any contents W of the buffers before it: what each named buffer
  holds after the window's operations, as the stage's term of the buffers it reads; the arguments and the buffers
  window 0 wrote are left as they were.
-/
import proofs.«125175_j46377056862932_2_alg».proof.Proof.RefOps
import proofs.«125175_j46377056862932_2_alg».proof.Proof.RefTerms
import proofs.«125175_j46377056862932_2_alg».proof.Proof.RefCasts
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem
open Idealize.ShloMosaic.StableHlo Idealize.ShloMosaic.ValueIdx
open Cert.Spec (A1 A2)

section
variable (W : Valuation τ sig (Elt Ideal))

set_option maxRecDepth 8192
set_option maxHeartbeats 4000000

/-- The window writes no argument and none of the buffers it reads from window 0. -/
theorem w1_arg0 : after RefOps.ops1 W (main_arg0 : DevRef τ sig) = W (main_arg0 : DevRef τ sig) := by
  ref_results
theorem w1_arg1 : after RefOps.ops1 W (main_arg1 : DevRef τ sig) = W (main_arg1 : DevRef τ sig) := by
  ref_results
theorem w1_arg2 : after RefOps.ops1 W (main_arg2 : DevRef τ sig) = W (main_arg2 : DevRef τ sig) := by
  ref_results
theorem w1_arg3 : after RefOps.ops1 W (main_arg3 : DevRef τ sig) = W (main_arg3 : DevRef τ sig) := by
  ref_results
theorem w1_arg4 : after RefOps.ops1 W (main_arg4 : DevRef τ sig) = W (main_arg4 : DevRef τ sig) := by
  ref_results
theorem w1_arg5 : after RefOps.ops1 W (main_arg5 : DevRef τ sig) = W (main_arg5 : DevRef τ sig) := by
  ref_results
theorem w1_arg6 : after RefOps.ops1 W (main_arg6 : DevRef τ sig) = W (main_arg6 : DevRef τ sig) := by
  ref_results
theorem w1_arg7 : after RefOps.ops1 W (main_arg7 : DevRef τ sig) = W (main_arg7 : DevRef τ sig) := by
  ref_results
theorem w1_arg8 : after RefOps.ops1 W (main_arg8 : DevRef τ sig) = W (main_arg8 : DevRef τ sig) := by
  ref_results
theorem w1_arg9 : after RefOps.ops1 W (main_arg9 : DevRef τ sig) = W (main_arg9 : DevRef τ sig) := by
  ref_results
theorem w1_arg10 : after RefOps.ops1 W (main_arg10 : DevRef τ sig) = W (main_arg10 : DevRef τ sig) := by
  ref_results
theorem w1_arg11 : after RefOps.ops1 W (main_arg11 : DevRef τ sig) = W (main_arg11 : DevRef τ sig) := by
  ref_results
theorem w1_arg12 : after RefOps.ops1 W (main_arg12 : DevRef τ sig) = W (main_arg12 : DevRef τ sig) := by
  ref_results
theorem w1_arg13 : after RefOps.ops1 W (main_arg13 : DevRef τ sig) = W (main_arg13 : DevRef τ sig) := by
  ref_results
theorem w1_arg14 : after RefOps.ops1 W (main_arg14 : DevRef τ sig) = W (main_arg14 : DevRef τ sig) := by
  ref_results
theorem w1_v7 : after RefOps.ops1 W (main_v7 : DevRef τ sig) = W (main_v7 : DevRef τ sig) := by
  ref_results
theorem w1_v9 : after RefOps.ops1 W (main_v9 : DevRef τ sig) = W (main_v9 : DevRef τ sig) := by
  ref_results
theorem w1_v19 : after RefOps.ops1 W (main_v19 : DevRef τ sig) = W (main_v19 : DevRef τ sig) := by
  ref_results
theorem w1_v24 : after RefOps.ops1 W (main_v24 : DevRef τ sig) = W (main_v24 : DevRef τ sig) := by
  ref_results
theorem w1_v42 : after RefOps.ops1 W (main_v42 : DevRef τ sig) = W (main_v42 : DevRef τ sig) := by
  ref_results
theorem w1_v49 : after RefOps.ops1 W (main_v49 : DevRef τ sig) = W (main_v49 : DevRef τ sig) := by
  ref_results

/-- The per-edge factor: the product of the two gathered factors. -/
theorem w1_v50 : (after RefOps.ops1 W (main_v50 : DevRef τ sig) : A1 850000)
    = mulf (F := Ideal) (φ := .f32) (W (main_v42 : DevRef τ sig) : A1 850000) (W (main_v49 : DevRef τ sig) : A1 850000) := by
  ref_results

/-- The rows of the two projections gathered at the sources. -/
theorem w1_v57 : (after RefOps.ops1 W (main_v57 : DevRef τ sig) : A2 850000 128)
    = rowsV (W (main_v19 : DevRef τ sig)) (W (main_v7 : DevRef τ sig)) := by
  ref_results
  rfl
theorem w1_v64 : (after RefOps.ops1 W (main_v64 : DevRef τ sig) : A2 850000 128)
    = rowsV (W (main_v24 : DevRef τ sig)) (W (main_v7 : DevRef τ sig)) := by
  ref_results
  rfl

/-- The gate column. -/
theorem w1_v77 : (after RefOps.ops1 W (main_v77 : DevRef τ sig) : A2 850000 1)
    = gateV (after RefOps.ops1 W (main_v57 : DevRef τ sig)) (after RefOps.ops1 W (main_v64 : DevRef τ sig))
        (W main_arg8) (W main_arg9) (W main_arg10) := by
  ref_results
  rfl

/-- The message. -/
theorem w1_v87 : (after RefOps.ops1 W (main_v87 : DevRef τ sig) : A2 850000 128)
    = msgV (after RefOps.ops1 W (main_v50 : DevRef τ sig)) (after RefOps.ops1 W (main_v57 : DevRef τ sig))
        (after RefOps.ops1 W (main_v64 : DevRef τ sig)) (after RefOps.ops1 W (main_v77 : DevRef τ sig)) := by
  ref_results
  rfl

/-- The summed rows. -/
theorem w1_v90 : (after RefOps.ops1 W (main_v90 : DevRef τ sig) : A2 50000 128)
    = aggV (W (main_v9 : DevRef τ sig)) (after RefOps.ops1 W (main_v87 : DevRef τ sig)) := by
  ref_results
  rfl

/-- The head. -/
theorem w1_v99 : (after RefOps.ops1 W (main_v99 : DevRef τ sig) : A2 50000 2)
    = headV (after RefOps.ops1 W (main_v90 : DevRef τ sig)) (W main_arg11) (W main_arg12) (W main_arg13) (W main_arg14) := by
  ref_results
  rfl

end

end Cert.ReferenceIdeal.RefValue

end
-- ==== Proof.RefArgs.lean ====
/-
  The reference program writes none of its fifteen arguments: after both windows each holds what it held at launch.
-/
import proofs.«125175_j46377056862932_2_alg».proof.Proof.RefStage0
import proofs.«125175_j46377056862932_2_alg».proof.Proof.RefStage1
import Idealize.ShloMosaic.Lib.Pipeline.Frame

noncomputable section

namespace Cert.ReferenceIdeal.RefValue

open Cert.ReferenceIdeal Cert.ReferenceIdeal.Gen Idealize.ShloMosaic Idealize.ShloMosaic.TcCoe Idealize.SL.Sem
open Idealize.ShloMosaic.StableHlo Idealize.ShloMosaic.ValueIdx
open Cert.Spec (A1 A2)

theorem arg0_eq (V : Valuation τ sig (Elt Ideal)) :
    StableHlo.after (RefOps.ops0 ++ RefOps.ops1) V (main_arg0 : DevRef τ sig) = V (main_arg0 : DevRef τ sig) := by
  rw [StableHlo.after_append, w1_arg0, w0_arg0]
theorem arg1_eq (V : Valuation τ sig (Elt Ideal)) :
    StableHlo.after (RefOps.ops0 ++ RefOps.ops1) V (main_arg1 : DevRef τ sig) = V (main_arg1 : DevRef τ sig) := by
  rw [StableHlo.after_append, w1_arg1, w0_arg1]
theorem arg2_eq (V : Valuation τ sig (Elt Ideal)) :
    StableHlo.after (RefOps.ops0 ++ RefOps.ops1) V (main_arg2 : DevRef τ sig) = V (main_arg2 : DevRef τ sig) := by
  rw [StableHlo.after_append, w1_arg2, w0_arg2]
theorem arg3_eq (V : Valuation τ sig (Elt Ideal)) :
    StableHlo.after (RefOps.ops0 ++ RefOps.ops1) V (main_arg3 : DevRef τ sig) = V (main_arg3 : DevRef τ sig) := by
  rw [StableHlo.after_append, w1_arg3, w0_arg3]
theorem arg4_eq (V : Valuation τ sig (Elt Ideal)) :
    StableHlo.after (RefOps.ops0 ++ RefOps.ops1) V (main_arg4 : DevRef τ sig) = V (main_arg4 : DevRef τ sig) := by
  rw [StableHlo.after_append, w1_arg4, w0_arg4]
theorem arg5_eq (V : Valuation τ sig (Elt Ideal)) :
    StableHlo.after (RefOps.ops0 ++ RefOps.ops1) V (main_arg5 : DevRef τ sig) = V (main_arg5 : DevRef τ sig) := by
  rw [StableHlo.after_append, w1_arg5, w0_arg5]
theorem arg6_eq (V : Valuation τ sig (Elt Ideal)) :
    StableHlo.after (RefOps.ops0 ++ RefOps.ops1) V (main_arg6 : DevRef τ sig) = V (main_arg6 : DevRef τ sig) := by
  rw [StableHlo.after_append, w1_arg6, w0_arg6]
theorem arg7_eq (V : Valuation τ sig (Elt Ideal)) :
    StableHlo.after (RefOps.ops0 ++ RefOps.ops1) V (main_arg7 : DevRef τ sig) = V (main_arg7 : DevRef τ sig) := by
  rw [StableHlo.after_append, w1_arg7, w0_arg7]
theorem arg8_eq (V : Valuation τ sig (Elt Ideal)) :
    StableHlo.after (RefOps.ops0 ++ RefOps.ops1) V (main_arg8 : DevRef τ sig) = V (main_arg8 : DevRef τ sig) := by
  rw [StableHlo.after_append, w1_arg8, w0_arg8]
theorem arg9_eq (V : Valuation τ sig (Elt Ideal)) :
    StableHlo.after (RefOps.ops0 ++ RefOps.ops1) V (main_arg9 : DevRef τ sig) = V (main_arg9 : DevRef τ sig) := by
  rw [StableHlo.after_append, w1_arg9, w0_arg9]
theorem arg10_eq (V : Valuation τ sig (Elt Ideal)) :
    StableHlo.after (RefOps.ops0 ++ RefOps.ops1) V (main_arg10 : DevRef τ sig) = V (main_arg10 : DevRef τ sig) := by
  rw [StableHlo.after_append, w1_arg10, w0_arg10]
theorem arg11_eq (V : Valuation τ sig (Elt Ideal)) :
    StableHlo.after (RefOps.ops0 ++ RefOps.ops1) V (main_arg11 : DevRef τ sig) = V (main_arg11 : DevRef τ sig) := by
  rw [StableHlo.after_append, w1_arg11, w0_arg11]
theorem arg12_eq (V : Valuation τ sig (Elt Ideal)) :
    StableHlo.after (RefOps.ops0 ++ RefOps.ops1) V (main_arg12 : DevRef τ sig) = V (main_arg12 : DevRef τ sig) := by
  rw [StableHlo.after_append, w1_arg12, w0_arg12]
theorem arg13_eq (V : Valuation τ sig (Elt Ideal)) :
    StableHlo.after (RefOps.ops0 ++ RefOps.ops1) V (main_arg13 : DevRef τ sig) = V (main_arg13 : DevRef τ sig) := by
  rw [StableHlo.after_append, w1_arg13, w0_arg13]
theorem arg14_eq (V : Valuation τ sig (Elt Ideal)) :
    StableHlo.after (RefOps.ops0 ++ RefOps.ops1) V (main_arg14 : DevRef τ sig) = V (main_arg14 : DevRef τ sig) := by
  rw [StableHlo.after_append, w1_arg14, w0_arg14]

end Cert.ReferenceIdeal.RefValue

end
-- ==== Proof.RefRead.lean ====
/-
  Whole-array operations read at an index, over the extended reals; no program in them.

  * A plain matrix product [M, K] × [K, N] at (a, c) is the sum over k of l (a, k) · r (k, c).
  * A bias vector [c] made a row [1, c] and then every row of [n, c] reads, at (p, q), the vector's entry q.
  * A rank-zero array broadcast to any shape reads its one element everywhere.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RefRead

open Idealize.ShloMosaic Idealize.ShloMosaic.ValueIdx

/-! ## A plain matrix product -/

/-- The dimension numbers of `l @ r` for `l : [M, K]`, `r : [K, N]`: contract l's axis 1 with r's axis 0. -/
abbrev mmDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MatMul
variable {M K N : Nat} (wf : DotDims.WF ⟨2, ![M, K]⟩ ⟨2, ![K, N]⟩ ⟨2, ![M, N]⟩ [1] [0] [0] [1] [] [])

/-- The left operand's row is the result's row. -/
theorem mm_lhs0 (i : (⟨2, ![M, N]⟩ : Shape).Idx) (q : (mmDims M K N wf).contr.Idx) :
    ((mmDims M K N wf).lhsIdx i q 0).val = (i 0).val := by
  unfold DotDims.lhsIdx
  rw [dif_neg (show ¬(0 : Fin (⟨2, ![M, K]⟩ : Shape).rank) ∈ (mmDims M K N wf).lhsBatch from List.not_mem_nil),
    dif_pos (show (0 : Fin (⟨2, ![M, K]⟩ : Shape).rank) ∈ (mmDims M K N wf).lhsNonContracting from List.mem_singleton.mpr rfl)]
  rfl

/-- The right operand's column is the result's column. -/
theorem mm_rhs1 (i : (⟨2, ![M, N]⟩ : Shape).Idx) (q : (mmDims M K N wf).contr.Idx) :
    ((mmDims M K N wf).rhsIdx i q 1).val = (i 1).val := by
  unfold DotDims.rhsIdx
  rw [dif_neg (show ¬(1 : Fin (⟨2, ![K, N]⟩ : Shape).rank) ∈ (mmDims M K N wf).rhsBatch from List.not_mem_nil),
    dif_pos (show (1 : Fin (⟨2, ![K, N]⟩ : Shape).rank) ∈ (mmDims M K N wf).rhsNonContracting from List.mem_singleton.mpr rfl)]
  rfl

/-- The product at (a, c): the contraction's one axis re-indexed by its coordinate k. -/
theorem mm_apply (l : FVec Ideal ⟨2, ![M, K]⟩ .f32) (r : FVec Ideal ⟨2, ![K, N]⟩ .f32) (a : Fin M) (c : Fin N) :
    Host.dotGeneral (F := Ideal) (mmDims M K N wf) none l r (ix2 a c) = ∑ k : Fin K, l (ix2 a k) * r (ix2 k c) := by
  simp only [Host.dotGeneral]
  rw [Ideal.dotGeneral_apply, ← Equiv.sum_comp (contrEquiv1 (mmDims M K N wf) K rfl rfl).symm]
  refine Finset.sum_congr rfl fun k _ => ?_
  have hk := contrEquiv1_symm_val (mmDims M K N wf) K rfl rfl k
  have el : (mmDims M K N wf).lhsIdx (ix2 a c) ((contrEquiv1 (mmDims M K N wf) K rfl rfl).symm k) = ix2 a k :=
    funext fun x => Fin.ext (by
      match x with
      | ⟨0, _⟩ => exact mm_lhs0 wf _ _
      | ⟨1, _⟩ => exact ((mmDims M K N wf).lhsIdx_val_of_single rfl _ _).trans hk)
  have er : (mmDims M K N wf).rhsIdx (ix2 a c) ((contrEquiv1 (mmDims M K N wf) K rfl rfl).symm k) = ix2 k c :=
    funext fun x => Fin.ext (by
      match x with
      | ⟨0, _⟩ => exact ((mmDims M K N wf).rhsIdx_val_of_single rfl _ _).trans hk
      | ⟨1, _⟩ => exact mm_rhs1 wf _ _)
  rw [el, er]

end MatMul

/-! ## Broadcasts -/

section Broadcasts
variable {α : Type}

/-- A vector [c] as a row [1, c] and then as every row of [n, c] reads, at (p, q), the vector at q. -/
theorem bias_apply {n c : Nat} (h1 : (⟨1, ![c]⟩ : Shape).BroadcastsInDim ⟨2, ![1, c]⟩ ![1])
    (h2 : (⟨2, ![1, c]⟩ : Shape).BroadcastsInDim ⟨2, ![n, c]⟩ ![0, 1]) (b : (⟨1, ![c]⟩ : Shape).Idx → α) (p : Fin n) (q : Fin c) :
    broadcastInDim ⟨2, ![n, c]⟩ ![0, 1] h2 (broadcastInDim ⟨2, ![1, c]⟩ ![1] h1 b) (ix2 p q) = b (ix1 q) := by
  refine (broadcastInDim_apply ![0, 1] h2 _ (ix2 p q) (ix2 (0 : Fin 1) q) fun ax => ?_).trans
    (broadcastInDim_apply ![1] h1 b (ix2 (0 : Fin 1) q) (ix1 q) fun ax => ?_)
  · match ax with
    | ⟨0, _⟩ => rfl
    | ⟨1, _⟩ =>
      show q.val = if c = 1 then 0 else q.val
      split
      · have := q.isLt; omega
      · rfl
  · match ax with
    | ⟨0, _⟩ =>
      show q.val = if c = 1 then 0 else q.val
      split
      · have := q.isLt; omega
      · rfl

/-- A rank-zero array broadcast to any shape reads its one element at every index. -/
theorem scalar_apply {t : Shape} (h : (⟨0, ![]⟩ : Shape).BroadcastsInDim t ![]) (x : (⟨0, ![]⟩ : Shape).Idx → α) (j : t.Idx) :
    broadcastInDim t ![] h x j = x ix0 :=
  congrArg x (funext fun a => a.elim0)

end Broadcasts

end Cert.RefRead

end
-- ==== Proof.LibEdgeSum.lean ====
/-
  Sums over the edges of a graph, as a row gather followed by a scatter-add, over the extended reals.

  General facts, no program in them:
  * a nonnegative real factor passes through a finite sum of extended reals (`sum_mul_of_nonneg_of_ne_top`:
    the extended reals do not distribute in general, but (y + z)·c = y·c + z·c for 0 ≤ c < ⊤);
  * which operand element a ROW GATHER reads (operand [N, C], one start index per row e of the result [E, C]:
    row = the index read signed and clamped into [0, N − 1], column kept), and which a VECTOR gather reads
    (operand [N], result [E]);
  * where a ROW SCATTER puts an update row (operand [N, C], updates [E, C]): if update (e, c) lands at (n, c')
    then the scatter index of e, read signed, is n, and c = c' (an update whose index is outside lands nowhere);
  * the EDGE-SUM LAW (`edge_sum_law`): gathering rows already scaled by a per-row factor, summing them at their
    targets and scaling the target row by its factor equals gathering the unscaled rows, scaling each by the
    product of the source's and the target's factors, and summing — provided the factors are nonnegative reals
    and an edge that lands at row n reads the target factor at n.
-/
import Idealize.ShloMosaic.PureOps.Ideal
import Idealize.ShloMosaic.PureOps.Ideal.Laws
import Idealize.ShloMosaic.Lib.ValueIdx

noncomputable section

open scoped BigOperators

namespace Cert.EdgeSum

open Idealize.ShloMosaic Idealize.ShloMosaic.ValueIdx

/-! ## A nonnegative real factor and a finite sum -/

/-- (Σ f)·c = Σ (f·c) over the extended reals when 0 ≤ c < ⊤. -/
theorem sum_mul_of_nonneg_of_ne_top {ι : Type*} (s : Finset ι) (f : ι → EReal) {c : EReal} (h0 : 0 ≤ c) (ht : c ≠ ⊤) :
    (∑ j ∈ s, f j) * c = ∑ j ∈ s, f j * c := by
  classical
  induction s using Finset.induction_on with
  | empty => simp
  | insert a s ha ih =>
    rw [Finset.sum_insert ha, Finset.sum_insert ha, EReal.right_distrib_of_nonneg_of_ne_top h0 ht, ih]

/-! ## A row gather: operand [N, C], start indices [E, 1], result [E, C] -/

/-- The dimension numbers of `x[idx]` for a matrix `x : [N, C]` and a vector of E row indices kept as [E, 1]. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a row gather reads for result row `j 0`: the start index, signed, clamped into [0, N − 1]. -/
theorem rowGather_row {N E C w : Nat}
    (wf : GatherDims.WF ⟨2, ![N, C]⟩ ⟨2, ![E, 1]⟩ ⟨2, ![E, C]⟩ [1] [0] [] [0] [] 1 ![1, C])
    (j : (⟨2, ![E, C]⟩ : Shape).Idx) (idx : IVec ⟨2, ![E, 1]⟩ w) :
    (((rowGatherDims N E C wf).operandIdx j idx) 0).val
      = min (idx (ix2 (j 0) (0 : Fin 1))).toInt.toNat (N - 1) := by
  show (rowGatherDims N E C wf).start j idx 0 + (rowGatherDims N E C wf).batchCoord j 0
    + (rowGatherDims N E C wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N E C wf).startIndexMap from List.mem_singleton.mpr rfl)]
  have hsi : (rowGatherDims N E C wf).siIdx j ⟨List.idxOf (0 : Fin 2) (rowGatherDims N E C wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The column a row gather reads: the result's own column. -/
theorem rowGather_col {N E C w : Nat}
    (wf : GatherDims.WF ⟨2, ![N, C]⟩ ⟨2, ![E, 1]⟩ ⟨2, ![E, C]⟩ [1] [0] [] [0] [] 1 ![1, C])
    (j : (⟨2, ![E, C]⟩ : Shape).Idx) (idx : IVec ⟨2, ![E, 1]⟩ w) :
    (((rowGatherDims N E C wf).operandIdx j idx) 1).val = (j 1).val := by
  show (rowGatherDims N E C wf).start j idx 1 + (rowGatherDims N E C wf).batchCoord j 1
    + (rowGatherDims N E C wf).offCoord j 1 = _
  rw [GatherDims.batchCoord_eq_zero _ _ _ List.not_mem_nil]
  have hs : (rowGatherDims N E C wf).start j idx 1 = 0 := by
    unfold GatherDims.start
    rw [dif_neg (show ¬ (1 : Fin 2) ∈ [(0 : Fin 2)] by decide)]
  rw [hs]
  simp only [Nat.add_zero, Nat.zero_add]
  unfold GatherDims.offCoord
  rw [dif_pos (show (1 : Fin 2) ∈ (rowGatherDims N E C wf).sKept from
    (GatherDims.mem_sKept _ _).mpr ⟨(show ¬ (1 : Fin 2) ∈ [(0 : Fin 2)] by decide), List.not_mem_nil⟩)]
  rfl

/-! ## A vector gather: operand [N], start indices [E, 1], result [E] -/

/-- The dimension numbers of `v[idx]` for a vector `v : [N]` and E indices kept as [E, 1]. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The element a vector gather reads for result element `j 0`: the start index, signed, clamped into [0, N − 1]. -/
theorem vecGather_elt {N E w : Nat}
    (wf : GatherDims.WF ⟨1, ![N]⟩ ⟨2, ![E, 1]⟩ ⟨1, ![E]⟩ [] [0] [] [0] [] 1 ![1])
    (j : (⟨1, ![E]⟩ : Shape).Idx) (idx : IVec ⟨2, ![E, 1]⟩ w) :
    (((vecGatherDims N E wf).operandIdx j idx) 0).val
      = min (idx (ix2 (j 0) (0 : Fin 1))).toInt.toNat (N - 1) := by
  show (vecGatherDims N E wf).start j idx 0 + (vecGatherDims N E wf).batchCoord j 0
    + (vecGatherDims N E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx j ⟨List.idxOf (0 : Fin 1) (vecGatherDims N E wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-! ## A row scatter: operand [N, C], scatter indices [E, 1], updates [E, C] -/

/-- The dimension numbers of `x.at[idx].add(u)` for a matrix `x : [N, C]`, E row indices kept as [E, 1] and update
    rows `u : [E, C]`. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section RowScatter
variable {N E C w : Nat} (wf : ScatterDims.WF ⟨2, ![N, C]⟩ ⟨2, ![E, 1]⟩ ⟨2, ![E, C]⟩ [1] [0] [0] 1)
  (j : (⟨2, ![E, C]⟩ : Shape).Idx) (idx : IVec ⟨2, ![E, 1]⟩ w)

theorem rowScatter_start0 :
    (rowScatterDims N E C wf).start j idx 0 = (idx (ix2 (j 0) (0 : Fin 1))).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem rowScatter_window0 : (rowScatterDims N E C wf).window j 0 = 0 := by
  unfold ScatterDims.window
  rw [dif_neg (show ¬ (0 : Fin 2) ∈ (rowScatterDims N E C wf).sKept by simp [ScatterDims.sKept, Shape.kept])]

theorem rowScatter_start1 : (rowScatterDims N E C wf).start j idx 1 = 0 := by
  unfold ScatterDims.start
  rw [dif_neg (show ¬ (1 : Fin 2) ∈ [(0 : Fin 2)] by decide)]

theorem rowScatter_window1 : (rowScatterDims N E C wf).window j 1 = (j 1).val := by
  unfold ScatterDims.window
  rw [dif_pos (show (1 : Fin 2) ∈ (rowScatterDims N E C wf).sKept by simp [ScatterDims.sKept, Shape.kept])]
  rfl

/-- WHERE AN UPDATE LANDS: if update (e, c) lands at operand index `i`, the scatter index of row e, read signed,
    is `i`'s row, and the column is the update's own. -/
theorem rowScatter_lands (i : (⟨2, ![N, C]⟩ : Shape).Idx)
    (h : (rowScatterDims N E C wf).resultIdx? j idx = some i) :
    (idx (ix2 (j 0) (0 : Fin 1))).toInt = ((i 0).val : Int) ∧ (j 1).val = (i 1).val := by
  unfold ScatterDims.resultIdx? at h
  split at h
  · rename_i hall
    have hi := Option.some.inj h
    have h0 := congrArg Fin.val (congrFun hi 0)
    have h1 := congrArg Fin.val (congrFun hi 1)
    have a0 := hall 0
    have a1 := hall 1
    simp only [rowScatter_start0, rowScatter_window0, rowScatter_start1, rowScatter_window1] at h0 h1 a0 a1
    constructor
    · omega
    · omega
  · exact absurd h (by simp)

end RowScatter

/-! ## The normalising factor, and numpy's negative indices -/

/-- The f32 word of 1.0 denotes the real 1. -/
theorem one_word : Ideal.ofBits .f32 0x3F800000#32 = ((1 : ℝ) : EReal) := by
  simp [Ideal.ofBits, Ideal.ieee]
  norm_cast
  norm_num

/-- The inverse square root of anything bounded below by a positive quantity is a nonnegative real: the maximum is a
    positive real or +∞, whose inverse square roots are a nonnegative real and 0. -/
theorem rsqrt_max_nonneg (d one : EReal) (h1 : 0 < one) :
    0 ≤ Ideal.rsqrt (max d one) ∧ Ideal.rsqrt (max d one) ≠ ⊤ := by
  have hy : 0 < max d one := lt_max_of_lt_right h1
  generalize max d one = y at hy
  induction y using EReal.rec with
  | bot => exact absurd hy (by simp)
  | coe r =>
    have hr : 0 < r := by exact_mod_cast hy
    have e : Ideal.rsqrt (r : EReal) = (((Real.sqrt r)⁻¹ : ℝ) : EReal) := by
      show (if r < 0 then ⊥ else if r = 0 then ⊤ else (((Real.sqrt r)⁻¹ : ℝ) : EReal)) = _
      rw [if_neg (not_lt.mpr hr.le), if_neg hr.ne']
    rw [e]
    exact ⟨EReal.coe_nonneg.mpr (inv_nonneg.mpr (Real.sqrt_nonneg r)), EReal.coe_ne_top _⟩
  | top => exact ⟨le_of_eq rfl, by show (0 : EReal) ≠ ⊤; exact EReal.zero_ne_top⟩

/-- A 32-bit index whose signed value is a natural number n below N is left alone by "add N if negative", and
    clamping it into [0, N − 1] gives n back. -/
theorem wrap_clamp_of_toInt (N : Nat) (w : BitVec 32) (x : BitVec 32) (n : Nat) (hn : n < N) (hx : x.toInt = (n : Int)) :
    min (Scalar.select (IntOp.cmpi .slt x 0#32) (IntOp.addi x w) x).toInt.toNat (N - 1) = n := by
  have hs : IntOp.cmpi .slt x 0#32 = 0#1 := by
    show BitVec.ofBool (x.slt 0#32) = 0#1
    have : x.slt 0#32 = false := by
      rw [BitVec.slt_eq_decide]
      simp [hx]
    rw [this]; rfl
  rw [hs, select_zero, hx]
  simp only [Int.toNat_natCast]
  omega

/-! ## The edge-sum law -/

/-- THE EDGE-SUM LAW. `H` holds one row per node, `dis` one factor per node, a nonnegative real; `idxS` names the
    source row of each edge, `idxD` its target row as the scatter reads it (signed, dropped when outside) and `idxDw`
    its target row as a gather reads it (clamped); `hD`: whenever the scatter lands an edge at row n, the gather reads
    row n too. Then
        (Σ over edges landing at row i₀ of H[src]·dis[src]) · dis[i₀]
      = Σ over edges landing at row i₀ of H[src]·(dis[src]·dis[target]),
    entry by entry, both sums started from an all-zero array: the factor dis[i₀] is the same for every edge of the sum
    (`hD`), a nonnegative real passes through a finite sum of extended reals, and the product is associative. -/
theorem edge_sum_law {N E C : Nat}
    (wfg : GatherDims.WF ⟨2, ![N, C]⟩ ⟨2, ![E, 1]⟩ ⟨2, ![E, C]⟩ [1] [0] [] [0] [] 1 ![1, C])
    (wfv : GatherDims.WF ⟨1, ![N]⟩ ⟨2, ![E, 1]⟩ ⟨1, ![E]⟩ [] [0] [] [0] [] 1 ![1])
    (wfs : ScatterDims.WF ⟨2, ![N, C]⟩ ⟨2, ![E, 1]⟩ ⟨2, ![E, C]⟩ [1] [0] [0] 1)
    (H : (⟨2, ![N, C]⟩ : Shape).Idx → EReal) (dis : (⟨1, ![N]⟩ : Shape).Idx → EReal)
    (hdis : ∀ n, 0 ≤ dis n ∧ dis n ≠ ⊤)
    (Z : (⟨2, ![N, C]⟩ : Shape).Idx → EReal) (hZ : ∀ i, Z i = 0)
    (idxS idxD idxDw : IVec ⟨2, ![E, 1]⟩ 32)
    (hD : ∀ (e : Fin E) (n : Fin N), (idxD (ix2 e (0 : Fin 1))).toInt = (n.val : Int) →
        min (idxDw (ix2 e (0 : Fin 1))).toInt.toNat (N - 1) = n.val)
    (i : (⟨2, ![N, C]⟩ : Shape).Idx) :
    Ideal.hostScatterAdd (rowScatterDims N E C wfs) Z idxD
        (Host.gather (rowGatherDims N E C wfg) (fun r => H r * dis (ix1 (r 0))) idxS) i * dis (ix1 (i 0))
      = Ideal.hostScatterAdd (rowScatterDims N E C wfs) Z idxD
        (fun j => Host.gather (rowGatherDims N E C wfg) H idxS j
          * (Host.gather (vecGatherDims N E wfv) dis idxS (ix1 (j 0))
              * Host.gather (vecGatherDims N E wfv) dis idxDw (ix1 (j 0)))) i := by
  unfold Ideal.hostScatterAdd
  obtain ⟨h0, ht⟩ := hdis (ix1 (i 0))
  rw [hZ i, zero_add, zero_add, sum_mul_of_nonneg_of_ne_top _ _ h0 ht]
  refine Finset.sum_congr rfl fun j hj => ?_
  have hl := (Finset.mem_filter.mp hj).2
  obtain ⟨hrow, -⟩ := rowScatter_lands wfs j idxD i hl
  have e1 : ix1 (((rowGatherDims N E C wfg).operandIdx j idxS) 0)
      = (vecGatherDims N E wfv).operandIdx (ix1 (j 0)) idxS := funext fun a => Fin.ext (by
    match a with
    | ⟨0, _⟩ => exact (rowGather_row wfg j idxS).trans (vecGather_elt wfv (ix1 (j 0)) idxS).symm)
  have e2 : ix1 (i 0) = (vecGatherDims N E wfv).operandIdx (ix1 (j 0)) idxDw := funext fun a => Fin.ext (by
    match a with
    | ⟨0, _⟩ => exact ((vecGather_elt wfv (ix1 (j 0)) idxDw).trans (hD (j 0) (i 0) hrow)).symm)
  show H ((rowGatherDims N E C wfg).operandIdx j idxS)
        * dis (ix1 (((rowGatherDims N E C wfg).operandIdx j idxS) 0)) * dis (ix1 (i 0))
      = H ((rowGatherDims N E C wfg).operandIdx j idxS)
        * (dis ((vecGatherDims N E wfv).operandIdx (ix1 (j 0)) idxS)
            * dis ((vecGatherDims N E wfv).operandIdx (ix1 (j 0)) idxDw))
  rw [mul_assoc]
  exact congrArg (H ((rowGatherDims N E C wfg).operandIdx j idxS) * ·)
    (congrArg₂ (· * ·) (congrArg dis e1) (congrArg dis e2))

/-- The same law with the sum written as the host's accumulating scatter at the ideal instance (it is that sum). -/
theorem edge_sum_law_host {N E C : Nat}
    (wfg : GatherDims.WF ⟨2, ![N, C]⟩ ⟨2, ![E, 1]⟩ ⟨2, ![E, C]⟩ [1] [0] [] [0] [] 1 ![1, C])
    (wfv : GatherDims.WF ⟨1, ![N]⟩ ⟨2, ![E, 1]⟩ ⟨1, ![E]⟩ [] [0] [] [0] [] 1 ![1])
    (wfs : ScatterDims.WF ⟨2, ![N, C]⟩ ⟨2, ![E, 1]⟩ ⟨2, ![E, C]⟩ [1] [0] [0] 1)
    (H : (⟨2, ![N, C]⟩ : Shape).Idx → EReal) (dis : (⟨1, ![N]⟩ : Shape).Idx → EReal)
    (hdis : ∀ n, 0 ≤ dis n ∧ dis n ≠ ⊤)
    (Z : (⟨2, ![N, C]⟩ : Shape).Idx → EReal) (hZ : ∀ i, Z i = 0)
    (idxS idxD idxDw : IVec ⟨2, ![E, 1]⟩ 32)
    (hD : ∀ (e : Fin E) (n : Fin N), (idxD (ix2 e (0 : Fin 1))).toInt = (n.val : Int) →
        min (idxDw (ix2 e (0 : Fin 1))).toInt.toNat (N - 1) = n.val)
    (i : (⟨2, ![N, C]⟩ : Shape).Idx) :
    (Host.scatterAdd (F := Ideal) (φ := .f32) (rowScatterDims N E C wfs) Z idxD
        (Host.gather (α := EReal) (rowGatherDims N E C wfg) (fun r => H r * dis (ix1 (r 0))) idxS) i : EReal)
        * dis (ix1 (i 0))
      = Host.scatterAdd (F := Ideal) (φ := .f32) (rowScatterDims N E C wfs) Z idxD
        (fun j => Host.gather (α := EReal) (rowGatherDims N E C wfg) H idxS j
          * (Host.gather (α := EReal) (vecGatherDims N E wfv) dis idxS (ix1 (j 0))
              * Host.gather (α := EReal) (vecGatherDims N E wfv) dis idxDw (ix1 (j 0)))) i :=
  edge_sum_law wfg wfv wfs H dis hdis Z hZ idxS idxD idxDw hD i

end Cert.EdgeSum

end
-- ==== Proof.RefPoint.lean ====
/-
  The reference's stages read at an index, over the extended reals: each whole-array stage term at (row, column) is
  the shared row-level function of the stage's operands at that row.
-/
import proofs.«125175_j46377056862932_2_alg».proof.Proof.RefTerms
import proofs.«125175_j46377056862932_2_alg».proof.Proof.RefRead
import proofs.«125175_j46377056862932_2_alg».proof.Proof.LibKeepdims
import proofs.«125175_j46377056862932_2_alg».proof.Proof.LibEdgeSum
import proofs.«125175_j46377056862932_2_alg».proof.Proof.Spec
import Idealize.ShloMosaic.Lib.ValueLayout

noncomputable section

namespace Cert.ReferenceIdeal.RefValue

open Cert.ReferenceIdeal Cert.ReferenceIdeal.Gen Idealize.ShloMosaic Idealize.ShloMosaic.TcCoe Idealize.SL.Sem
open Idealize.ShloMosaic.StableHlo Idealize.ShloMosaic.ValueIdx
open Cert.Spec (A1 A2 zeroW oneW slopeW lrelu dinvOf gate mix xn xa hid cls lo hi)
open Cert.RefRead
open scoped BigOperators

/-! ## The operations at an index -/

theorem dot256_apply (l : A2 50000 256) (r : A2 256 128) (a : Fin 50000) (c : Fin 128) :
    Host.dotGeneral (F := Ideal) (φ₁ := .f32) (φ₂ := .f32) dot_S50000x256_S256x128_S50000x128_1_0_0_1_n_n none l r (ix2 a c)
      = ∑ k : Fin 256, l (ix2 a k) * r (ix2 k c) :=
  mm_apply dot_S50000x256_S256x128_S50000x128_1_0_0_1_n_n_wf l r a c
theorem dot64_apply (l : A2 50000 64) (r : A2 64 128) (a : Fin 50000) (c : Fin 128) :
    Host.dotGeneral (F := Ideal) (φ₁ := .f32) (φ₂ := .f32) dot_S50000x64_S64x128_S50000x128_1_0_0_1_n_n none l r (ix2 a c)
      = ∑ k : Fin 64, l (ix2 a k) * r (ix2 k c) :=
  mm_apply dot_S50000x64_S64x128_S50000x128_1_0_0_1_n_n_wf l r a c
theorem dotE128_apply (l : A2 850000 128) (r : A2 128 128) (a : Fin 850000) (c : Fin 128) :
    Host.dotGeneral (F := Ideal) (φ₁ := .f32) (φ₂ := .f32) dot_S850000x128_S128x128_S850000x128_1_0_0_1_n_n none l r (ix2 a c)
      = ∑ k : Fin 128, l (ix2 a k) * r (ix2 k c) :=
  mm_apply dot_S850000x128_S128x128_S850000x128_1_0_0_1_n_n_wf l r a c
theorem dotE1_apply (l : A2 850000 128) (r : A2 128 1) (a : Fin 850000) (c : Fin 1) :
    Host.dotGeneral (F := Ideal) (φ₁ := .f32) (φ₂ := .f32) dot_S850000x128_S128x1_S850000x1_1_0_0_1_n_n none l r (ix2 a c)
      = ∑ k : Fin 128, l (ix2 a k) * r (ix2 k c) :=
  mm_apply dot_S850000x128_S128x1_S850000x1_1_0_0_1_n_n_wf l r a c
theorem dotU_apply (l : A2 50000 128) (r : A2 128 128) (a : Fin 50000) (c : Fin 128) :
    Host.dotGeneral (F := Ideal) (φ₁ := .f32) (φ₂ := .f32) dot_S50000x128_S128x128_S50000x128_1_0_0_1_n_n none l r (ix2 a c)
      = ∑ k : Fin 128, l (ix2 a k) * r (ix2 k c) :=
  mm_apply dot_S50000x128_S128x128_S50000x128_1_0_0_1_n_n_wf l r a c
theorem dotO_apply (l : A2 50000 128) (r : A2 128 2) (a : Fin 50000) (c : Fin 2) :
    Host.dotGeneral (F := Ideal) (φ₁ := .f32) (φ₂ := .f32) dot_S50000x128_S128x2_S50000x2_1_0_0_1_n_n none l r (ix2 a c)
      = ∑ k : Fin 128, l (ix2 a k) * r (ix2 k c) :=
  mm_apply dot_S50000x128_S128x2_S50000x2_1_0_0_1_n_n_wf l r a c

theorem biasN_apply (b : A1 128) (p : Fin 50000) (q : Fin 128) : biasN b (ix2 p q) = b (ix1 q) :=
  bias_apply bcast_S128_S1x128_1 bcast_S1x128_S50000x128_0_1 b p q
theorem biasE_apply (b : A1 128) (p : Fin 850000) (q : Fin 128) : biasE b (ix2 p q) = b (ix1 q) :=
  bias_apply bcast_S128_S1x128_1 bcast_S1x128_S850000x128_0_1 b p q
theorem biasO_apply (b : A1 2) (p : Fin 50000) (q : Fin 2) : biasO b (ix2 p q) = b (ix1 q) :=
  bias_apply bcast_S2_S1x2_1 bcast_S1x2_S50000x2_0_1 b p q

/-- The word of 1.0 is the extended real 1. -/
theorem oneW_eq : oneW = (1 : EReal) := Cert.EdgeSum.one_word.trans EReal.coe_one

/-- The rectifier on an array, at an index, is the rectifier of the entry. -/
theorem lreluV_apply (t : A2 50000 128) (r : S50000x128.Idx) : lreluV t r = lrelu (t r) := rfl

/-- The host's elementwise functions at an index. -/
theorem hostTanh_apply {s : Shape} (v : FVec Ideal s .f32) (i : s.Idx) : Host.tanh v i = Ideal.tanh (v i) := rfl
theorem hostExp_apply {s : Shape} (v : FVec Ideal s .f32) (i : s.Idx) : Host.exp v i = Ideal.exp (v i) := rfl
theorem hostNegf_apply {s : Shape} (v : FVec Ideal s .f32) (i : s.Idx) : Host.negf v i = -(v i) := rfl
theorem hostDivf_apply {s : Shape} (u v : FVec Ideal s .f32) (i : s.Idx) : Host.divf u v i = Ideal.div (u i) (v i) := rfl
theorem one_apply {t : Shape} (h : S_.BroadcastsInDim t ![]) (j : t.Idx) : broadcastInDim t ![] h c1 j = oneW :=
  scalar_apply h c1 j

/-! ## The node stages -/

/-- The hidden rows are the shared hidden row function. -/
theorem hidV_eq (x : A2 50000 256) (w : A2 256 128) (b : A1 128) : hidV x w b = hid x w b := by
  funext r
  obtain ⟨p, q, rfl⟩ : ∃ (p : Fin 50000) (q : Fin 128), r = ix2 p q := ⟨r 0, r 1, eq_ix2 r⟩
  unfold hidV
  rw [lreluV_apply, addf_apply, dot256_apply, biasN_apply]
  rfl

/-- The first projection reads the first 64 columns of the hidden rows. -/
theorem xnV_eq (H : A2 50000 128) (w : A2 64 128) (b : A1 128) : xnV H w b = xn H w b := by
  funext r
  obtain ⟨p, q, rfl⟩ : ∃ (p : Fin 50000) (q : Fin 128), r = ix2 p q := ⟨r 0, r 1, eq_ix2 r⟩
  unfold xnV
  rw [addf_apply, dot64_apply, biasN_apply]
  refine congrArg (· + b (ix1 q)) (Finset.sum_congr rfl fun k _ => ?_)
  rw [slice2_axis1_apply 0 H slices_S50000x128_S50000x64_0_0 p k (lo k) (Nat.zero_add _).symm]

/-- The second projection reads the last 64 columns. -/
theorem xaV_eq (H : A2 50000 128) (w : A2 64 128) (b : A1 128) : xaV H w b = xa H w b := by
  funext r
  obtain ⟨p, q, rfl⟩ : ∃ (p : Fin 50000) (q : Fin 128), r = ix2 p q := ⟨r 0, r 1, eq_ix2 r⟩
  unfold xaV
  rw [addf_apply, dot64_apply, biasN_apply]
  refine congrArg (· + b (ix1 q)) (Finset.sum_congr rfl fun k _ => ?_)
  rw [slice2_axis1_apply 64 H slices_S50000x128_S50000x64_0_64 p k (hi k) rfl]

/-- The degree from the target vector is the degree as named. -/
theorem degV_colVec (a1 : IVec S2x800000 32) : degV (colVec a1) = degR a1 := rfl

/-- The inverse square root stage at a node. -/
theorem dinvV_apply (d : A1 50000) (n : S50000.Idx) : dinvV d n = dinvOf (d n) := rfl

/-! ## The edge stages -/

/-- The gate column at an edge is the shared gate of the edge's two gathered rows. -/
theorem gateV_apply (P Q : A2 850000 128) (w : A2 128 128) (b : A1 128) (v : A2 128 1) (e : Fin 850000) :
    gateV P Q w b v (ix2 e (0 : Fin 1)) = gate w b v (fun k => P (ix2 e k)) (fun k => Q (ix2 e k)) := by
  unfold gateV
  rw [hostDivf_apply, addf_apply, one_apply, hostExp_apply, hostNegf_apply, dotE1_apply]
  simp only [hostTanh_apply, addf_apply, dotE128_apply, biasE_apply]
  unfold gate Ideal.logistic
  rw [oneW_eq]

/-- The message at (edge, channel): the factor times the mix of the two gathered rows under the gate. -/
theorem msgV_apply (nrm : A1 850000) (P Q : A2 850000 128) (g : A2 850000 1) (e : Fin 850000) (c : Fin 128) :
    msgV nrm P Q g (ix2 e c)
      = nrm (ix1 e) * (g (ix2 e (0 : Fin 1)) * P (ix2 e c) + (oneW - g (ix2 e (0 : Fin 1))) * Q (ix2 e c)) := by
  unfold msgV
  rw [mulf_apply, addf_apply, mulf_apply, mulf_apply,
    Cert.Gcn.broadcastInDim_a1_ab_apply bcast_S850000x1_S850000x128_0_1 (broadcastInDim S850000x1 ![0] bcast_S850000_S850000x1_0 nrm) e c,
    Cert.Gcn.broadcastInDim_a_a1_apply bcast_S850000_S850000x1_0 nrm e (0 : Fin 1),
    Cert.Gcn.broadcastInDim_a1_ab_apply bcast_S850000x1_S850000x128_0_1 g e c,
    Cert.Gcn.broadcastInDim_a1_ab_apply bcast_S850000x1_S850000x128_0_1
      (subf (F := Ideal) (φ := .f32) (broadcastInDim S850000x1 ![] bcast_S_S850000x1 c1) g) e c,
    subf_apply, one_apply]

/-- The message array, entry by entry, as the summed-rows stage spells its updates: the product of the two gathered
    factors times the mix of the edge's two gathered rows. -/
theorem msg_eq (d : A1 50000) (XN XA : A2 50000 128) (r c : IVec S850000 32) (w : A2 128 128) (b : A1 128) (v : A2 128 1) :
    msgV (mulf (F := Ideal) (φ := .f32) (gSrcV d r) (gSrcV d c)) (rowsV XN r) (rowsV XA r) (gateV (rowsV XN r) (rowsV XA r) w b v)
      = fun j =>
        (Host.gather gather_S50000_S850000x1_S850000_n_0_n_n_0_1_1 d (wrapCol r) (ix1 (j 0))
          * Host.gather gather_S50000_S850000x1_S850000_n_0_n_n_0_1_1 d (wrapCol c) (ix1 (j 0)))
        * mix w b v
            (fun k => Host.gather gather_S50000x128_S850000x1_S850000x128_1_0_n_n_0_1_1128 XN (wrapCol r) (ix2 (j 0) k))
            (fun k => Host.gather gather_S50000x128_S850000x1_S850000x128_1_0_n_n_0_1_1128 XA (wrapCol r) (ix2 (j 0) k)) (j 1) := by
  funext j
  obtain ⟨e, q, rfl⟩ : ∃ (e : Fin 850000) (q : Fin 128), j = ix2 e q := ⟨j 0, j 1, eq_ix2 j⟩
  rw [msgV_apply, gateV_apply]
  rfl

/-- The summed rows of that message array are the summed messages as named. -/
theorem aggV_eq (a1 : IVec S2x800000 32) (XN XA : A2 50000 128) (w : A2 128 128) (b : A1 128) (v : A2 128 1) :
    aggV (colVec a1)
        (msgV (mulf (F := Ideal) (φ := .f32) (gSrcV (fun n => dinvOf (degR a1 n)) (rowVec a1)) (gSrcV (fun n => dinvOf (degR a1 n)) (colVec a1)))
          (rowsV XN (rowVec a1)) (rowsV XA (rowVec a1)) (gateV (rowsV XN (rowVec a1)) (rowsV XA (rowVec a1)) w b v))
      = aggR a1 XN XA w b v := by
  rw [msg_eq]
  rfl

/-! ## The head -/

/-- The head at (node, class) is the shared head of the node's summed row. -/
theorem headV_apply (a : A2 50000 128) (wu : A2 128 128) (bu : A1 128) (wc : A2 128 2) (bc : A1 2) (p : Fin 50000) (o : Fin 2) :
    headV a wu bu wc bc (ix2 p o) = cls wu bu wc bc (fun c => a (ix2 p c)) o := by
  unfold headV
  rw [addf_apply, dotO_apply, biasO_apply]
  simp only [lreluV_apply, addf_apply, dotU_apply, biasN_apply]
  rfl

end Cert.ReferenceIdeal.RefValue

end
-- ==== Proof.RefValue.lean ====
/-
  The reference program's value: after its two windows the result buffer holds, entry by entry, the shared head
  of the summed messages of the shared row functions of the arguments.

  Window 0 leaves the hidden rows, their two projections, the degree and its inverse square root and the two gathered
  factors; window 1, from those, the per-edge factor, the gathered rows, the gate, the message, the summed rows and the
  head. Each stage's buffer is the stage's term of the buffers it reads, and each term read at an index is the shared
  row-level function.
-/
import proofs.«125175_j46377056862932_2_alg».proof.Proof.RefStage0
import proofs.«125175_j46377056862932_2_alg».proof.Proof.RefStage1
import proofs.«125175_j46377056862932_2_alg».proof.Proof.RefArgs
import proofs.«125175_j46377056862932_2_alg».proof.Proof.RefPoint
import Idealize.ShloMosaic.Lib.Pipeline.Frame

noncomputable section

namespace Cert.ReferenceIdeal.RefValue

open Cert.ReferenceIdeal Cert.ReferenceIdeal.Gen Idealize.ShloMosaic Idealize.ShloMosaic.TcCoe Idealize.SL.Sem
open Idealize.ShloMosaic.StableHlo Idealize.ShloMosaic.ValueIdx
open Cert.Spec (A1 A2)

section
variable (V : Valuation τ sig (Elt Ideal))

/-! ## Window 0 over the arguments -/

theorem v14_eq : (after RefOps.ops0 V (main_v14 : DevRef τ sig) : A2 50000 128) = (Cert.Spec.hid (V (main_arg0 : DevRef τ sig)) (V (main_arg2 : DevRef τ sig)) (V (main_arg3 : DevRef τ sig))) := by
  rw [w0_v14, hidV_eq]

theorem v19_eq : (after RefOps.ops0 V (main_v19 : DevRef τ sig) : A2 50000 128) = (Cert.Spec.xn (Cert.Spec.hid (V (main_arg0 : DevRef τ sig)) (V (main_arg2 : DevRef τ sig)) (V (main_arg3 : DevRef τ sig))) (V (main_arg4 : DevRef τ sig)) (V (main_arg5 : DevRef τ sig))) := by
  rw [w0_v19, v14_eq, xnV_eq]

theorem v24_eq : (after RefOps.ops0 V (main_v24 : DevRef τ sig) : A2 50000 128) = (Cert.Spec.xa (Cert.Spec.hid (V (main_arg0 : DevRef τ sig)) (V (main_arg2 : DevRef τ sig)) (V (main_arg3 : DevRef τ sig))) (V (main_arg6 : DevRef τ sig)) (V (main_arg7 : DevRef τ sig))) := by
  rw [w0_v24, v14_eq, xaV_eq]

theorem v28_eq : (after RefOps.ops0 V (main_v28 : DevRef τ sig) : A1 50000) = degR (V (main_arg1 : DevRef τ sig)) := by
  rw [w0_v28, w0_v9, degV_colVec]

theorem v35_eq : (after RefOps.ops0 V (main_v35 : DevRef τ sig) : A1 50000) = (fun n => Cert.Spec.dinvOf (degR (V (main_arg1 : DevRef τ sig)) n)) := by
  rw [w0_v35, v28_eq]
  funext n
  exact dinvV_apply _ n

theorem v42_eq : (after RefOps.ops0 V (main_v42 : DevRef τ sig) : A1 850000) = gSrcV (fun n => Cert.Spec.dinvOf (degR (V (main_arg1 : DevRef τ sig)) n)) (rowVec (V (main_arg1 : DevRef τ sig))) := by
  rw [w0_v42, v35_eq, w0_v7]

theorem v49_eq : (after RefOps.ops0 V (main_v49 : DevRef τ sig) : A1 850000) = gSrcV (fun n => Cert.Spec.dinvOf (degR (V (main_arg1 : DevRef τ sig)) n)) (colVec (V (main_arg1 : DevRef τ sig))) := by
  rw [w0_v49, v35_eq, w0_v9]

/-! ## Window 1 over the arguments -/

theorem v57_eq : (after RefOps.ops1 (after RefOps.ops0 V) (main_v57 : DevRef τ sig) : A2 850000 128) = rowsV (Cert.Spec.xn (Cert.Spec.hid (V (main_arg0 : DevRef τ sig)) (V (main_arg2 : DevRef τ sig)) (V (main_arg3 : DevRef τ sig))) (V (main_arg4 : DevRef τ sig)) (V (main_arg5 : DevRef τ sig))) (rowVec (V (main_arg1 : DevRef τ sig))) := by
  rw [w1_v57, v19_eq, w0_v7]

theorem v64_eq : (after RefOps.ops1 (after RefOps.ops0 V) (main_v64 : DevRef τ sig) : A2 850000 128) = rowsV (Cert.Spec.xa (Cert.Spec.hid (V (main_arg0 : DevRef τ sig)) (V (main_arg2 : DevRef τ sig)) (V (main_arg3 : DevRef τ sig))) (V (main_arg6 : DevRef τ sig)) (V (main_arg7 : DevRef τ sig))) (rowVec (V (main_arg1 : DevRef τ sig))) := by
  rw [w1_v64, v24_eq, w0_v7]

theorem v50_eq : (after RefOps.ops1 (after RefOps.ops0 V) (main_v50 : DevRef τ sig) : A1 850000)
    = mulf (F := Ideal) (φ := .f32) (gSrcV (fun n => Cert.Spec.dinvOf (degR (V (main_arg1 : DevRef τ sig)) n)) (rowVec (V (main_arg1 : DevRef τ sig)))) (gSrcV (fun n => Cert.Spec.dinvOf (degR (V (main_arg1 : DevRef τ sig)) n)) (colVec (V (main_arg1 : DevRef τ sig)))) := by
  rw [w1_v50, v42_eq, v49_eq]

theorem v77_eq : (after RefOps.ops1 (after RefOps.ops0 V) (main_v77 : DevRef τ sig) : A2 850000 1)
    = gateV (rowsV (Cert.Spec.xn (Cert.Spec.hid (V (main_arg0 : DevRef τ sig)) (V (main_arg2 : DevRef τ sig)) (V (main_arg3 : DevRef τ sig))) (V (main_arg4 : DevRef τ sig)) (V (main_arg5 : DevRef τ sig))) (rowVec (V (main_arg1 : DevRef τ sig)))) (rowsV (Cert.Spec.xa (Cert.Spec.hid (V (main_arg0 : DevRef τ sig)) (V (main_arg2 : DevRef τ sig)) (V (main_arg3 : DevRef τ sig))) (V (main_arg6 : DevRef τ sig)) (V (main_arg7 : DevRef τ sig))) (rowVec (V (main_arg1 : DevRef τ sig)))) (V (main_arg8 : DevRef τ sig)) (V (main_arg9 : DevRef τ sig)) (V (main_arg10 : DevRef τ sig)) := by
  rw [w1_v77, v57_eq, v64_eq, w0_arg8, w0_arg9, w0_arg10]

theorem v90_eq : (after RefOps.ops1 (after RefOps.ops0 V) (main_v90 : DevRef τ sig) : A2 50000 128)
    = aggR (V (main_arg1 : DevRef τ sig)) (Cert.Spec.xn (Cert.Spec.hid (V (main_arg0 : DevRef τ sig)) (V (main_arg2 : DevRef τ sig)) (V (main_arg3 : DevRef τ sig))) (V (main_arg4 : DevRef τ sig)) (V (main_arg5 : DevRef τ sig))) (Cert.Spec.xa (Cert.Spec.hid (V (main_arg0 : DevRef τ sig)) (V (main_arg2 : DevRef τ sig)) (V (main_arg3 : DevRef τ sig))) (V (main_arg6 : DevRef τ sig)) (V (main_arg7 : DevRef τ sig))) (V (main_arg8 : DevRef τ sig)) (V (main_arg9 : DevRef τ sig)) (V (main_arg10 : DevRef τ sig)) := by
  rw [w1_v90, w1_v87, v50_eq, v57_eq, v64_eq, v77_eq, w0_v9, aggV_eq]

/-! ## The result -/

/-- The result buffer, entry by entry: the head of the node's summed messages. -/
theorem out_eq (i : S50000x2.Idx) :
    (StableHlo.after (RefOps.ops0 ++ RefOps.ops1) V (main_v99 : DevRef τ sig) : S50000x2.Idx → EReal) i
      = Cert.Spec.cls (V (main_arg11 : DevRef τ sig)) (V (main_arg12 : DevRef τ sig)) (V (main_arg13 : DevRef τ sig)) (V (main_arg14 : DevRef τ sig))
          (fun c => aggR (V (main_arg1 : DevRef τ sig)) (Cert.Spec.xn (Cert.Spec.hid (V (main_arg0 : DevRef τ sig)) (V (main_arg2 : DevRef τ sig)) (V (main_arg3 : DevRef τ sig))) (V (main_arg4 : DevRef τ sig)) (V (main_arg5 : DevRef τ sig)))
            (Cert.Spec.xa (Cert.Spec.hid (V (main_arg0 : DevRef τ sig)) (V (main_arg2 : DevRef τ sig)) (V (main_arg3 : DevRef τ sig))) (V (main_arg6 : DevRef τ sig)) (V (main_arg7 : DevRef τ sig))) (V (main_arg8 : DevRef τ sig)) (V (main_arg9 : DevRef τ sig)) (V (main_arg10 : DevRef τ sig)) (ix2 (i 0) c)) (i 1) := by
  obtain ⟨p, o, rfl⟩ : ∃ (p : Fin 50000) (o : Fin 2), i = ix2 p o := ⟨i 0, i 1, eq_ix2 i⟩
  rw [StableHlo.after_append, w1_v99, v90_eq, w0_arg11, w0_arg12, w0_arg13, w0_arg14, headV_apply]

end

end Cert.ReferenceIdeal.RefValue

end
-- ==== Proof.KIdx.lean ====
/-
  The edge index vectors read entry by entry. The table of 850000 edges is the given 800000 pairs followed by the
  50000 self loops (n, n); so entry e of the source vector is edge_index[0, e] for e < 800000 and e − 800000 from there on,
  and likewise the targets with row 1. When every given entry lies in [0, 50000) so does every entry of both vectors,
  and then adding 50000 to the negative entries changes nothing.
-/
import proofs.«125175_j46377056862932_2_alg».proof.Proof.KDefs
import Idealize.ShloMosaic.Lib.Pipeline.Value
import Idealize.ShloMosaic.Lib.ValueLayout

noncomputable section

namespace Cert.KernelIdeal.KValue

open Cert.KernelIdeal Cert.KernelIdeal.Gen Idealize.ShloMosaic Idealize.ShloMosaic.ValueIdx

/-- Entry (k, n) of the self-loop table is n. -/
theorem loops_apply (k : Fin 2) (n : Fin 50000) : loops (ix2 k n) = BitVec.ofNat 32 n.val := by
  unfold loops
  rw [shapeCast_apply _ _ (ix2 k n) (ix4 k (0 : Fin 1) (0 : Fin 1) n) (by
    rw [Shape.rowMajor_val_four, Shape.rowMajor_val_two]
    show ((k.val * 1 + 0) * 1 + 0) * 50000 + n.val = k.val * 50000 + n.val
    omega)]
  rw [broadcastInDim_apply _ _ _ (ix4 k (0 : Fin 1) (0 : Fin 1) n) (ix4 (0 : Fin 1) (0 : Fin 1) (0 : Fin 1) n) (by
    intro a
    match a with
    | ⟨0, _⟩ => rfl
    | ⟨1, _⟩ => rfl
    | ⟨2, _⟩ => rfl
    | ⟨3, _⟩ => rfl)]
  rw [shapeCast_apply _ _ (ix4 (0 : Fin 1) (0 : Fin 1) (0 : Fin 1) n) (ix2 (0 : Fin 1) n) (by
    rw [Shape.rowMajor_val_four, Shape.rowMajor_val_two]
    show 0 * 50000 + n.val = ((0 * 1 + 0) * 1 + 0) * 50000 + n.val
    omega)]
  rw [broadcastInDim_apply _ _ _ (ix2 (0 : Fin 1) n) (ix1 n) (by
    intro a
    match a with
    | ⟨0, _⟩ => rfl)]
  rfl

/-- Row k of the edge table: the given pair's entry for e < 800000. -/
theorem allEdges_left (a1 : IVec S2x800000 32) (k : Fin 2) (e : Fin 850000) (h : e.val < 800000) :
    allEdges a1 (ix2 k e) = a1 (ix2 k (⟨e.val, h⟩ : Fin 800000)) := by
  unfold allEdges
  exact concatenate_pair_apply_left (1 : Fin 2) a1 loops _ (ix2 k e) rfl (ix2 k (⟨e.val, h⟩ : Fin 800000)) (by
    intro b
    match b with
    | ⟨0, _⟩ => rfl
    | ⟨1, _⟩ => rfl)

/-- Row k of the edge table: the self loop e − 800000 from 800000 on. -/
theorem allEdges_right (a1 : IVec S2x800000 32) (k : Fin 2) (e : Fin 850000) (h : 800000 ≤ e.val) :
    allEdges a1 (ix2 k e) = BitVec.ofNat 32 (e.val - 800000) := by
  unfold allEdges
  have hlt : e.val - 800000 < 50000 := by have := e.isLt; omega
  refine Eq.trans (concatenate_pair_apply_right (t := S2x850000) (s₁ := S2x800000) (s₂ := S2x50000) (1 : Fin 2) a1 loops
    concatenates_S2x800000_S2x50000_S2x850000_d1 (ix2 k e) rfl rfl (ix2 k (⟨e.val - 800000, hlt⟩ : Fin 50000))
    (fun b hb => by
      have hb1 : b.val ≠ 1 := fun h1 => hb (Fin.ext h1)
      have hb2 : b.val < 2 := b.isLt
      have hb0 : b = ⟨0, by decide⟩ := Fin.ext (by show b.val = 0; omega)
      subst hb0; rfl)
    (Nat.sub_add_cancel h)) (loops_apply k _)

theorem rowVec_apply (a1 : IVec S2x800000 32) (e : Fin 850000) : rowVec a1 (ix1 e) = allEdges a1 (ix2 (0 : Fin 2) e) := by
  unfold rowVec
  rw [shapeCast_1a_a_apply]
  exact slice2_axis0_apply 0 (allEdges a1) _ (0 : Fin 1) e (0 : Fin 2) rfl

theorem colVec_apply (a1 : IVec S2x800000 32) (e : Fin 850000) : colVec a1 (ix1 e) = allEdges a1 (ix2 (1 : Fin 2) e) := by
  unfold colVec
  rw [shapeCast_1a_a_apply]
  exact slice2_axis0_apply 1 (allEdges a1) _ (0 : Fin 1) e (1 : Fin 2) rfl

/-- Every given entry is a node number. -/
def InRange (a1 : IVec S2x800000 32) : Prop := ∀ j : S2x800000.Idx, ∃ n : Fin 50000, (a1 j).toInt = (n.val : Int)

theorem ofNat_toInt (n : Nat) (h : n < 50000) : (BitVec.ofNat 32 n).toInt = (n : Int) := by
  have h1 : (BitVec.ofNat 32 n).toNat = n := by rw [BitVec.toNat_ofNat]; exact Nat.mod_eq_of_lt (by omega)
  rw [BitVec.toInt_eq_toNat_cond, h1, if_pos (by omega)]

/-- Every entry of the table with the loops appended is a node number. -/
theorem allEdges_inRange (a1 : IVec S2x800000 32) (hin : InRange a1) (k : Fin 2) (e : Fin 850000) :
    ∃ n : Fin 50000, (allEdges a1 (ix2 k e)).toInt = (n.val : Int) := by
  by_cases h : e.val < 800000
  · rw [allEdges_left a1 k e h]; exact hin _
  · have h' : 800000 ≤ e.val := Nat.le_of_not_lt h
    have hlt : e.val - 800000 < 50000 := by have := e.isLt; omega
    rw [allEdges_right a1 k e h']
    exact ⟨⟨e.val - 800000, hlt⟩, ofNat_toInt _ hlt⟩

theorem rowVec_inRange (a1 : IVec S2x800000 32) (hin : InRange a1) (e : Fin 850000) :
    ∃ n : Fin 50000, (rowVec a1 (ix1 e)).toInt = (n.val : Int) := by
  rw [rowVec_apply]; exact allEdges_inRange a1 hin _ e

theorem colVec_inRange (a1 : IVec S2x800000 32) (hin : InRange a1) (e : Fin 850000) :
    ∃ n : Fin 50000, (colVec a1 (ix1 e)).toInt = (n.val : Int) := by
  rw [colVec_apply]; exact allEdges_inRange a1 hin _ e

/-- The column of start indices reads the vector's entry. -/
theorem rawCol_apply (v : IVec S850000 32) (e : Fin 850000) : rawCol v (ix2 e (0 : Fin 1)) = v (ix1 e) := by
  unfold rawCol
  exact broadcastInDim_apply _ _ _ (ix2 e (0 : Fin 1)) (ix1 e) (by
    intro a
    match a with
    | ⟨0, _⟩ => rfl)

/-- On a vector of node numbers, adding 50000 to the negative entries changes nothing. -/
theorem wrapCol_eq_rawCol (v : IVec S850000 32) (hv : ∀ e : Fin 850000, ∃ n : Fin 50000, (v (ix1 e)).toInt = (n.val : Int)) :
    wrapCol v = rawCol v := by
  unfold wrapCol rawCol
  refine congrArg _ (funext fun j => ?_)
  obtain ⟨n, hn⟩ := hv (j 0)
  have hn' : (v j).toInt = (n.val : Int) := (congrArg (fun x => (v x).toInt) (eq_ix1 j)).trans hn
  show Scalar.select (IntOp.cmpi .slt (v j) 0#32) (IntOp.addi (v j) 50000#32) (v j) = v j
  have hs : IntOp.cmpi .slt (v j) 0#32 = 0#1 := by
    show BitVec.ofBool ((v j).slt 0#32) = 0#1
    have : (v j).slt 0#32 = false := by
      rw [BitVec.slt_eq_decide]
      simp [hn']
    rw [this]; rfl
  rw [hs, select_zero]

end Cert.KernelIdeal.KValue

end
-- ==== Proof.PreDecode.lean ====
/-
  The precondition read back: it ends in "every entry of the edge table is at least 0 and below 50000" (one conjunct of
  a chain of conjunctions, itself an all-reduction of a pointwise conjunction of two signed comparisons), so under it
  every entry of the table is a node number.
-/
import proofs.«125175_j46377056862932_2_alg».proof.Defs
import proofs.«125175_j46377056862932_2_alg».proof.Proof.Gen.Pre_finite_inputs
import proofs.«125175_j46377056862932_2_alg».proof.Proof.KIdx
import Idealize.ShloMosaic.Lib.ReduceAll

set_option maxRecDepth 16384

noncomputable section

namespace Cert.KernelIdeal.KValue

open Cert.KernelIdeal Cert.KernelIdeal.Gen Idealize.ShloMosaic Idealize.ShloMosaic.TcCoe Idealize.SL.Sem

instance subsingleton_scalar_idx : Subsingleton (Cert.Pre_finite_inputs.S_.Idx) := ⟨fun a b => funext fun d => d.elim0⟩

theorem toInt_50000 : (50000#32 : BitVec 32).toInt = 50000 := by decide
theorem toInt_0 : (0#32 : BitVec 32).toInt = 0 := by decide

/-- Under the precondition every entry of the edge table is a node number. -/
theorem inRange_of_pre (m : (ℓ : Loc nD τ sig) → Buf (Elt Ideal) ℓ)
    (h : Cert.Pre_KernelIdeal (hPre_finite_inputs := Cert.Pre_finite_inputs.Gen.facts) m) (c : Dev nD) :
    InRange (m ((c.tc : Thread nD τ).loc main_arg1)) := by
  intro j
  have e := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at e
  have e2 := (IntOp.andi_eq_one.mp e).2
  have e3 := Host.reduce_andi_all _ _ _ _ _ e2 j
  have e4 := IntOp.andi_eq_one.mp e3
  have h0 := IntOp.cmpi_sge.mp e4.1
  have h1 := IntOp.cmpi_slt.mp e4.2
  have h0' : 0 ≤ (m ((c.tc : Thread nD τ).loc main_arg1) j).toInt := by rw [← toInt_0]; exact h0
  have h1' : (m ((c.tc : Thread nD τ).loc main_arg1) j).toInt < 50000 := by rw [← toInt_50000]; exact h1
  refine ⟨⟨(m ((c.tc : Thread nD τ).loc main_arg1) j).toInt.toNat, by omega⟩, ?_⟩
  show _ = ((m ((c.tc : Thread nD τ).loc main_arg1) j).toInt.toNat : Int)
  omega

end Cert.KernelIdeal.KValue

end
-- ==== Proof.RIdx.lean ====
/-
  The edge index vectors read entry by entry. The table of 850000 edges is the given 800000 pairs followed by the
  50000 self loops (n, n); so entry e of the source vector is edge_index[0, e] for e < 800000 and e − 800000 from there on,
  and likewise the targets with row 1. When every given entry lies in [0, 50000) so does every entry of both vectors,
  and then adding 50000 to the negative entries changes nothing.
-/
import proofs.«125175_j46377056862932_2_alg».proof.Proof.RDefs
import Idealize.ShloMosaic.Lib.Pipeline.Value
import Idealize.ShloMosaic.Lib.ValueLayout

noncomputable section

namespace Cert.ReferenceIdeal.RefValue

open Cert.ReferenceIdeal Cert.ReferenceIdeal.Gen Idealize.ShloMosaic Idealize.ShloMosaic.ValueIdx

/-- Entry (k, n) of the self-loop table is n. -/
theorem loops_apply (k : Fin 2) (n : Fin 50000) : loops (ix2 k n) = BitVec.ofNat 32 n.val := by
  unfold loops
  rw [shapeCast_apply _ _ (ix2 k n) (ix4 k (0 : Fin 1) (0 : Fin 1) n) (by
    rw [Shape.rowMajor_val_four, Shape.rowMajor_val_two]
    show ((k.val * 1 + 0) * 1 + 0) * 50000 + n.val = k.val * 50000 + n.val
    omega)]
  rw [broadcastInDim_apply _ _ _ (ix4 k (0 : Fin 1) (0 : Fin 1) n) (ix4 (0 : Fin 1) (0 : Fin 1) (0 : Fin 1) n) (by
    intro a
    match a with
    | ⟨0, _⟩ => rfl
    | ⟨1, _⟩ => rfl
    | ⟨2, _⟩ => rfl
    | ⟨3, _⟩ => rfl)]
  rw [shapeCast_apply _ _ (ix4 (0 : Fin 1) (0 : Fin 1) (0 : Fin 1) n) (ix2 (0 : Fin 1) n) (by
    rw [Shape.rowMajor_val_four, Shape.rowMajor_val_two]
    show 0 * 50000 + n.val = ((0 * 1 + 0) * 1 + 0) * 50000 + n.val
    omega)]
  rw [broadcastInDim_apply _ _ _ (ix2 (0 : Fin 1) n) (ix1 n) (by
    intro a
    match a with
    | ⟨0, _⟩ => rfl)]
  rfl

/-- Row k of the edge table: the given pair's entry for e < 800000. -/
theorem allEdges_left (a1 : IVec S2x800000 32) (k : Fin 2) (e : Fin 850000) (h : e.val < 800000) :
    allEdges a1 (ix2 k e) = a1 (ix2 k (⟨e.val, h⟩ : Fin 800000)) := by
  unfold allEdges
  exact concatenate_pair_apply_left (1 : Fin 2) a1 loops _ (ix2 k e) rfl (ix2 k (⟨e.val, h⟩ : Fin 800000)) (by
    intro b
    match b with
    | ⟨0, _⟩ => rfl
    | ⟨1, _⟩ => rfl)

/-- Row k of the edge table: the self loop e − 800000 from 800000 on. -/
theorem allEdges_right (a1 : IVec S2x800000 32) (k : Fin 2) (e : Fin 850000) (h : 800000 ≤ e.val) :
    allEdges a1 (ix2 k e) = BitVec.ofNat 32 (e.val - 800000) := by
  unfold allEdges
  have hlt : e.val - 800000 < 50000 := by have := e.isLt; omega
  refine Eq.trans (concatenate_pair_apply_right (t := S2x850000) (s₁ := S2x800000) (s₂ := S2x50000) (1 : Fin 2) a1 loops
    concatenates_S2x800000_S2x50000_S2x850000_d1 (ix2 k e) rfl rfl (ix2 k (⟨e.val - 800000, hlt⟩ : Fin 50000))
    (fun b hb => by
      have hb1 : b.val ≠ 1 := fun h1 => hb (Fin.ext h1)
      have hb2 : b.val < 2 := b.isLt
      have hb0 : b = ⟨0, by decide⟩ := Fin.ext (by show b.val = 0; omega)
      subst hb0; rfl)
    (Nat.sub_add_cancel h)) (loops_apply k _)

theorem rowVec_apply (a1 : IVec S2x800000 32) (e : Fin 850000) : rowVec a1 (ix1 e) = allEdges a1 (ix2 (0 : Fin 2) e) := by
  unfold rowVec
  rw [shapeCast_1a_a_apply]
  exact slice2_axis0_apply 0 (allEdges a1) _ (0 : Fin 1) e (0 : Fin 2) rfl

theorem colVec_apply (a1 : IVec S2x800000 32) (e : Fin 850000) : colVec a1 (ix1 e) = allEdges a1 (ix2 (1 : Fin 2) e) := by
  unfold colVec
  rw [shapeCast_1a_a_apply]
  exact slice2_axis0_apply 1 (allEdges a1) _ (0 : Fin 1) e (1 : Fin 2) rfl

/-- Every given entry is a node number. -/
def InRange (a1 : IVec S2x800000 32) : Prop := ∀ j : S2x800000.Idx, ∃ n : Fin 50000, (a1 j).toInt = (n.val : Int)

theorem ofNat_toInt (n : Nat) (h : n < 50000) : (BitVec.ofNat 32 n).toInt = (n : Int) := by
  have h1 : (BitVec.ofNat 32 n).toNat = n := by rw [BitVec.toNat_ofNat]; exact Nat.mod_eq_of_lt (by omega)
  rw [BitVec.toInt_eq_toNat_cond, h1, if_pos (by omega)]

/-- Every entry of the table with the loops appended is a node number. -/
theorem allEdges_inRange (a1 : IVec S2x800000 32) (hin : InRange a1) (k : Fin 2) (e : Fin 850000) :
    ∃ n : Fin 50000, (allEdges a1 (ix2 k e)).toInt = (n.val : Int) := by
  by_cases h : e.val < 800000
  · rw [allEdges_left a1 k e h]; exact hin _
  · have h' : 800000 ≤ e.val := Nat.le_of_not_lt h
    have hlt : e.val - 800000 < 50000 := by have := e.isLt; omega
    rw [allEdges_right a1 k e h']
    exact ⟨⟨e.val - 800000, hlt⟩, ofNat_toInt _ hlt⟩

theorem rowVec_inRange (a1 : IVec S2x800000 32) (hin : InRange a1) (e : Fin 850000) :
    ∃ n : Fin 50000, (rowVec a1 (ix1 e)).toInt = (n.val : Int) := by
  rw [rowVec_apply]; exact allEdges_inRange a1 hin _ e

theorem colVec_inRange (a1 : IVec S2x800000 32) (hin : InRange a1) (e : Fin 850000) :
    ∃ n : Fin 50000, (colVec a1 (ix1 e)).toInt = (n.val : Int) := by
  rw [colVec_apply]; exact allEdges_inRange a1 hin _ e

/-- The column of start indices reads the vector's entry. -/
theorem rawCol_apply (v : IVec S850000 32) (e : Fin 850000) : rawCol v (ix2 e (0 : Fin 1)) = v (ix1 e) := by
  unfold rawCol
  exact broadcastInDim_apply _ _ _ (ix2 e (0 : Fin 1)) (ix1 e) (by
    intro a
    match a with
    | ⟨0, _⟩ => rfl)

/-- On a vector of node numbers, adding 50000 to the negative entries changes nothing. -/
theorem wrapCol_eq_rawCol (v : IVec S850000 32) (hv : ∀ e : Fin 850000, ∃ n : Fin 50000, (v (ix1 e)).toInt = (n.val : Int)) :
    wrapCol v = rawCol v := by
  unfold wrapCol rawCol
  refine congrArg _ (funext fun j => ?_)
  obtain ⟨n, hn⟩ := hv (j 0)
  have hn' : (v j).toInt = (n.val : Int) := (congrArg (fun x => (v x).toInt) (eq_ix1 j)).trans hn
  show Scalar.select (IntOp.cmpi .slt (v j) 0#32) (IntOp.addi (v j) 50000#32) (v j) = v j
  have hs : IntOp.cmpi .slt (v j) 0#32 = 0#1 := by
    show BitVec.ofBool ((v j).slt 0#32) = 0#1
    have : (v j).slt 0#32 = false := by
      rw [BitVec.slt_eq_decide]
      simp [hn']
    rw [this]; rfl
  rw [hs, select_zero]

end Cert.ReferenceIdeal.RefValue

end
-- ==== Proof.Bridge.lean ====
/-
  The two programs' summed rows agree. The kernel scales each node's mixed row by the node's own factor before the rows
  travel along the edges, sums them at the targets, and scales the sum by the target's factor; the reference gathers
  the unscaled rows, computes the mix per edge, scales each message by the product of the two factors and sums. The
  mixed row of an edge is the mixed row of its source node (a gather commutes with a row-wise function), a factor
  1/√degree is a nonnegative real (so it passes through the finite sum), and the two products agree by associativity
  and commutativity. Where every edge entry is a node number, adding 50000 to the negative entries changes nothing,
  so the two programs' index columns, and with them the two degrees, are the same.
-/
import proofs.«125175_j46377056862932_2_alg».proof.Proof.KIdx
import proofs.«125175_j46377056862932_2_alg».proof.Proof.RIdx
import proofs.«125175_j46377056862932_2_alg».proof.Proof.LibEdgeSum

noncomputable section

open scoped BigOperators

namespace Cert.Bridge

open Idealize.ShloMosaic Idealize.ShloMosaic.ValueIdx Cert.Spec Cert.EdgeSum

/-- The word 0.0 is zero. -/
theorem zeroW_eq : zeroW = 0 := Ideal.ofBits_zero_f32

/-- 1/√degree is a nonnegative real whatever the degree: 0 where the degree is not positive, the inverse square
    root of a positive real or of +∞ (which is 0) elsewhere. -/
theorem dinvOf_nonneg (d : EReal) : 0 ≤ dinvOf d ∧ dinvOf d ≠ ⊤ := by
  unfold dinvOf
  rcases BitVec.eq_zero_or_eq_one (FloatOps.cmpf (F := Ideal) (φ := .f32) .ogt d zeroW) with h | h
  · rw [h, select_zero, zeroW_eq]; exact ⟨le_refl _, EReal.zero_ne_top⟩
  · rw [h, select_one, select_one]
    have hd : (0 : EReal) < d := by
      have h' : BitVec.ofBool (decide (zeroW < d)) = 1#1 := h
      rw [zeroW_eq] at h'
      by_contra hn
      rw [decide_eq_false hn] at h'
      exact absurd h' (by decide)
    induction d using EReal.rec with
    | bot => exact absurd hd (by simp)
    | coe x =>
      have hx : 0 < x := by exact_mod_cast hd
      have e : Ideal.rsqrt (x : EReal) = (((Real.sqrt x)⁻¹ : ℝ) : EReal) := by
        show (if x < 0 then ⊥ else if x = 0 then ⊤ else (((Real.sqrt x)⁻¹ : ℝ) : EReal)) = _
        rw [if_neg (not_lt.mpr hx.le), if_neg hx.ne']
      rw [e]
      exact ⟨EReal.coe_nonneg.mpr (inv_nonneg.mpr (Real.sqrt_nonneg x)), EReal.coe_ne_top _⟩
    | top => exact ⟨le_of_eq rfl, by show (0 : EReal) ≠ ⊤; exact EReal.zero_ne_top⟩

section Core

variable (wfg : GatherDims.WF ⟨2, ![50000, 128]⟩ ⟨2, ![850000, 1]⟩ ⟨2, ![850000, 128]⟩ [1] [0] [] [0] [] 1 ![1, 128])
  (wfv : GatherDims.WF ⟨1, ![50000]⟩ ⟨2, ![850000, 1]⟩ ⟨1, ![850000]⟩ [] [0] [] [0] [] 1 ![1])
  (wfs : ScatterDims.WF ⟨2, ![50000, 128]⟩ ⟨2, ![850000, 1]⟩ ⟨2, ![850000, 128]⟩ [1] [0] [0] 1)
  (XN XA : A2 50000 128) (W : A2 128 128) (b : A1 128) (v : A2 128 1)

/-- The mixed row of the node a row gather reads is the mix of the two gathered rows. -/
theorem gather_mix (idxS : IVec ⟨2, ![850000, 1]⟩ 32) (j : (⟨2, ![850000, 128]⟩ : Shape).Idx) :
    Host.gather (α := EReal) (rowGatherDims 50000 850000 128 wfg)
        (fun r => mix W b v (fun k => XN (ix2 (r 0) k)) (fun k => XA (ix2 (r 0) k)) (r 1)) idxS j
      = mix W b v (fun k => Host.gather (α := EReal) (rowGatherDims 50000 850000 128 wfg) XN idxS (ix2 (j 0) k))
          (fun k => Host.gather (α := EReal) (rowGatherDims 50000 850000 128 wfg) XA idxS (ix2 (j 0) k)) (j 1) := by
  have hop : ∀ k : Fin 128, (rowGatherDims 50000 850000 128 wfg).operandIdx (ix2 (j 0) k) idxS
      = ix2 (((rowGatherDims 50000 850000 128 wfg).operandIdx j idxS) 0) k := fun k => funext fun a => Fin.ext (by
    match a with
    | ⟨0, _⟩ => exact (rowGather_row wfg (ix2 (j 0) k) idxS).trans (rowGather_row wfg j idxS).symm
    | ⟨1, _⟩ => exact rowGather_col wfg (ix2 (j 0) k) idxS)
  have h1 : ((rowGatherDims 50000 850000 128 wfg).operandIdx j idxS) 1 = j 1 := Fin.ext (rowGather_col wfg j idxS)
  show mix W b v (fun k => XN (ix2 (((rowGatherDims 50000 850000 128 wfg).operandIdx j idxS) 0) k))
      (fun k => XA (ix2 (((rowGatherDims 50000 850000 128 wfg).operandIdx j idxS) 0) k))
      (((rowGatherDims 50000 850000 128 wfg).operandIdx j idxS) 1)
    = mix W b v (fun k => XN ((rowGatherDims 50000 850000 128 wfg).operandIdx (ix2 (j 0) k) idxS))
      (fun k => XA ((rowGatherDims 50000 850000 128 wfg).operandIdx (ix2 (j 0) k) idxS)) (j 1)
  rw [h1]
  simp only [hop]
  rfl

/-- THE SUMMED ROWS AGREE, over any degree and any two index columns whose targets are node numbers. -/
theorem core (deg : A1 50000) (idxS idxD : IVec ⟨2, ![850000, 1]⟩ 32)
    (hD : ∀ (e : Fin 850000) (n : Fin 50000), (idxD (ix2 e (0 : Fin 1))).toInt = (n.val : Int) →
        min (idxD (ix2 e (0 : Fin 1))).toInt.toNat (50000 - 1) = n.val)
    (r : (⟨2, ![50000, 128]⟩ : Shape).Idx) :
    (Host.scatterAdd (F := Ideal) (φ := .f32) (rowScatterDims 50000 850000 128 wfs) (fun _ => zeroW) idxD
        (Host.gather (α := EReal) (rowGatherDims 50000 850000 128 wfg)
          (fun r => dinvOf (deg (ix1 (r 0))) * mix W b v (fun k => XN (ix2 (r 0) k)) (fun k => XA (ix2 (r 0) k)) (r 1)) idxS) r : EReal)
        * dinvOf (deg (ix1 (r 0)))
      = Host.scatterAdd (F := Ideal) (φ := .f32) (rowScatterDims 50000 850000 128 wfs) (fun _ => zeroW) idxD
        (fun j => (Host.gather (α := EReal) (vecGatherDims 50000 850000 wfv) (fun n => dinvOf (deg n)) idxS (ix1 (j 0))
              * Host.gather (α := EReal) (vecGatherDims 50000 850000 wfv) (fun n => dinvOf (deg n)) idxD (ix1 (j 0)))
            * mix W b v (fun k => Host.gather (α := EReal) (rowGatherDims 50000 850000 128 wfg) XN idxS (ix2 (j 0) k))
                (fun k => Host.gather (α := EReal) (rowGatherDims 50000 850000 128 wfg) XA idxS (ix2 (j 0) k)) (j 1)) r := by
  have hA : (fun r : (⟨2, ![50000, 128]⟩ : Shape).Idx =>
        dinvOf (deg (ix1 (r 0))) * mix W b v (fun k => XN (ix2 (r 0) k)) (fun k => XA (ix2 (r 0) k)) (r 1))
      = fun r => (fun r : (⟨2, ![50000, 128]⟩ : Shape).Idx => mix W b v (fun k => XN (ix2 (r 0) k)) (fun k => XA (ix2 (r 0) k)) (r 1)) r
          * (fun n => dinvOf (deg n)) (ix1 (r 0)) := funext fun r => mul_comm _ _
  rw [hA]
  refine (edge_sum_law_host wfg wfv wfs _ (fun n => dinvOf (deg n)) (fun n => dinvOf_nonneg _) (fun _ => zeroW)
    (fun _ => zeroW_eq) idxS idxD idxD hD r).trans ?_
  refine congrFun (congrArg _ (funext fun j => ?_)) r
  rw [mul_comm, gather_mix wfg XN XA W b v idxS j]

end Core

end Cert.Bridge

end
-- ==== Proof.Agg.lean ====
/-
  The summed rows of the two programs agree on an edge table of node numbers: there the wrapped index columns are the
  plain ones, the two degrees are one accumulating scatter, and the general law applies.
-/
import proofs.«125175_j46377056862932_2_alg».proof.Proof.Bridge

noncomputable section

namespace Cert.Bridge

open Idealize.ShloMosaic Idealize.ShloMosaic.ValueIdx Cert.Spec Cert.EdgeSum

theorem agg_eq (a1 : IVec ⟨2, ![2, 800000]⟩ 32) (hin : Cert.KernelIdeal.KValue.InRange a1)
    (XN XA : A2 50000 128) (W : A2 128 128) (b : A1 128) (v : A2 128 1) (r : (⟨2, ![50000, 128]⟩ : Shape).Idx) :
    Cert.KernelIdeal.KValue.aggK a1 (Cert.KernelIdeal.KValue.m2K a1 XN XA W b v) r
      = Cert.ReferenceIdeal.RefValue.aggR a1 XN XA W b v r := by
  have hinR : Cert.ReferenceIdeal.RefValue.InRange a1 := hin
  have hcK := Cert.KernelIdeal.KValue.wrapCol_eq_rawCol (Cert.KernelIdeal.KValue.colVec a1) (Cert.KernelIdeal.KValue.colVec_inRange a1 hin)
  have hrK := Cert.KernelIdeal.KValue.wrapCol_eq_rawCol (Cert.KernelIdeal.KValue.rowVec a1) (Cert.KernelIdeal.KValue.rowVec_inRange a1 hin)
  have hcR := Cert.ReferenceIdeal.RefValue.wrapCol_eq_rawCol (Cert.ReferenceIdeal.RefValue.colVec a1) (Cert.ReferenceIdeal.RefValue.colVec_inRange a1 hinR)
  have hrR := Cert.ReferenceIdeal.RefValue.wrapCol_eq_rawCol (Cert.ReferenceIdeal.RefValue.rowVec a1) (Cert.ReferenceIdeal.RefValue.rowVec_inRange a1 hinR)
  have eRow : Cert.ReferenceIdeal.RefValue.rawCol (Cert.ReferenceIdeal.RefValue.rowVec a1)
      = Cert.KernelIdeal.KValue.rawCol (Cert.KernelIdeal.KValue.rowVec a1) := rfl
  have eCol : Cert.ReferenceIdeal.RefValue.rawCol (Cert.ReferenceIdeal.RefValue.colVec a1)
      = Cert.KernelIdeal.KValue.rawCol (Cert.KernelIdeal.KValue.colVec a1) := rfl
  have hD : ∀ (e : Fin 850000) (n : Fin 50000),
      (Cert.KernelIdeal.KValue.rawCol (Cert.KernelIdeal.KValue.colVec a1) (ix2 e (0 : Fin 1))).toInt = (n.val : Int) →
      min (Cert.KernelIdeal.KValue.rawCol (Cert.KernelIdeal.KValue.colVec a1) (ix2 e (0 : Fin 1))).toInt.toNat (50000 - 1) = n.val := by
    intro e n h
    rw [h, Int.toNat_natCast]
    have := n.isLt
    omega
  unfold Cert.KernelIdeal.KValue.aggK Cert.KernelIdeal.KValue.m2K Cert.ReferenceIdeal.RefValue.aggR
    Cert.KernelIdeal.KValue.degK Cert.ReferenceIdeal.RefValue.degR
  rw [hcK, hrK, hcR, hrR, eRow, eCol]
  exact core Cert.KernelIdeal.Gen.gather_S50000x128_S850000x1_S850000x128_1_0_n_n_0_1_1128_wf
    Cert.ReferenceIdeal.Gen.gather_S50000_S850000x1_S850000_n_0_n_n_0_1_1_wf
    Cert.KernelIdeal.Gen.scatter_S50000x128_S850000x1_S850000x128_1_0_0_1_wf XN XA W b v
    (Host.scatterAdd (F := Ideal) (φ := .f32) Cert.KernelIdeal.scatter_S50000_S850000x1_S850000_n_0_0_1 (fun _ => zeroW)
      (Cert.KernelIdeal.KValue.rawCol (Cert.KernelIdeal.KValue.colVec a1)) (fun _ => oneW))
    (Cert.KernelIdeal.KValue.rawCol (Cert.KernelIdeal.KValue.rowVec a1))
    (Cert.KernelIdeal.KValue.rawCol (Cert.KernelIdeal.KValue.colVec a1)) hD r

end Cert.Bridge

end
-- ==== Proof.lean ====
/-
  The certificate of a graph message-passing layer: a Pallas kernel pair against its jnp reference, equal as functions
  on the extended reals wherever every entry of the edge table is a node number.

  Both programs rectify x · W_in + b_in, project the two halves of the hidden row (the kernel through ONE matrix product
  with the block-diagonal matrix of W_nor and W_abnor: the off-diagonal blocks are zero, so each half of the product is
  the half-width sum), gate the two projections by α = logistic (tanh ((xn + xa) · W_att + b_att) · v_att) and mix them.
  The reference gathers the projected rows along the edges, mixes per edge, scales each message by
  1/√deg(src) · 1/√deg(dst) and sums the messages at their targets; the kernel mixes per node, scales by 1/√deg of the
  node, gathers, sums, and scales the sum by 1/√deg of the target. The two agree because the mix of gathered rows is the
  gathered mix, a factor 1/√deg is a nonnegative real (it passes through a finite sum of extended reals), and products
  re-associate. The two programs add 50000 to negative indices in different places (the kernel also before its
  scatters), which changes nothing when every index is a node number: that is the one use of the precondition.
  The head (a linear layer, the rectifier, the classifier) is the same row function of the summed row on both sides.
-/
import proofs.«125175_j46377056862932_2_alg».proof.Defs
import proofs.«125175_j46377056862932_2_alg».proof.Proof.Gen.Kernel.Frame
import proofs.«125175_j46377056862932_2_alg».proof.Proof.Gen.KernelIdeal.Frame
import proofs.«125175_j46377056862932_2_alg».proof.Proof.Gen.ReferenceIdeal
import proofs.«125175_j46377056862932_2_alg».proof.Proof.Gen.Pre_finite_inputs
import proofs.«125175_j46377056862932_2_alg».proof.Proof.KernelRun
import proofs.«125175_j46377056862932_2_alg».proof.Proof.KValue0
import proofs.«125175_j46377056862932_2_alg».proof.Proof.KValue1
import proofs.«125175_j46377056862932_2_alg».proof.Proof.RefRun
import proofs.«125175_j46377056862932_2_alg».proof.Proof.RefArgs
import proofs.«125175_j46377056862932_2_alg».proof.Proof.RefValue
import proofs.«125175_j46377056862932_2_alg».proof.Proof.PreDecode
import proofs.«125175_j46377056862932_2_alg».proof.Proof.Agg

noncomputable section

namespace Cert.Proof.Claims

open Idealize.ShloMosaic Idealize.ShloMosaic.TcCoe Idealize.SL.Sem Idealize.ShloMosaic.ValueIdx

/-- The kernel program's result, entry by entry: the head on the summed, scaled rows. -/
theorem kernel_out (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) (i : Cert.KernelIdeal.S50000x2.Idx) :
    (Cert.KernelIdeal.Gen.W8 m ρ c (Proc.devRef .tc Cert.KernelIdeal.main_v54) : Cert.KernelIdeal.S50000x2.Idx → EReal) i
      = Cert.Spec.cls (m ((c.tc : Thread Cert.KernelIdeal.nD Cert.KernelIdeal.τ).loc Cert.KernelIdeal.main_arg11))
          (m ((c.tc : Thread Cert.KernelIdeal.nD Cert.KernelIdeal.τ).loc Cert.KernelIdeal.main_arg12))
          (m ((c.tc : Thread Cert.KernelIdeal.nD Cert.KernelIdeal.τ).loc Cert.KernelIdeal.main_arg13))
          (m ((c.tc : Thread Cert.KernelIdeal.nD Cert.KernelIdeal.τ).loc Cert.KernelIdeal.main_arg14))
          (fun k => Cert.KernelIdeal.KValue.aggK (m ((c.tc : Thread Cert.KernelIdeal.nD Cert.KernelIdeal.τ).loc Cert.KernelIdeal.main_arg1))
            (Cert.KernelIdeal.KValue.m2K (m ((c.tc : Thread Cert.KernelIdeal.nD Cert.KernelIdeal.τ).loc Cert.KernelIdeal.main_arg1))
              (Cert.Spec.xn (Cert.Spec.hid (m ((c.tc : Thread Cert.KernelIdeal.nD Cert.KernelIdeal.τ).loc Cert.KernelIdeal.main_arg0))
                  (m ((c.tc : Thread Cert.KernelIdeal.nD Cert.KernelIdeal.τ).loc Cert.KernelIdeal.main_arg2))
                  (m ((c.tc : Thread Cert.KernelIdeal.nD Cert.KernelIdeal.τ).loc Cert.KernelIdeal.main_arg3)))
                (m ((c.tc : Thread Cert.KernelIdeal.nD Cert.KernelIdeal.τ).loc Cert.KernelIdeal.main_arg4))
                (m ((c.tc : Thread Cert.KernelIdeal.nD Cert.KernelIdeal.τ).loc Cert.KernelIdeal.main_arg5)))
              (Cert.Spec.xa (Cert.Spec.hid (m ((c.tc : Thread Cert.KernelIdeal.nD Cert.KernelIdeal.τ).loc Cert.KernelIdeal.main_arg0))
                  (m ((c.tc : Thread Cert.KernelIdeal.nD Cert.KernelIdeal.τ).loc Cert.KernelIdeal.main_arg2))
                  (m ((c.tc : Thread Cert.KernelIdeal.nD Cert.KernelIdeal.τ).loc Cert.KernelIdeal.main_arg3)))
                (m ((c.tc : Thread Cert.KernelIdeal.nD Cert.KernelIdeal.τ).loc Cert.KernelIdeal.main_arg6))
                (m ((c.tc : Thread Cert.KernelIdeal.nD Cert.KernelIdeal.τ).loc Cert.KernelIdeal.main_arg7)))
              (m ((c.tc : Thread Cert.KernelIdeal.nD Cert.KernelIdeal.τ).loc Cert.KernelIdeal.main_arg8))
              (m ((c.tc : Thread Cert.KernelIdeal.nD Cert.KernelIdeal.τ).loc Cert.KernelIdeal.main_arg9))
              (m ((c.tc : Thread Cert.KernelIdeal.nD Cert.KernelIdeal.τ).loc Cert.KernelIdeal.main_arg10))) (ix2 (i 0) k)) (i 1) := by
  rw [Cert.KernelIdeal.KValue.out_eq1, Cert.KernelIdeal.KValue.m2_eq]
  refine congrArg (fun f => Cert.Spec.cls _ _ _ _ f (i 1)) (funext fun k => ?_)
  dsimp only [Cert.KernelIdeal.KValue.aggK]
  exact congrArg (_ * ·) (Cert.KernelIdeal.KValue.dinv_col_eq m ρ c (i 0))

theorem frame_p : Cert.frame_Kernel (hKernel := Cert.Kernel.Gen.facts) (hPre_finite_inputs := Cert.Pre_finite_inputs.Gen.facts) :=
  fun m ρ _ => Cert.Kernel.Gen.frame m ρ
theorem frame_pi : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, the result dropped, each argument read back through the operations. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun r h c =>
    ⟨(h c Cert.ReferenceIdeal.main_arg0).trans (Cert.ReferenceIdeal.RefValue.arg0_eq _),
     (h c Cert.ReferenceIdeal.main_arg1).trans (Cert.ReferenceIdeal.RefValue.arg1_eq _),
     (h c Cert.ReferenceIdeal.main_arg2).trans (Cert.ReferenceIdeal.RefValue.arg2_eq _),
     (h c Cert.ReferenceIdeal.main_arg3).trans (Cert.ReferenceIdeal.RefValue.arg3_eq _),
     (h c Cert.ReferenceIdeal.main_arg4).trans (Cert.ReferenceIdeal.RefValue.arg4_eq _),
     (h c Cert.ReferenceIdeal.main_arg5).trans (Cert.ReferenceIdeal.RefValue.arg5_eq _),
     (h c Cert.ReferenceIdeal.main_arg6).trans (Cert.ReferenceIdeal.RefValue.arg6_eq _),
     (h c Cert.ReferenceIdeal.main_arg7).trans (Cert.ReferenceIdeal.RefValue.arg7_eq _),
     (h c Cert.ReferenceIdeal.main_arg8).trans (Cert.ReferenceIdeal.RefValue.arg8_eq _),
     (h c Cert.ReferenceIdeal.main_arg9).trans (Cert.ReferenceIdeal.RefValue.arg9_eq _),
     (h c Cert.ReferenceIdeal.main_arg10).trans (Cert.ReferenceIdeal.RefValue.arg10_eq _),
     (h c Cert.ReferenceIdeal.main_arg11).trans (Cert.ReferenceIdeal.RefValue.arg11_eq _),
     (h c Cert.ReferenceIdeal.main_arg12).trans (Cert.ReferenceIdeal.RefValue.arg12_eq _),
     (h c Cert.ReferenceIdeal.main_arg13).trans (Cert.ReferenceIdeal.RefValue.arg13_eq _),
     (h c Cert.ReferenceIdeal.main_arg14).trans (Cert.ReferenceIdeal.RefValue.arg14_eq _)⟩)
    (Cert.ReferenceIdeal.RefRun.run_main (F := Ideal) m ρ)

theorem preserves : Cert.preserves_Kernel_KernelIdeal := trivial

/-- The two idealized programs end with equal results: both are the head on the summed rows, and the summed rows agree
    on an edge table of node numbers, which the precondition gives. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W8 m ρ c (Proc.devRef .tc Cert.KernelIdeal.main_v54), Cert.KernelIdeal.KRun.run m ρ, ?_⟩
  refine (θ_run Cert.ReferenceIdeal.defs _ _).mono (fun r h c =>
    ⟨(h c Cert.ReferenceIdeal.main_v99).trans ?_,
     (h c Cert.ReferenceIdeal.main_arg0).trans (Cert.ReferenceIdeal.RefValue.arg0_eq _),
     (h c Cert.ReferenceIdeal.main_arg1).trans (Cert.ReferenceIdeal.RefValue.arg1_eq _),
     (h c Cert.ReferenceIdeal.main_arg2).trans (Cert.ReferenceIdeal.RefValue.arg2_eq _),
     (h c Cert.ReferenceIdeal.main_arg3).trans (Cert.ReferenceIdeal.RefValue.arg3_eq _),
     (h c Cert.ReferenceIdeal.main_arg4).trans (Cert.ReferenceIdeal.RefValue.arg4_eq _),
     (h c Cert.ReferenceIdeal.main_arg5).trans (Cert.ReferenceIdeal.RefValue.arg5_eq _),
     (h c Cert.ReferenceIdeal.main_arg6).trans (Cert.ReferenceIdeal.RefValue.arg6_eq _),
     (h c Cert.ReferenceIdeal.main_arg7).trans (Cert.ReferenceIdeal.RefValue.arg7_eq _),
     (h c Cert.ReferenceIdeal.main_arg8).trans (Cert.ReferenceIdeal.RefValue.arg8_eq _),
     (h c Cert.ReferenceIdeal.main_arg9).trans (Cert.ReferenceIdeal.RefValue.arg9_eq _),
     (h c Cert.ReferenceIdeal.main_arg10).trans (Cert.ReferenceIdeal.RefValue.arg10_eq _),
     (h c Cert.ReferenceIdeal.main_arg11).trans (Cert.ReferenceIdeal.RefValue.arg11_eq _),
     (h c Cert.ReferenceIdeal.main_arg12).trans (Cert.ReferenceIdeal.RefValue.arg12_eq _),
     (h c Cert.ReferenceIdeal.main_arg13).trans (Cert.ReferenceIdeal.RefValue.arg13_eq _),
     (h c Cert.ReferenceIdeal.main_arg14).trans (Cert.ReferenceIdeal.RefValue.arg14_eq _)⟩)
    (Cert.ReferenceIdeal.RefRun.run_main (F := Ideal) m' ρ')
  funext i
  refine (Cert.ReferenceIdeal.RefValue.out_eq _ i).trans ?_
  refine Eq.trans ?_ (kernel_out m ρ c i).symm
  have hin := Cert.KernelIdeal.KValue.inRange_of_pre m hpre c
  obtain ⟨h0, h1, h2, h3, h4, h5, h6, h7, h8, h9, h10, h11, h12, h13, h14⟩ := hagree c
  show Cert.Spec.cls (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14))
      (fun k => Cert.ReferenceIdeal.RefValue.aggR (m' ((c.tc : Thread Cert.ReferenceIdeal.nD Cert.ReferenceIdeal.τ).loc Cert.ReferenceIdeal.main_arg1))
        (Cert.Spec.xn (Cert.Spec.hid (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)))
          (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)))
        (Cert.Spec.xa (Cert.Spec.hid (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)))
          (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)))
        (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))
        (ix2 (i 0) k)) (i 1) = _
  rw [h0, h1, h2, h3, h4, h5, h6, h7, h8, h9, h10, h11, h12, h13, h14]
  exact congrArg (fun f => Cert.Spec.cls _ _ _ _ f (i 1)) (funext fun k => (Cert.Bridge.agg_eq _ hin _ _ _ _ _ _).symm)

end Cert.Proof.Claims

theorem Cert.Proof.claim : Cert.Claim :=
  ⟨Cert.Kernel.Gen.facts, Cert.KernelIdeal.Gen.facts, Cert.ReferenceIdeal.Gen.facts, Cert.Pre_finite_inputs.Gen.facts,
    Cert.Proof.Claims.frame_p, Cert.Proof.Claims.frame_pi, Cert.Proof.Claims.frame_ri, Cert.Proof.Claims.preserves, Cert.Proof.Claims.algebraic⟩

end
